-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S10000x64 : Shape := ⟨2, ![10000, 64]⟩
abbrev S850000x64 : Shape := ⟨2, ![850000, 64]⟩
abbrev S1x64 : Shape := ⟨2, ![1, 64]⟩
abbrev S64x1 : Shape := ⟨2, ![64, 1]⟩

abbrev nBuf : Space → Nat
  | .hbm => 107
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000x64, .f32⟩
  | .hbm, ⟨43, _⟩ => ⟨S_, .f32⟩
  | .hbm, ⟨44, _⟩ => ⟨S50000x64, .f32⟩
  | .hbm, ⟨45, _⟩ => ⟨S850000x1, .i32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S64x64, .f32⟩
  | .hbm, ⟨93, _⟩ => ⟨S50000x1, .i32⟩
  | .hbm, ⟨94, _⟩ => ⟨S64x64, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S64, .f32⟩
  | .hbm, ⟨99, _⟩ => ⟨S50000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x64, .f32⟩
  | .hbm, ⟨106, _⟩ => ⟨S64x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S64x64, .f32⟩
  | .local _ .vmem, ⟨18, _⟩ => ⟨S10000x64, .f32⟩
  | .local _ .vmem, ⟨19, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  shapeCasts_S1x64_S64 : S1x64.ShapeCasts S64
  bcast_S_S64 : S_.BroadcastsInDim S64 (![] : Fin 0 → Fin S64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S850000x1_S850000_n_0_0_1_wf : ScatterDims.WF S50000 S850000x1 S850000 [] [0] [0] 1
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S50000x64.size a
  hwx2_7 : ∀ i : grid2.Coords, EltTy.bits .f32 = 32 ∨ (Rect.block (s := S50000x64) S10000x64.size (cc2_transform_7 i) (hinb2_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩

abbrev nBuf : Space → Nat
  | .hbm => 152
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S64, .f32⟩
  | 71 => ⟨S_, .f32⟩
  | 72 => ⟨S64, .f32⟩
  | 73 => ⟨S64, .f32⟩
  | 74 => ⟨S_, .i32⟩
  | 75 => ⟨S_, .f32⟩
  | 76 => ⟨S64, .f32⟩
  | 77 => ⟨S1x64, .f32⟩
  | 78 => ⟨S_, .f32⟩
  | 79 => ⟨S1x64, .f32⟩
  | 80 => ⟨S1x64, .f32⟩
  | 81 => ⟨S50000x64, .f32⟩
  | 82 => ⟨S50000x64, .f32⟩
  | 83 => ⟨S50000x64, .f32⟩
  | 84 => ⟨S_, .f32⟩
  | 85 => ⟨S_, .f32⟩
  | 86 => ⟨S_, .f32⟩
  | 87 => ⟨S_, .f32⟩
  | 88 => ⟨S64, .f32⟩
  | 89 => ⟨S64, .f32⟩
  | 90 => ⟨S64, .f32⟩
  | 91 => ⟨S_, .f32⟩
  | 92 => ⟨S_, .i1⟩
  | 93 => ⟨S_, .f32⟩
  | 94 => ⟨S_, .f32⟩
  | 95 => ⟨S64, .f32⟩
  | 96 => ⟨S64, .f32⟩
  | 97 => ⟨S1x64, .f32⟩
  | 98 => ⟨S50000x64, .f32⟩
  | 99 => ⟨S50000x64, .f32⟩
  | 100 => ⟨S_, .f32⟩
  | 101 => ⟨S64, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .f32⟩
  | 126 => ⟨S850000x1, .f32⟩
  | 127 => ⟨S850000x64, .f32⟩
  | _ => ⟨S50000x64, .f32⟩

abbrev hbmTy0_1 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S64x64, .f32⟩
  | 10 => ⟨S50000x1, .i32⟩
  | 11 => ⟨S64x64, .f32⟩
  | 12 => ⟨S_, .f32⟩
  | 13 => ⟨S50000, .f32⟩
  | 14 => ⟨S_, .f32⟩
  | 15 => ⟨S64, .f32⟩
  | 16 => ⟨S50000x1, .i32⟩
  | 17 => ⟨S64, .f32⟩
  | 18 => ⟨S_, .f32⟩
  | 19 => ⟨S64, .f32⟩
  | 20 => ⟨S64, .f32⟩
  | 21 => ⟨S64x1, .f32⟩
  | 22 => ⟨S64x64, .f32⟩
  | 23 => ⟨S64x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_cst_3 : Ref sig .tc := ⟨.hbm, 91, rfl⟩
abbrev main_call1_v12 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_12 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call2_cst : Ref sig .tc := ⟨.hbm, 113, rfl⟩
abbrev main_call2_v0 : Ref sig .tc := ⟨.hbm, 114, rfl⟩
abbrev main_v66 : Ref sig .tc := ⟨.hbm, 115, rfl⟩
abbrev main_v67 : Ref sig .tc := ⟨.hbm, 116, rfl⟩
abbrev main_c_13 : Ref sig .tc := ⟨.hbm, 117, rfl⟩
abbrev main_v68 : Ref sig .tc := ⟨.hbm, 118, rfl⟩
abbrev main_v69 : Ref sig .tc := ⟨.hbm, 119, rfl⟩
abbrev main_c_14 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_15 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_16 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_17 : Ref sig .tc := ⟨.hbm, 140, rfl⟩
abbrev main_v87 : Ref sig .tc := ⟨.hbm, 141, rfl⟩
abbrev main_cst_18 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_19 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KRun.lean ====
/-
  The kernel program's run with its RESULT kept. The generated frame certificate runs @main as nine segments (six
  stretches of host operations, three pipelined regions) and ends with every unscoped buffer at the contents of the
  last boundary, `Gen.W9`; its post then keeps the nine argument arrays only. Here the same run keeps one more
  buffer: the result array, at `Gen.W9`'s value there. What that value IS, as a function of the arguments, is read
  back boundary by boundary in the modules that import this one.
-/
import proofs.«153679_j86535001080497_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the
    last boundary's contents and the nine argument arrays end as launched. -/
theorem run : θ_run defs (onTc (τ := τ) (main (F := F))) ⟨m, fun _ => 0, ρ⟩ (fun r => ∀ c : Dev nD,
      r.2.mem ((c.tc : Thread nD τ).loc main_v77) = W9 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v77 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.KRun

end
-- ==== Proof.KValue.lean ====
/-
  The kernel program's buffers, boundary by boundary, as functions of the argument arrays (first half: from the
  launch to the entry of the second region).

  The node ids of the edges: `src` and `dst` are the two rows of the edge list, each followed by the self-loops
  0 … 49999. The degree of a node counts the edges whose destination it is; `dinv` is its inverse square root
  (0 where the degree is 0) and `col` the same numbers as a column. The first region multiplies the node features by
  the first weight matrix; `spread` then scales each row by `dinv`, sends every edge's source row to its destination
  and sums there, and scales each row by `dinv` again: the normalised graph convolution with the normalisation
  factored out of the sum.
-/
import proofs.«153679_j86535001080497_2_alg».proof.Proof.Gen.KernelIdeal.Frame
import Idealize.ShloMosaic.Lib.StableHlo.Run
import Idealize.ShloMosaic.PureOps.Ideal

set_option maxRecDepth 16384

noncomputable section

namespace Cert.KernelIdeal.KVal

open Idealize.ShloMosaic Idealize.ShloMosaic.TcCoe Idealize.ShloMosaic.StableHlo
open Idealize.SL.Sem
open Cert.KernelIdeal Cert.KernelIdeal.Gen

/-! ## The stages as pure functions -/

/-- Row `k` of the edge list followed by the self-loops. -/
def ids (k : Fin 2) (ei : IVec S2x800000 32) : IVec S850000 32 :=
  match k with
  | 0 => concatenate S850000 0 [⟨S800000, fun i => shapeCast S800000 (extractStridedSlice S1x800000 ![0, 0] ei slices_S2x800000_S1x800000_0_0) shapeCasts_S1x800000_S800000 i⟩, ⟨S50000, iotaInDim S50000 32 0⟩] concatenates_S800000_S50000_S850000_d0
  | 1 => concatenate S850000 0 [⟨S800000, fun i => shapeCast S800000 (extractStridedSlice S1x800000 ![1, 0] ei slices_S2x800000_S1x800000_1_0) shapeCasts_S1x800000_S800000 i⟩, ⟨S50000, iotaInDim S50000 32 0⟩] concatenates_S800000_S50000_S850000_d0

/-- The number of edges arriving at each node, as a float. -/
def deg (d : IVec S850000 32) : FVec Ideal S50000 .f32 :=
  Host.scatterAdd (F := Ideal) scatter_S50000_S850000x1_S850000_n_0_0_1 (broadcastInDim S50000 ![] bcast_S_S50000 (constant (F := Ideal) S_ .f32 0x00000000#32))
    (broadcastInDim S850000x1 ![0] bcast_S850000_S850000x1_0 d) (broadcastInDim S850000 ![] bcast_S_S850000 (constant (F := Ideal) S_ .f32 0x3F800000#32))

/-- The inverse square root of the degree, 0 where the degree is 0. -/
def dinv (d : IVec S850000 32) : FVec Ideal S50000 .f32 :=
  select (cmpf (F := Ideal) .ogt (deg d) (broadcastInDim S50000 ![] bcast_S_S50000 (constant (F := Ideal) S_ .f32 0x00000000#32))) (Host.rsqrt (F := Ideal) (deg d))
    (broadcastInDim S50000 ![] bcast_S_S50000 (id (constant (F := Ideal) S_ .f32 0x00000000#32)))

/-- `dinv` as a column. -/
def col (d : IVec S850000 32) : FVec Ideal S50000x1 .f32 :=
  broadcastInDim S50000x1 ![0] bcast_S50000_S50000x1_0 (dinv d)

/-- Negative node ids wrapped by +50000, as a column of row indices. -/
def wrap (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The graph convolution with the normalisation factored out: scale row `n` by `cl n`, send every edge's source row
    to its destination and sum there, scale row `n` by `cl n` again. -/
def spread (cl : FVec Ideal S50000x1 .f32) (s d : IVec S850000 32) (h : FVec Ideal S50000x64 .f32) : FVec Ideal S50000x64 .f32 :=
  mulf (Host.scatterAdd (F := Ideal) scatter_S50000x64_S850000x1_S850000x64_1_0_0_1
      (broadcastInDim S50000x64 ![] bcast_S_S50000x64 (constant (F := Ideal) S_ .f32 0x00000000#32))
      (broadcastInDim S850000x1 ![0] bcast_S850000_S850000x1_0 d)
      (Host.gather gather_S50000x64_S850000x1_S850000x64_1_0_n_n_0_1_164
        (mulf h (broadcastInDim S50000x64 ![0, 1] bcast_S50000x1_S50000x64_0_1 cl)) (wrap s)))
    (broadcastInDim S50000x64 ![0, 1] bcast_S50000x1_S50000x64_0_1 cl)

/-- A vector of 64 numbers as a row. -/
def row (v : FVec Ideal S64 .f32) : FVec Ideal S1x64 .f32 := fun i => shapeCast S1x64 v shapeCasts_S64_S1x64 i

/-- A row as a vector of 64 numbers. -/
def unrow (v : FVec Ideal S1x64 .f32) : FVec Ideal S64 .f32 := fun i => shapeCast S64 v shapeCasts_S1x64_S64 i

/-- The column means from the column sums: divided by the number of rows, 50000. -/
def meanOf (sum : FVec Ideal S1x64 .f32) : FVec Ideal S64 .f32 :=
  Host.divf (F := Ideal) (unrow sum) (broadcastInDim S64 ![] bcast_S_S64 (constant (F := Ideal) S_ .f32 0x47435000#32))

/-- The one-pass column variances: the mean of the squares minus the square of the mean, not below 0. -/
def varOf (sum sumsq : FVec Ideal S1x64 .f32) : FVec Ideal S64 .f32 :=
  maximumf (subf (Host.divf (F := Ideal) (unrow sumsq) (broadcastInDim S64 ![] bcast_S_S64 (constant (F := Ideal) S_ .f32 0x47435000#32)))
      (mulf (meanOf sum) (meanOf sum)))
    (broadcastInDim S64 ![] bcast_S_S64 (constant (F := Ideal) S_ .f32 0x00000000#32))

/-- A bias added to every row. -/
def addBias (h : FVec Ideal S50000x64 .f32) (b : FVec Ideal S64 .f32) : FVec Ideal S50000x64 .f32 :=
  addf h (broadcastInDim S50000x64 ![0, 1] bcast_S1x64_S50000x64_0_1 (broadcastInDim S1x64 ![1] bcast_S64_S1x64_1 b))

/-- The mean of the rows of each graph: the rows summed by graph id, divided by the number of rows of the graph
    (at least 1). -/
def pool (batch : IVec S50000 32) (h : FVec Ideal S50000x64 .f32) : FVec Ideal S64x64 .f32 :=
  Host.divf (F := Ideal)
    (Host.scatterAdd (F := Ideal) scatter_S64x64_S50000x1_S50000x64_1_0_0_1
      (broadcastInDim S64x64 ![] bcast_S_S64x64 (constant (F := Ideal) S_ .f32 0x00000000#32))
      (broadcastInDim S50000x1 ![0] bcast_S50000_S50000x1_0 batch) h)
    (broadcastInDim S64x64 ![0, 1] bcast_S64x1_S64x64_0_1 (broadcastInDim S64x1 ![0] bcast_S64_S64x1_0
      (maximumf (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S64 ![] bcast_S_S64 (constant (F := Ideal) S_ .f32 0x3F800000#32)))))

variable (m : (ℓ : Loc nD τ sig) → Buf (Elt Ideal) ℓ) (ρ : Dev nD → PrngReg) (c : Dev nD)

/-! ## Each stretch of host operations, from ANY buffer contents `X` -/

section Stretches
variable (X : Valuation τ sig (Elt Ideal))

theorem s0_v3 : StableHlo.after (hostOps0 (F := Ideal)) X (Proc.devRef .tc main_v3) = ids 0 (X (Proc.devRef .tc main_arg1)) := by
  dsimp only [hostOps0]; after_results; rfl
theorem s0_v6 : StableHlo.after (hostOps0 (F := Ideal)) X (Proc.devRef .tc main_v6) = ids 1 (X (Proc.devRef .tc main_arg1)) := by
  dsimp only [hostOps0]; after_results; rfl
theorem s0_v12 : StableHlo.after (hostOps0 (F := Ideal)) X (Proc.devRef .tc main_v12) = cmpf (F := Ideal) .ogt (deg (ids 1 (X (Proc.devRef .tc main_arg1)))) (broadcastInDim S50000 ![] bcast_S_S50000 (constant (F := Ideal) S_ .f32 0x00000000#32)) := by
  dsimp only [hostOps0]; after_results; rfl
theorem s0_v13 : StableHlo.after (hostOps0 (F := Ideal)) X (Proc.devRef .tc main_v13) = Host.rsqrt (F := Ideal) (deg (ids 1 (X (Proc.devRef .tc main_arg1)))) := by
  dsimp only [hostOps0]; after_results; rfl
theorem s0_cst_2 : StableHlo.after (hostOps0 (F := Ideal)) X (Proc.devRef .tc main_cst_2) = constant (F := Ideal) S_ .f32 0x00000000#32 := by
  dsimp only [hostOps0]; after_results
theorem s01_v14 : StableHlo.after (hostOps0_1 (F := Ideal)) X (Proc.devRef .tc main_v14) = select (X (Proc.devRef .tc main_v12)) (X (Proc.devRef .tc main_v13))
      (broadcastInDim S50000 ![] bcast_S_S50000 (id (X (Proc.devRef .tc main_cst_2)))) := by
  dsimp only [hostOps0_1]; after_results; rfl
theorem s02_v15 : StableHlo.after (hostOps0_2 (F := Ideal)) X (Proc.devRef .tc main_v15) = broadcastInDim S50000x1 ![0] bcast_S50000_S50000x1_0 (X (Proc.devRef .tc main_v14)) := by
  dsimp only [hostOps0_2]; after_results

theorem s1_v30 : StableHlo.after (hostOps1 (F := Ideal)) X (Proc.devRef .tc main_v30) =
    spread (X (Proc.devRef .tc main_v15)) (X (Proc.devRef .tc main_v3)) (X (Proc.devRef .tc main_v6)) (X (Proc.devRef .tc main_v16)) := by
  dsimp only [hostOps1]; after_results_simp; unfold spread wrap; rfl
theorem s1_v31 : StableHlo.after (hostOps1 (F := Ideal)) X (Proc.devRef .tc main_v31) = row (X (Proc.devRef .tc main_arg4)) := by
  dsimp only [hostOps1]; after_results; rfl

theorem s2_v43 : StableHlo.after (hostOps2 (F := Ideal)) X (Proc.devRef .tc main_v43) = row (X (Proc.devRef .tc main_arg4)) := by
  dsimp only [hostOps2]; after_results; rfl
theorem s2_v44 : StableHlo.after (hostOps2 (F := Ideal)) X (Proc.devRef .tc main_v44) = row (meanOf (X (Proc.devRef .tc main_v32_0))) := by
  dsimp only [hostOps2]; after_results; rfl
theorem s2_v45 : StableHlo.after (hostOps2 (F := Ideal)) X (Proc.devRef .tc main_v45) = row (varOf (X (Proc.devRef .tc main_v32_0)) (X (Proc.devRef .tc main_v32_1))) := by
  dsimp only [hostOps2]; after_results; rfl
theorem s2_v46 : StableHlo.after (hostOps2 (F := Ideal)) X (Proc.devRef .tc main_v46) = row (X (Proc.devRef .tc main_arg5)) := by
  dsimp only [hostOps2]; after_results; rfl
theorem s2_v47 : StableHlo.after (hostOps2 (F := Ideal)) X (Proc.devRef .tc main_v47) = row (X (Proc.devRef .tc main_arg6)) := by
  dsimp only [hostOps2]; after_results; rfl

theorem s3_v77 : StableHlo.after (hostOps3 (F := Ideal)) X (Proc.devRef .tc main_v77) =
    pool (X (Proc.devRef .tc main_arg2))
      (addBias (spread (X (Proc.devRef .tc main_v15)) (X (Proc.devRef .tc main_v3)) (X (Proc.devRef .tc main_v6)) (X (Proc.devRef .tc main_v48))) (X (Proc.devRef .tc main_arg8))) := by
  dsimp only [hostOps3]; after_results_simp; unfold pool addBias spread wrap; rfl

end Stretches

/-! ## The boundaries of the run -/

theorem W1_v3 : W1 m ρ c (Proc.devRef .tc main_v3) = ids 0 (m ((c : Thread nD τ).loc main_arg1)) := s0_v3 (W0 m ρ c)
theorem W1_v6 : W1 m ρ c (Proc.devRef .tc main_v6) = ids 1 (m ((c : Thread nD τ).loc main_arg1)) := s0_v6 (W0 m ρ c)
theorem W2_v14 : W2 m ρ c (Proc.devRef .tc main_v14) = dinv (ids 1 (m ((c : Thread nD τ).loc main_arg1))) := by
  refine (s01_v14 (W1 m ρ c)).trans ?_
  rw [show W1 m ρ c (Proc.devRef .tc main_v12) = _ from s0_v12 (W0 m ρ c), show W1 m ρ c (Proc.devRef .tc main_v13) = _ from s0_v13 (W0 m ρ c),
    show W1 m ρ c (Proc.devRef .tc main_cst_2) = _ from s0_cst_2 (W0 m ρ c)]
  rfl
theorem W3_v15 : W3 m ρ c (Proc.devRef .tc main_v15) = col (ids 1 (m ((c : Thread nD τ).loc main_arg1))) := by
  refine (s02_v15 (W2 m ρ c)).trans ?_
  rw [W2_v14]; rfl

/-! ## Buffers no operation and no region writes in between -/

theorem W3_arg0 : W3 m ρ c (Proc.devRef .tc main_arg0) = m ((c : Thread nD τ).loc main_arg0) :=
  calc W3 m ρ c (Proc.devRef .tc main_arg0)
    _ = W2 m ρ c (Proc.devRef .tc main_arg0) := by dsimp only [W3, hostOps0_2]; after_results
    _ = W1 m ρ c (Proc.devRef .tc main_arg0) := by dsimp only [W2, hostOps0_1]; after_results
    _ = W0 m ρ c (Proc.devRef .tc main_arg0) := by dsimp only [W1, hostOps0]; after_results
    _ = m ((c : Thread nD τ).loc main_arg0) := rfl

theorem W3_arg3 : W3 m ρ c (Proc.devRef .tc main_arg3) = m ((c : Thread nD τ).loc main_arg3) :=
  calc W3 m ρ c (Proc.devRef .tc main_arg3)
    _ = W2 m ρ c (Proc.devRef .tc main_arg3) := by dsimp only [W3, hostOps0_2]; after_results
    _ = W1 m ρ c (Proc.devRef .tc main_arg3) := by dsimp only [W2, hostOps0_1]; after_results
    _ = W0 m ρ c (Proc.devRef .tc main_arg3) := by dsimp only [W1, hostOps0]; after_results
    _ = m ((c : Thread nD τ).loc main_arg3) := rfl

theorem W4_v15 : W4 m ρ c (Proc.devRef .tc main_v15) = W3 m ρ c (Proc.devRef .tc main_v15) :=
  calc W4 m ρ c (Proc.devRef .tc main_v15)
    _ = W3 m ρ c (Proc.devRef .tc main_v15) := W4_of_ne m ρ c main_v15 (by decide)

theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by dsimp only [W3, hostOps0_2]; after_results
    _ = W1 m ρ c (Proc.devRef .tc main_v3) := by dsimp only [W2, hostOps0_1]; after_results

theorem W4_v6 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by dsimp only [W3, hostOps0_2]; after_results
    _ = W1 m ρ c (Proc.devRef .tc main_v6) := by dsimp only [W2, hostOps0_1]; after_results

theorem W4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by dsimp only [W3, hostOps0_2]; after_results
    _ = W1 m ρ c (Proc.devRef .tc main_arg4) := by dsimp only [W2, hostOps0_1]; after_results
    _ = W0 m ρ c (Proc.devRef .tc main_arg4) := by dsimp only [W1, hostOps0]; after_results
    _ = m ((c : Thread nD τ).loc main_arg4) := rfl

theorem W6_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by dsimp only [W5, hostOps1]; after_results
    _ = W3 m ρ c (Proc.devRef .tc main_arg4) := W4_of_ne m ρ c main_arg4 (by decide)
    _ = W2 m ρ c (Proc.devRef .tc main_arg4) := by dsimp only [W3, hostOps0_2]; after_results
    _ = W1 m ρ c (Proc.devRef .tc main_arg4) := by dsimp only [W2, hostOps0_1]; after_results
    _ = W0 m ρ c (Proc.devRef .tc main_arg4) := by dsimp only [W1, hostOps0]; after_results
    _ = m ((c : Thread nD τ).loc main_arg4) := rfl

theorem W6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by dsimp only [W5, hostOps1]; after_results
    _ = W3 m ρ c (Proc.devRef .tc main_arg5) := W4_of_ne m ρ c main_arg5 (by decide)
    _ = W2 m ρ c (Proc.devRef .tc main_arg5) := by dsimp only [W3, hostOps0_2]; after_results
    _ = W1 m ρ c (Proc.devRef .tc main_arg5) := by dsimp only [W2, hostOps0_1]; after_results
    _ = W0 m ρ c (Proc.devRef .tc main_arg5) := by dsimp only [W1, hostOps0]; after_results
    _ = m ((c : Thread nD τ).loc main_arg5) := rfl

theorem W6_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by dsimp only [W5, hostOps1]; after_results
    _ = W3 m ρ c (Proc.devRef .tc main_arg6) := W4_of_ne m ρ c main_arg6 (by decide)
    _ = W2 m ρ c (Proc.devRef .tc main_arg6) := by dsimp only [W3, hostOps0_2]; after_results
    _ = W1 m ρ c (Proc.devRef .tc main_arg6) := by dsimp only [W2, hostOps0_1]; after_results
    _ = W0 m ρ c (Proc.devRef .tc main_arg6) := by dsimp only [W1, hostOps0]; after_results
    _ = m ((c : Thread nD τ).loc main_arg6) := rfl

theorem W7_v30 : W7 m ρ c (Proc.devRef .tc main_v30) = W5 m ρ c (Proc.devRef .tc main_v30) :=
  calc W7 m ρ c (Proc.devRef .tc main_v30)
    _ = W6 m ρ c (Proc.devRef .tc main_v30) := by dsimp only [W7, hostOps2]; after_results
    _ = W5 m ρ c (Proc.devRef .tc main_v30) := (W6_arr m ρ c 0).trans (((dat1 (V5 m ρ) c).arrAt_in 0 rfl _).trans (A_eq1 (V5 m ρ) c 0))

theorem W7_arg7 : W7 m ρ c (Proc.devRef .tc main_arg7) = m ((c : Thread nD τ).loc main_arg7) :=
  calc W7 m ρ c (Proc.devRef .tc main_arg7)
    _ = W6 m ρ c (Proc.devRef .tc main_arg7) := by dsimp only [W7, hostOps2]; after_results
    _ = W5 m ρ c (Proc.devRef .tc main_arg7) := W6_of_ne m ρ c main_arg7 (by decide)
    _ = W4 m ρ c (Proc.devRef .tc main_arg7) := by dsimp only [W5, hostOps1]; after_results
    _ = W3 m ρ c (Proc.devRef .tc main_arg7) := W4_of_ne m ρ c main_arg7 (by decide)
    _ = W2 m ρ c (Proc.devRef .tc main_arg7) := by dsimp only [W3, hostOps0_2]; after_results
    _ = W1 m ρ c (Proc.devRef .tc main_arg7) := by dsimp only [W2, hostOps0_1]; after_results
    _ = W0 m ρ c (Proc.devRef .tc main_arg7) := by dsimp only [W1, hostOps0]; after_results
    _ = m ((c : Thread nD τ).loc main_arg7) := rfl

theorem W8_v15 : W8 m ρ c (Proc.devRef .tc main_v15) = W3 m ρ c (Proc.devRef .tc main_v15) :=
  calc W8 m ρ c (Proc.devRef .tc main_v15)
    _ = W7 m ρ c (Proc.devRef .tc main_v15) := W8_of_ne m ρ c main_v15 (by decide)
    _ = W6 m ρ c (Proc.devRef .tc main_v15) := by dsimp only [W7, hostOps2]; after_results
    _ = W5 m ρ c (Proc.devRef .tc main_v15) := W6_of_ne m ρ c main_v15 (by decide)
    _ = W4 m ρ c (Proc.devRef .tc main_v15) := by dsimp only [W5, hostOps1]; after_results
    _ = W3 m ρ c (Proc.devRef .tc main_v15) := W4_of_ne m ρ c main_v15 (by decide)

theorem W8_v3 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by dsimp only [W7, hostOps2]; after_results
    _ = W5 m ρ c (Proc.devRef .tc main_v3) := W6_of_ne m ρ c main_v3 (by decide)
    _ = W4 m ρ c (Proc.devRef .tc main_v3) := by dsimp only [W5, hostOps1]; after_results
    _ = W3 m ρ c (Proc.devRef .tc main_v3) := W4_of_ne m ρ c main_v3 (by decide)
    _ = W2 m ρ c (Proc.devRef .tc main_v3) := by dsimp only [W3, hostOps0_2]; after_results
    _ = W1 m ρ c (Proc.devRef .tc main_v3) := by dsimp only [W2, hostOps0_1]; after_results

theorem W8_v6 : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by dsimp only [W7, hostOps2]; after_results
    _ = W5 m ρ c (Proc.devRef .tc main_v6) := W6_of_ne m ρ c main_v6 (by decide)
    _ = W4 m ρ c (Proc.devRef .tc main_v6) := by dsimp only [W5, hostOps1]; after_results
    _ = W3 m ρ c (Proc.devRef .tc main_v6) := W4_of_ne m ρ c main_v6 (by decide)
    _ = W2 m ρ c (Proc.devRef .tc main_v6) := by dsimp only [W3, hostOps0_2]; after_results
    _ = W1 m ρ c (Proc.devRef .tc main_v6) := by dsimp only [W2, hostOps0_1]; after_results

theorem W8_arg8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by dsimp only [W7, hostOps2]; after_results
    _ = W5 m ρ c (Proc.devRef .tc main_arg8) := W6_of_ne m ρ c main_arg8 (by decide)
    _ = W4 m ρ c (Proc.devRef .tc main_arg8) := by dsimp only [W5, hostOps1]; after_results
    _ = W3 m ρ c (Proc.devRef .tc main_arg8) := W4_of_ne m ρ c main_arg8 (by decide)
    _ = W2 m ρ c (Proc.devRef .tc main_arg8) := by dsimp only [W3, hostOps0_2]; after_results
    _ = W1 m ρ c (Proc.devRef .tc main_arg8) := by dsimp only [W2, hostOps0_1]; after_results
    _ = W0 m ρ c (Proc.devRef .tc main_arg8) := by dsimp only [W1, hostOps0]; after_results
    _ = m ((c : Thread nD τ).loc main_arg8) := rfl

theorem W8_arg2 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by dsimp only [W7, hostOps2]; after_results
    _ = W5 m ρ c (Proc.devRef .tc main_arg2) := W6_of_ne m ρ c main_arg2 (by decide)
    _ = W4 m ρ c (Proc.devRef .tc main_arg2) := by dsimp only [W5, hostOps1]; after_results
    _ = W3 m ρ c (Proc.devRef .tc main_arg2) := W4_of_ne m ρ c main_arg2 (by decide)
    _ = W2 m ρ c (Proc.devRef .tc main_arg2) := by dsimp only [W3, hostOps0_2]; after_results
    _ = W1 m ρ c (Proc.devRef .tc main_arg2) := by dsimp only [W2, hostOps0_1]; after_results
    _ = W0 m ρ c (Proc.devRef .tc main_arg2) := by dsimp only [W1, hostOps0]; after_results
    _ = m ((c : Thread nD τ).loc main_arg2) := rfl

/-! ## The entry contents of each region and the result, over what the regions leave -/

/-- The node ids, the normalisation column and the arguments, as every later boundary finds them. -/
theorem W4_v15' : W4 m ρ c (Proc.devRef .tc main_v15) = col (ids 1 (m ((c : Thread nD τ).loc main_arg1))) := (W4_v15 m ρ c).trans (W3_v15 m ρ c)
theorem W4_v3' : W4 m ρ c (Proc.devRef .tc main_v3) = ids 0 (m ((c : Thread nD τ).loc main_arg1)) := (W4_v3 m ρ c).trans (W1_v3 m ρ c)
theorem W4_v6' : W4 m ρ c (Proc.devRef .tc main_v6) = ids 1 (m ((c : Thread nD τ).loc main_arg1)) := (W4_v6 m ρ c).trans (W1_v6 m ρ c)
theorem W8_v15' : W8 m ρ c (Proc.devRef .tc main_v15) = col (ids 1 (m ((c : Thread nD τ).loc main_arg1))) := (W8_v15 m ρ c).trans (W3_v15 m ρ c)
theorem W8_v3' : W8 m ρ c (Proc.devRef .tc main_v3) = ids 0 (m ((c : Thread nD τ).loc main_arg1)) := (W8_v3 m ρ c).trans (W1_v3 m ρ c)
theorem W8_v6' : W8 m ρ c (Proc.devRef .tc main_v6) = ids 1 (m ((c : Thread nD τ).loc main_arg1)) := (W8_v6 m ρ c).trans (W1_v6 m ρ c)

/-- The convolution of the first region's result: the second and third regions' first operand. -/
theorem W5_v30 : W5 m ρ c (Proc.devRef .tc main_v30) =
    spread (col (ids 1 (m ((c : Thread nD τ).loc main_arg1)))) (ids 0 (m ((c : Thread nD τ).loc main_arg1))) (ids 1 (m ((c : Thread nD τ).loc main_arg1))) (W4 m ρ c (Proc.devRef .tc main_v16)) := by
  refine (s1_v30 (W4 m ρ c)).trans ?_
  rw [W4_v15', W4_v3', W4_v6']
theorem W5_v31 : W5 m ρ c (Proc.devRef .tc main_v31) = row (m ((c : Thread nD τ).loc main_arg4)) := by
  refine (s1_v31 (W4 m ρ c)).trans ?_
  rw [W4_arg4]

theorem W7_v43 : W7 m ρ c (Proc.devRef .tc main_v43) = row (m ((c : Thread nD τ).loc main_arg4)) := by
  refine (s2_v43 (W6 m ρ c)).trans ?_
  rw [W6_arg4]
theorem W7_v44 : W7 m ρ c (Proc.devRef .tc main_v44) = row (meanOf (W6 m ρ c (Proc.devRef .tc main_v32_0))) := s2_v44 (W6 m ρ c)
theorem W7_v45 : W7 m ρ c (Proc.devRef .tc main_v45) = row (varOf (W6 m ρ c (Proc.devRef .tc main_v32_0)) (W6 m ρ c (Proc.devRef .tc main_v32_1))) := s2_v45 (W6 m ρ c)
theorem W7_v46 : W7 m ρ c (Proc.devRef .tc main_v46) = row (m ((c : Thread nD τ).loc main_arg5)) := by
  refine (s2_v46 (W6 m ρ c)).trans ?_
  rw [W6_arg5]
theorem W7_v47 : W7 m ρ c (Proc.devRef .tc main_v47) = row (m ((c : Thread nD τ).loc main_arg6)) := by
  refine (s2_v47 (W6 m ρ c)).trans ?_
  rw [W6_arg6]

/-- The result: the second convolution of the third region's result, biased and pooled by graph. -/
theorem W9_v77 : W9 m ρ c (Proc.devRef .tc main_v77) =
    pool (m ((c : Thread nD τ).loc main_arg2))
      (addBias (spread (col (ids 1 (m ((c : Thread nD τ).loc main_arg1)))) (ids 0 (m ((c : Thread nD τ).loc main_arg1))) (ids 1 (m ((c : Thread nD τ).loc main_arg1))) (W8 m ρ c (Proc.devRef .tc main_v48)))
        (m ((c : Thread nD τ).loc main_arg8))) := by
  refine (s3_v77 (W8 m ρ c)).trans ?_
  rw [W8_v15', W8_v3', W8_v6', W8_arg8, W8_arg2]

end Cert.KernelIdeal.KVal

end
-- ==== Proof.Region0.lean ====
/-
  The value of the first pipelined region (the dense product of the node features with the first weight matrix):
  after the region, entry (n, j) of its output array is the sum over k of x[n, k] * W1[k, j], taken in the extended
  reals, for all 50000 rows, whatever the buffers hold when the region is entered.

  The region has five grid points; point t stages rows 10000 t … 10000 t + 9999 of x and the whole of W1, and writes
  back the same rows of the output. So (1) the body's one stored value, read at an index (p, q) of the block, is the
  sum over k of (block of x)[p, k] * W1[k, q]; (2) what point t writes back is therefore block t of the whole-array
  function; (3) the five blocks cover the 50000 rows: row r lies in the block of point r / 10000.
-/
import proofs.«153679_j86535001080497_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.SL.Sem
open Idealize.ShloMosaic.Pipeline (Dat)
open Idealize.ShloMosaic.ValueIdx
open Cert.KernelIdeal Cert.KernelIdeal.Gen

/-- The product's dimension numbers: the left operand's axis 1 against the right operand's axis 0. -/
abbrev D := dot_S10000x64_S64x64_S10000x64_1_0_0_1_n_n

/-- The left operand's index at output index (p, q) and contraction position k is (p, k). -/
theorem lhsIdx_eq (p : Fin 10000) (q : Fin 64) (k : Fin 64) :
    D.lhsIdx (ix2 p q) ((contrEquiv1 D 64 rfl rfl).symm k) = ix2 p k := by
  funext ax; apply Fin.ext
  match ax with
  | ⟨0, _⟩ => simp [DotDims.lhsIdx, D, dot_S10000x64_S64x64_S10000x64_1_0_0_1_n_n]; rfl
  | ⟨1, _⟩ => exact (D.lhsIdx_val_of_single (cl := 1) rfl (ix2 p q) _).trans (contrEquiv1_symm_val D 64 rfl rfl k)

/-- The right operand's index at output index (p, q) and contraction position k is (k, q). -/
theorem rhsIdx_eq (p : Fin 10000) (q : Fin 64) (k : Fin 64) :
    D.rhsIdx (ix2 p q) ((contrEquiv1 D 64 rfl rfl).symm k) = ix2 k q := by
  funext ax; apply Fin.ext
  match ax with
  | ⟨0, _⟩ => exact (D.rhsIdx_val_of_single (cr := 0) rfl (ix2 p q) _).trans (contrEquiv1_symm_val D 64 rfl rfl k)
  | ⟨1, _⟩ => simp [DotDims.rhsIdx, D, dot_S10000x64_S64x64_S10000x64_1_0_0_1_n_n]; rfl

/-- The body's one stored value at index (p, q) of the block: the two changes of format are the identity, the
    accumulator is zero, so it is the sum over k of x0[p, k] * x1[k, q]. -/
theorem pay_apply (x0 : Vec Ideal S10000x64 .f32) (x1 : Vec Ideal S64x64 .f32) (p : Fin 10000) (q : Fin 64) :
    k0_pay1 (F := Ideal) x0 x1 (ix2 p q) = ∑ k : Fin 64, (x0 (ix2 p k) : EReal) * (x1 (ix2 k q) : EReal) := by
  unfold k0_pay1
  refine (Ideal.matmul_constant_zero_apply D none _ _ (ix2 p q)).trans ?_
  rw [← Equiv.sum_comp (contrEquiv1 D 64 rfl rfl).symm]
  refine Finset.sum_congr rfl fun k _ => ?_
  rw [lhsIdx_eq, rhsIdx_eq]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The region's output as ONE function of the two arrays it reads: entry (n, j) is the sum over k of
    a0[n, k] * a1[k, j]. -/
def G (a0 : S50000x64.Idx → EReal) (a1 : S64x64.Idx → EReal) : S50000x64.Idx → EReal :=
  fun i => ∑ k : Fin 64, a0 (ix2 (i 0) k) * a1 (ix2 k (i 1))

/-- The printed index maps over the five grid points: the feature window and the output window sit at row block t,
    the weight window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of G of the two arrays as the region finds them. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = G (V c main_arg0) (V c main_arg3) (((cfg0.win 2).blk t).view.emb (ix2 p q))
  refine (pay_apply _ _ p q).trans ?_
  unfold G
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  have hx : iblk0 V c 0 t (ix2 p k) = V c main_arg0 (ix2 ((((cfg0.win 2).blk t).view.emb (ix2 p q)) 0) k) := by
    show V c main_arg0 (((cfg0.win 0).blk t).view.emb (ix2 p k)) = _
    exact congrArg _ h0
  have hy : iblk0 V c 1 t (ix2 k q) = V c main_arg3 (ix2 k ((((cfg0.win 2).blk t).view.emb (ix2 p q)) 1)) := by
    show V c main_arg3 (((cfg0.win 1).blk t).view.emb (ix2 k q)) = _
    exact congrArg _ h1
  exact congrArg₂ (fun a b : EReal => a * b) hx hy

/-- An index of the array is in point t's block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v16).slice (win0_2.rect t)).set ↔ _
  rw [View.set_slice_whole, Rect.mem_set_unit]
  exact Iff.rfl

/-- The five row blocks cover the array: row r lies in the block of point r / 10000. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 5 := N_0
  have ht : (i 0).val / 10000 < cfg0.N := by show _ < grid0.N; rw [hN]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The sum G is, entry by entry. -/
theorem G_apply (a0 : S50000x64.Idx → EReal) (a1 : S64x64.Idx → EReal) (i : S50000x64.Idx) :
    G a0 a1 i = ∑ k : Fin 64, a0 (ix2 (i 0) k) * a1 (ix2 k (i 1)) := rfl

/-- After the region, entry (n, j) of its output array is the sum over k of x[n, k] * W1[k, j], for all 50000 rows:
    the array is G of the feature array and the weight array as the region finds them. -/
theorem arr (c : Dev nD) : (dat0 (F := Ideal) V c).arrAt 2 cfg0.N = G (V c main_arg0) (V c main_arg3) :=
  (dat0 V c).arrAt_eq_of_cover 2 (G (V c main_arg0) (V c main_arg3)) (fun t _ => flushed_eq V c t) cover

end Cert.KernelIdeal.Region0

end
-- ==== Proof.Region1.lean ====
/-
  THE VALUE OF THE BATCH-NORM STATISTICS REGION. The region runs over five grid points; at point `t` it reads
  block `t` (rows 10000 t … 10000 t + 9999) of the conv array [50000,64] and the bias row [1,64], and keeps two [1,64]
  outputs in place across the points: at the first point both are set to zero, and at every point the column sums of
  (block + bias), resp. of its square, are added to them. Read at the ideal instance (floats are extended reals, every
  operation exact): after point `n` each column of the first output is the sum of (conv + bias) over the rows of blocks
  0 … n (`outsAt_eq`, by induction on the point), so after the last point it is the sum over all 50000 rows — five sums
  over 10000 rows regrouped as one, by commutativity and associativity of + alone (`sum_blocks`) — and that is what the
  one write-back leaves in the output array (`arr_sum`); likewise the second output and the squares (`arr_sumsq`).
-/
import proofs.«153679_j86535001080497_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen
open Idealize.ShloMosaic.ValueIdx
open scoped BigOperators

variable {F : FTy → Type} [FloatOps F]

/-- The zero offsets, as a constant function. -/
theorem hz : (![0, 0] : Fin 2 → Nat) = fun _ => 0 := funext fun a => by fin_cases a <;> rfl

/-- Case B, output 2 (the running sum): the one covering store's payload over the whole buffers. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 : Vec F S1x64 .f32) (xo2 xo3 : Vec F S1x64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, h4.read_unread,
    View.ld_unit_zero (S := S10000x64) hz, View.ld_unit_zero (S := S1x64) hz]

/-- Case B, output 3 (the running sum of squares): likewise. -/
theorem out_B_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond1_0 i)
    (x0 : Vec F S10000x64 .f32) (x1 : Vec F S1x64 .f32) (xo2 xo3 : Vec F S1x64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, h4.read_unread,
    View.ld_unit_zero (S := S10000x64) hz, View.ld_unit_zero (S := S1x64) hz]

/-- Case A, output 2: the zero block is stored first and read back, so the step runs from zero. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread,
    View.ld_unit_zero (S := S10000x64) hz, View.ld_unit_zero (S := S1x64) hz]

/-- Case A, output 3: likewise, from the second zero block. -/
theorem out_A_3 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond1_0 i)
    (x0 : Vec F S10000x64 .f32) (x1 : Vec F S1x64 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x64) hz, View.readCov_unit_zero (S := S1x64) _ hz]
  simp only [View.readAt_eq_ld, h1.read_unread, h2.read_unread,
    View.ld_unit_zero (S := S10000x64) hz, View.ld_unit_zero (S := S1x64) hz]

/-! ## The payloads read at an index, at the ideal instance -/

/-- A sum over the rows of a [10000,64] block, at column `b`: the plain sum of the block's column. -/
theorem colsum_apply (src : FVec Ideal S10000x64 .f32) (h : S10000x64.Reduces [0] S64) (hφ : FKind.Formats .f32)
    (hacc : (0x00000000#32 : BitVec 32) = FKind.add.neutral .f32 hφ) (b : Fin 64) :
    multiReduction (F := Ideal) .add [0] S64 src 0x00000000#32 h hφ hacc (ix1 b) = ∑ k : Fin 10000, src (ix2 k b) := by
  refine (Ideal.multiReduction_add_single src 0x00000000#32 h hφ hacc (ix1 b)).trans ?_
  refine Finset.sum_congr rfl fun k _ => congrArg src ?_
  funext a
  match a with
  | ⟨0, _⟩ => rfl
  | ⟨1, _⟩ => rfl

/-- The block plus the broadcast bias row, at (k, b). -/
theorem pay3_apply (x0 : Vec Ideal S10000x64 .f32) (x1 : Vec Ideal S1x64 .f32) (k : Fin 10000) (b : Fin 64) :
    k1_pay3 (F := Ideal) x0 x1 (ix2 k b) = x0 (ix2 k b) + x1 (ix2 (0 : Fin 1) b) := by
  unfold k1_pay3
  simp only [shapeCast_self]
  exact congrArg (x0 (ix2 k b) + ·) (broadcastTo_1b_ab_apply x1 _ k b)

/-- The running sum's step: what was there plus the column sum of (block + bias). -/
theorem pay4_apply (x0 : Vec Ideal S10000x64 .f32) (x1 : Vec Ideal S1x64 .f32) (xo : Vec Ideal S1x64 .f32) (u : Fin 1) (b : Fin 64) :
    k1_pay4 (F := Ideal) x0 x1 xo (ix2 u b)
      = xo (ix2 u b) + ∑ k : Fin 10000, (x0 (ix2 k b) + x1 (ix2 (0 : Fin 1) b)) := by
  unfold k1_pay4
  simp only [shapeCast_self]
  refine congrArg (xo (ix2 u b) + ·) ?_
  refine (shapeCast_a_1a_apply _ _ u b).trans ?_
  refine (colsum_apply _ _ _ _ b).trans ?_
  exact Finset.sum_congr rfl fun k _ => pay3_apply x0 x1 k b

/-- The running sum of squares' step. -/
theorem pay5_apply (x0 : Vec Ideal S10000x64 .f32) (x1 : Vec Ideal S1x64 .f32) (xo : Vec Ideal S1x64 .f32) (u : Fin 1) (b : Fin 64) :
    k1_pay5 (F := Ideal) x0 x1 xo (ix2 u b)
      = xo (ix2 u b) + ∑ k : Fin 10000, (x0 (ix2 k b) + x1 (ix2 (0 : Fin 1) b)) * (x0 (ix2 k b) + x1 (ix2 (0 : Fin 1) b)) := by
  unfold k1_pay5
  simp only [shapeCast_self]
  refine congrArg (xo (ix2 u b) + ·) ?_
  refine (shapeCast_a_1a_apply _ _ u b).trans ?_
  refine (colsum_apply _ _ _ _ b).trans ?_
  refine Finset.sum_congr rfl fun k _ => ?_
  show k1_pay3 (F := Ideal) x0 x1 (ix2 k b) * k1_pay3 (F := Ideal) x0 x1 (ix2 k b) = _
  rw [pay3_apply]

/-- The zero block the first point stores reads zero everywhere. -/
theorem pay1_apply (i : S1x64.Idx) : k1_pay1 (F := Ideal) i = 0 := by
  unfold k1_pay1
  exact Ideal.ofBits_zero_f32
/-- And so does the second. -/
theorem pay2_apply (i : S1x64.Idx) : k1_pay2 (F := Ideal) i = 0 := by
  unfold k1_pay2
  exact Ideal.ofBits_zero_f32

/-! ## The blocks the region reads, in the arrays as the region finds them -/

section AtIdeal

variable (V : (c : Dev nD) → (b : Ref sig .tc) → Buf (Elt Ideal) ((c : Thread nD τ).loc b))

/-- The sum of `g` over the rows of block `s` of the [50000, ·] array: rows `10000 s … 10000 s + 9999`. -/
def blockSum (g : Fin 50000 → EReal) (s : ℕ) : EReal :=
  ∑ k : Fin 10000, g ⟨(10000 * s + k.val) % 50000, Nat.mod_lt _ (by decide)⟩

/-- The conv array [50000,64] as the region finds it, as extended reals. -/
abbrev conv (c : Dev nD) : S50000x64.Idx → EReal := V c main_v30
/-- The bias row [1,64] as the region finds it. -/
abbrev bias (c : Dev nD) : S1x64.Idx → EReal := V c main_v31

/-- Column `b` of (conv + bias) at row `n`. -/
def colv (c : Dev nD) (b : Fin 64) (n : Fin 50000) : EReal :=
  conv V c (ix2 n b) + bias V c (ix2 (0 : Fin 1) b)

/-- The conv window's block index at point `t` is (t, 0). -/
theorem win0_index (t : Fin cfg1.N) : win1_0.index t 0 = t.val ∧ win1_0.index t 1 = 0 := by
  rcases fin_N1 t with rfl | rfl | rfl | rfl | rfl <;> decide

/-- The bias window's block index is (0, 0) at every point. -/
theorem win1_index (t : Fin cfg1.N) : win1_1.index t 0 = 0 ∧ win1_1.index t 1 = 0 := by
  rcases fin_N1 t with rfl | rfl | rfl | rfl | rfl <;> decide

/-- Block `t` of the conv array, at (k, b), is the array at row `10000 t + k`. -/
theorem iblk0_apply (c : Dev nD) (t : Fin cfg1.N) (k : Fin 10000) (b : Fin 64) :
    (iblk1 V c 0 t : Vec Ideal S10000x64 .f32) (ix2 k b)
      = V c main_v30 (ix2 (⟨(10000 * t.val + k.val) % 50000, Nat.mod_lt _ (by decide)⟩ : Fin 50000) b) := by
  have hN : t.val < 5 := lt_of_lt_of_eq t.isLt (show cfg1.N = 5 from N_1)
  have hi := win0_index t
  unfold iblk1
  rw [View.read_apply]
  show V c main_v30 _ = V c main_v30 _
  congr 1
  funext a
  apply Fin.ext
  match a with
  | ⟨0, _⟩ =>
    show win1_0.index t 0 * 10000 + 1 * k.val = (10000 * t.val + k.val) % 50000
    rw [hi.1]; have := k.isLt; omega
  | ⟨1, _⟩ =>
    show win1_0.index t 1 * 64 + 1 * b.val = b.val
    rw [hi.2]; omega

/-- The bias row's block is the bias row, at every point. -/
theorem iblk1_apply (c : Dev nD) (t : Fin cfg1.N) (u : Fin 1) (b : Fin 64) :
    (iblk1 V c 1 t : Vec Ideal S1x64 .f32) (ix2 u b) = V c main_v31 (ix2 (0 : Fin 1) b) := by
  have hi := win1_index t
  unfold iblk1
  rw [View.read_apply]
  show V c main_v31 _ = V c main_v31 _
  congr 1
  funext a
  apply Fin.ext
  match a with
  | ⟨0, _⟩ =>
    show win1_1.index t 0 * 1 + 1 * u.val = 0
    rw [hi.1]; have := u.isLt; omega
  | ⟨1, _⟩ =>
    show win1_1.index t 1 * 64 + 1 * b.val = b.val
    rw [hi.2]; omega

/-- Five blocks of 10000 rows are all 50000 rows: the sum regrouped (commutativity and associativity of + only). -/
theorem sum_blocks (g : Fin 50000 → EReal) : ∑ s ∈ Finset.range 5, blockSum g s = ∑ n : Fin 50000, g n := by
  rw [Finset.sum_range]
  unfold blockSum
  rw [← Fintype.sum_prod_type']
  refine Fintype.sum_equiv (finProdFinEquiv (m := 5) (n := 10000)) _ _ fun p => congrArg g (Fin.ext ?_)
  obtain ⟨s, k⟩ := p
  show (10000 * s.val + k.val) % 50000 = k.val + 10000 * s.val
  have := s.isLt; have := k.isLt; omega

/-- The column sum of (block `t` + bias) is the block's share of the whole column sum. -/
theorem block_eq (c : Dev nD) (t : Fin cfg1.N) (b : Fin 64) (x0 : Vec Ideal S10000x64 .f32) (x1 : Vec Ideal S1x64 .f32)
    (e0 : x0 = iblk1 V c 0 t) (e1 : x1 = iblk1 V c 1 t) :
    ∑ k : Fin 10000, (x0 (ix2 k b) + x1 (ix2 (0 : Fin 1) b)) = blockSum (colv V c b) t.val := by
  subst e0 e1
  unfold blockSum colv
  refine Finset.sum_congr rfl fun k _ => ?_
  rw [iblk0_apply V c t k b, iblk1_apply V c t 0 b]

/-- The same for the squares. -/
theorem block_sq_eq (c : Dev nD) (t : Fin cfg1.N) (b : Fin 64) (x0 : Vec Ideal S10000x64 .f32) (x1 : Vec Ideal S1x64 .f32)
    (e0 : x0 = iblk1 V c 0 t) (e1 : x1 = iblk1 V c 1 t) :
    ∑ k : Fin 10000, (x0 (ix2 k b) + x1 (ix2 (0 : Fin 1) b)) * (x0 (ix2 k b) + x1 (ix2 (0 : Fin 1) b))
      = blockSum (fun n => colv V c b n * colv V c b n) t.val := by
  subst e0 e1
  unfold blockSum colv
  refine Finset.sum_congr rfl fun k _ => ?_
  rw [iblk0_apply V c t k b, iblk1_apply V c t 0 b]

/-! ## What the two outputs hold after each point -/

/-- At the first point (the outputs zeroed, then the block added): the block's share alone. -/
theorem step_A (c : Dev nD) (t : Fin cfg1.N) (h0 : t.val % 5 = 0) (u : Fin 1) (b : Fin 64) :
    (outsAt1 V c t.val t.isLt).1 (ix2 u b) = blockSum (colv V c b) t.val
    ∧ (outsAt1 V c t.val t.isLt).2 (ix2 u b) = blockSum (fun n => colv V c b n * colv V c b n) t.val := by
  rw [outsAt1_A V c t h0]
  dsimp only
  rw [out_A_2 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t),
    out_A_3 (F := Ideal) c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t)]
  constructor
  · refine (pay4_apply (iblk1 V c 0 t) (iblk1 V c 1 t) (k1_pay1 (F := Ideal)) u b).trans ?_
    rw [pay1_apply, zero_add]
    exact block_eq V c t b _ _ rfl rfl
  · refine (pay5_apply (iblk1 V c 0 t) (iblk1 V c 1 t) (k1_pay2 (F := Ideal)) u b).trans ?_
    rw [pay2_apply, zero_add]
    exact block_sq_eq V c t b _ _ rfl rfl

/-- At a later point: what the point before left, plus the block's share. -/
theorem step_B (c : Dev nD) (t : Fin cfg1.N) (h0 : ¬t.val % 5 = 0) (u : Fin 1) (b : Fin 64) :
    (outsAt1 V c t.val t.isLt).1 (ix2 u b)
        = (outsAt1 V c (t.val - 1) (Nat.lt_of_le_of_lt (Nat.sub_le _ _) t.isLt)).1 (ix2 u b) + blockSum (colv V c b) t.val
    ∧ (outsAt1 V c t.val t.isLt).2 (ix2 u b)
        = (outsAt1 V c (t.val - 1) (Nat.lt_of_le_of_lt (Nat.sub_le _ _) t.isLt)).2 (ix2 u b)
          + blockSum (fun n => colv V c b n * colv V c b n) t.val := by
  rw [outsAt1_B V c t h0]
  dsimp only
  rw [out_B_2 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2,
    out_B_3 (F := Ideal) c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t)
      (outsAt1 V c (t.val - 1) (Nat.lt_of_le_of_lt (Nat.sub_le _ _) t.isLt)).1
      (outsAt1 V c (t.val - 1) (Nat.lt_of_le_of_lt (Nat.sub_le _ _) t.isLt)).2]
  constructor
  · refine (pay4_apply (iblk1 V c 0 t) (iblk1 V c 1 t) _ u b).trans ?_
    exact congrArg (_ + ·) (block_eq V c t b _ _ rfl rfl)
  · refine (pay5_apply (iblk1 V c 0 t) (iblk1 V c 1 t) _ u b).trans ?_
    exact congrArg (_ + ·) (block_sq_eq V c t b _ _ rfl rfl)

/-- THE INVARIANT: after point `n` each column of the first output holds the sum of (conv + bias) over the rows of blocks
    `0 … n`, and of the second the sum of its squares — by induction on the point. -/
theorem outsAt_eq (c : Dev nD) (u : Fin 1) (b : Fin 64) : ∀ (n : ℕ) (h : n < cfg1.N),
    (outsAt1 V c n h).1 (ix2 u b) = ∑ s ∈ Finset.range (n + 1), blockSum (colv V c b) s
    ∧ (outsAt1 V c n h).2 (ix2 u b) = ∑ s ∈ Finset.range (n + 1), blockSum (fun m => colv V c b m * colv V c b m) s
  | 0, h => by
    have := step_A V c ⟨0, h⟩ (Nat.zero_mod _) u b
    rw [Finset.sum_range_one, Finset.sum_range_one]
    exact this
  | n + 1, h => by
    have hN : n + 1 < 5 := lt_of_lt_of_eq h (show cfg1.N = 5 from N_1)
    have hB : ¬(⟨n + 1, h⟩ : Fin cfg1.N).val % 5 = 0 := by dsimp only; omega
    have hs := step_B V c ⟨n + 1, h⟩ hB u b
    have ih := outsAt_eq c u b n (Nat.lt_of_succ_lt h)
    rw [Finset.sum_range_succ _ (n + 1), Finset.sum_range_succ _ (n + 1), ← ih.1, ← ih.2]
    exact hs

/-! ## The arrays after the region -/

/-- The column sums of (conv + bias) over all 50000 rows. -/
def sumAll (c : Dev nD) : S1x64.Idx → EReal :=
  fun i => ∑ n : Fin 50000, (conv V c (ix2 n (i 1)) + bias V c (ix2 (0 : Fin 1) (i 1)))

/-- The column sums of its squares. -/
def sumsqAll (c : Dev nD) : S1x64.Idx → EReal :=
  fun i => ∑ n : Fin 50000, (conv V c (ix2 n (i 1)) + bias V c (ix2 (0 : Fin 1) (i 1)))
    * (conv V c (ix2 n (i 1)) + bias V c (ix2 (0 : Fin 1) (i 1)))

/-- After the last point the first output's buffer holds the whole column sums. -/
theorem last_sum (c : Dev nD) : (outsAt1 V c t1_4.val t1_4.isLt).1 = sumAll V c := by
  funext i
  rw [eq_ix2 i]
  exact ((outsAt_eq V c (i 0) (i 1) 4 t1_4.isLt).1).trans (sum_blocks (colv V c (i 1)))

/-- And the second the whole column sums of squares. -/
theorem last_sumsq (c : Dev nD) : (outsAt1 V c t1_4.val t1_4.isLt).2 = sumsqAll V c := by
  funext i
  rw [eq_ix2 i]
  exact ((outsAt_eq V c (i 0) (i 1) 4 t1_4.isLt).2).trans (sum_blocks (fun m => colv V c (i 1) m * colv V c (i 1) m))

/-- The one write-back of the first output, at the last point, writes the whole column sums: block (0, 0) of the [1,64]
    array read through zero offsets is the array. -/
theorem flushed2_eq (c : Dev nD) (t : Fin cfg1.N) (hf : (cfg1.win 2).flush t = true) :
    (dat1 V c).flushed 2 t = ((cfg1.win 2).blk t).view.read (Elt Ideal) (sumAll V c) := by
  have hN : t.val < 5 := lt_of_lt_of_eq t.isLt (show cfg1.N = 5 from N_1)
  have h4 : t.val = 4 := by have := (flush1_2 t).mp hf; omega
  obtain rfl : t = t1_4 := Fin.ext h4
  show (cfg1.win 2).cut (grid1.coords t1_4) ((dat1 V c).after 2 t1_4) = _
  rw [after1_2, last_sum]
  have hz' : (fun a => win1_2.index t1_4 a * main_v32_0.ty.shape.size a) = fun _ => 0 := funext fun a => by fin_cases a <;> decide
  exact (Memref.read_access_unit_zero (Elt Ideal) main_v32_0 hz' (fun a => by rw [congrFun hz' a]; simp) (sumAll V c)).symm

/-- The one write-back of the second output, likewise. -/
theorem flushed3_eq (c : Dev nD) (t : Fin cfg1.N) (hf : (cfg1.win 3).flush t = true) :
    (dat1 V c).flushed 3 t = ((cfg1.win 3).blk t).view.read (Elt Ideal) (sumsqAll V c) := by
  have hN : t.val < 5 := lt_of_lt_of_eq t.isLt (show cfg1.N = 5 from N_1)
  have h4 : t.val = 4 := by have := (flush1_3 t).mp hf; omega
  obtain rfl : t = t1_4 := Fin.ext h4
  show (cfg1.win 3).cut (grid1.coords t1_4) ((dat1 V c).after 3 t1_4) = _
  rw [after1_3, last_sumsq]
  have hz' : (fun a => win1_3.index t1_4 a * main_v32_1.ty.shape.size a) = fun _ => 0 := funext fun a => by fin_cases a <;> decide
  exact (Memref.read_access_unit_zero (Elt Ideal) main_v32_1 hz' (fun a => by rw [congrFun hz' a]; simp) (sumsqAll V c)).symm

/-- THE FIRST OUTPUT ARRAY AFTER THE REGION: each column's entry is the plain sum over all 50000 rows of (conv + bias). -/
theorem arr_sum' (c : Dev nD) : (dat1 V c).arrAt 2 cfg1.N = sumAll V c :=
  (dat1 V c).arrAt_eq_of_cover 2 (sumAll V c) (flushed2_eq V c) fun i =>
    ⟨t1_4, (flush1_2 t1_4).mpr rfl, by
      show i ∈ ((View.whole main_v32_0).slice (win1_2.rect t1_4)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_4 0 * win1_2.size 0 ≤ (i 0 : Nat) ∧ (i 0 : Nat) < win1_2.index t1_4 0 * win1_2.size 0 + win1_2.xsize (grid1.coords t1_4) 0
                  rw [show win1_2.index t1_4 0 * win1_2.size 0 = 0 from by decide +kernel, show win1_2.xsize (grid1.coords t1_4) 0 = 1 from by decide +kernel]; omega
      | ⟨1, _⟩ => show win1_2.index t1_4 1 * win1_2.size 1 ≤ (i 1 : Nat) ∧ (i 1 : Nat) < win1_2.index t1_4 1 * win1_2.size 1 + win1_2.xsize (grid1.coords t1_4) 1
                  rw [show win1_2.index t1_4 1 * win1_2.size 1 = 0 from by decide +kernel, show win1_2.xsize (grid1.coords t1_4) 1 = 64 from by decide +kernel]; omega⟩

/-- THE SECOND OUTPUT ARRAY AFTER THE REGION: each column's entry is the plain sum over all 50000 rows of (conv + bias)². -/
theorem arr_sumsq' (c : Dev nD) : (dat1 V c).arrAt 3 cfg1.N = sumsqAll V c :=
  (dat1 V c).arrAt_eq_of_cover 3 (sumsqAll V c) (flushed3_eq V c) fun i =>
    ⟨t1_4, (flush1_3 t1_4).mpr rfl, by
      show i ∈ ((View.whole main_v32_1).slice (win1_3.rect t1_4)).set
      rw [View.set_slice_whole, Rect.mem_set_unit]
      intro a
      have h0 : (i 0 : Nat) < 1 := (i 0).isLt
      have h1 : (i 1 : Nat) < 64 := (i 1).isLt
      match a with
      | ⟨0, _⟩ => show win1_3.index t1_4 0 * win1_3.size 0 ≤ (i 0 : Nat) ∧ (i 0 : Nat) < win1_3.index t1_4 0 * win1_3.size 0 + win1_3.xsize (grid1.coords t1_4) 0
                  rw [show win1_3.index t1_4 0 * win1_3.size 0 = 0 from by decide +kernel, show win1_3.xsize (grid1.coords t1_4) 0 = 1 from by decide +kernel]; omega
      | ⟨1, _⟩ => show win1_3.index t1_4 1 * win1_3.size 1 ≤ (i 1 : Nat) ∧ (i 1 : Nat) < win1_3.index t1_4 1 * win1_3.size 1 + win1_3.xsize (grid1.coords t1_4) 1
                  rw [show win1_3.index t1_4 1 * win1_3.size 1 = 0 from by decide +kernel, show win1_3.xsize (grid1.coords t1_4) 1 = 64 from by decide +kernel]; omega⟩

/-- The first output array after the region, index by index: the sum over all rows of (conv + bias) in the index's column. -/
theorem arr_sum (c : Dev nD) : (dat1 V c).arrAt 2 cfg1.N
    = fun i : S1x64.Idx => ∑ n : Fin 50000, (conv V c (ix2 n (i 1)) + bias V c (ix2 (0 : Fin 1) (i 1))) :=
  arr_sum' V c

/-- The second output array after the region, index by index: the sum over all rows of (conv + bias)² in the index's column. -/
theorem arr_sumsq (c : Dev nD) : (dat1 V c).arrAt 3 cfg1.N
    = fun i : S1x64.Idx => ∑ n : Fin 50000, (conv V c (ix2 n (i 1)) + bias V c (ix2 (0 : Fin 1) (i 1)))
        * (conv V c (ix2 n (i 1)) + bias V c (ix2 (0 : Fin 1) (i 1))) :=
  arr_sumsq' V c

/-- The same at explicit coordinates (u, b) of the [1,64] array. -/
theorem arr_sum_apply (c : Dev nD) (u : Fin 1) (b : Fin 64) :
    (dat1 V c).arrAt 2 cfg1.N (ix2 u b) = ∑ n : Fin 50000, (conv V c (ix2 n b) + bias V c (ix2 (0 : Fin 1) b)) :=
  congrFun (arr_sum' V c) (ix2 u b)

theorem arr_sumsq_apply (c : Dev nD) (u : Fin 1) (b : Fin 64) :
    (dat1 V c).arrAt 3 cfg1.N (ix2 u b)
      = ∑ n : Fin 50000, (conv V c (ix2 n b) + bias V c (ix2 (0 : Fin 1) b)) * (conv V c (ix2 n b) + bias V c (ix2 (0 : Fin 1) b)) :=
  congrFun (arr_sumsq' V c) (ix2 u b)

end AtIdeal

end Cert.KernelIdeal.Region1
end
-- ==== Proof.Region2.lean ====
/-
  The value of the third pipelined region (bias, batch normalisation, rectification, then the dense product with the
  second weight matrix): after the region, entry (n, j) of its output array is the sum over k of act[n, k] * W2[k, j],
  taken in the extended reals, for all 50000 rows, where
    act[n, k] = max ((((h[n, k] + b[0, k]) - mu[0, k]) * rsqrt (var[0, k] + eps)) * gamma[0, k] + beta[0, k]) 0
  and h, b, mu, var, gamma, beta, W2 are the arrays the region's windows stage, as the region finds them.

  The region has five grid points; point t stages rows 10000 t … 10000 t + 9999 of h, the whole of each one-row
  array and of W2, and writes back the same rows of the output. So (1) the body's one stored value, read at an index
  (p, q) of the block, is the sum over k of (the activation of the block)[p, k] * W2[k, q]; (2) what point t writes back
  is therefore block t of the whole-array function; (3) the five blocks cover the 50000 rows: row r lies in the block
  of point r / 10000.
-/
import proofs.«153679_j86535001080497_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.SL.Sem
open Idealize.ShloMosaic.Pipeline (Dat)
open Idealize.ShloMosaic.ValueIdx
open Cert.KernelIdeal Cert.KernelIdeal.Gen

/-- The product's dimension numbers: the left operand's axis 1 against the right operand's axis 0. -/
abbrev D := dot_S10000x64_S64x64_S10000x64_1_0_0_1_n_n

/-- The left operand's index at output index (p, q) and contraction position k is (p, k). -/
theorem lhsIdx_eq (p : Fin 10000) (q : Fin 64) (k : Fin 64) :
    D.lhsIdx (ix2 p q) ((contrEquiv1 D 64 rfl rfl).symm k) = ix2 p k := by
  funext ax; apply Fin.ext
  match ax with
  | ⟨0, _⟩ => simp [DotDims.lhsIdx, D, dot_S10000x64_S64x64_S10000x64_1_0_0_1_n_n]; rfl
  | ⟨1, _⟩ => exact (D.lhsIdx_val_of_single (cl := 1) rfl (ix2 p q) _).trans (contrEquiv1_symm_val D 64 rfl rfl k)

/-- The right operand's index at output index (p, q) and contraction position k is (k, q). -/
theorem rhsIdx_eq (p : Fin 10000) (q : Fin 64) (k : Fin 64) :
    D.rhsIdx (ix2 p q) ((contrEquiv1 D 64 rfl rfl).symm k) = ix2 k q := by
  funext ax; apply Fin.ext
  match ax with
  | ⟨0, _⟩ => exact (D.rhsIdx_val_of_single (cr := 0) rfl (ix2 p q) _).trans (contrEquiv1_symm_val D 64 rfl rfl k)
  | ⟨1, _⟩ => simp [DotDims.rhsIdx, D, dot_S10000x64_S64x64_S10000x64_1_0_0_1_n_n]; rfl

/-- The normalised, rectified activation from its six scalars: add the bias, subtract the mean, scale by the
    reciprocal square root of the variance plus the stabiliser, scale by gamma, add beta, and take the maximum with
    zero (zero is the second argument of the maximum). -/
def act1 (h b mu var gamma beta : EReal) : EReal :=
  max (((((h + b) - mu) * Ideal.rsqrt (var + Ideal.ofBits .f32 0x3727C5AC#32)) * gamma) + beta) 0

/-- The left operand of the body's product, read at (p, k) of the block: the activation of the block's entry (p, k)
    with the one-row arrays read at column k. -/
theorem lhs_apply (x0 : Vec Ideal S10000x64 .f32) (b var mu gamma beta : Vec Ideal S1x64 .f32) (p : Fin 10000) (k : Fin 64) :
    (truncf (F := Ideal) .bf16 (maximumf (addf (mulf (mulf (subf (addf (shapeCast S10000x64 x0 shapeCasts_S10000x64_S10000x64)
        (broadcastTo S10000x64 (shapeCast S1x64 b shapeCasts_S1x64_S1x64) broadcasts_S1x64_S10000x64))
        (broadcastTo S10000x64 (shapeCast S1x64 mu shapeCasts_S1x64_S1x64) broadcasts_S1x64_S10000x64))
        (broadcastTo S10000x64 (rsqrt (addf (shapeCast S1x64 var shapeCasts_S1x64_S1x64) (broadcast S1x64 (Scalar.ofBits (F := Ideal) .f32 0x3727C5AC#32)))) broadcasts_S1x64_S10000x64))
        (broadcastTo S10000x64 (shapeCast S1x64 gamma shapeCasts_S1x64_S1x64) broadcasts_S1x64_S10000x64))
        (broadcastTo S10000x64 (shapeCast S1x64 beta shapeCasts_S1x64_S1x64) broadcasts_S1x64_S10000x64))
        (broadcast S10000x64 (Scalar.ofBits (F := Ideal) .f32 0x00000000#32))) bitsLt_bf16_f32 : FVec Ideal S10000x64 .bf16) (ix2 p k)
      = act1 (x0 (ix2 p k)) (b (ix2 (0 : Fin 1) k)) (mu (ix2 (0 : Fin 1) k)) (var (ix2 (0 : Fin 1) k)) (gamma (ix2 (0 : Fin 1) k)) (beta (ix2 (0 : Fin 1) k)) := by
  rw [truncf_apply, maximumf_apply, addf_apply, mulf_apply, mulf_apply, subf_apply, addf_apply]
  simp only [shapeCast_self, broadcastTo_1b_ab_apply, broadcast_apply]
  show max (((((x0 (ix2 p k) : EReal) + b (ix2 (0 : Fin 1) k)) - mu (ix2 (0 : Fin 1) k))
      * Ideal.rsqrt (var (ix2 (0 : Fin 1) k) + Ideal.ofBits .f32 0x3727C5AC#32)) * gamma (ix2 (0 : Fin 1) k) + beta (ix2 (0 : Fin 1) k))
      (Ideal.ofBits .f32 0x00000000#32) = _
  rw [Ideal.ofBits_zero_f32]
  rfl

/-- The body's one stored value at index (p, q) of the block: the changes of format are the identity, the accumulator
    is zero, so it is the sum over k of the activation at (p, k) times x6[k, q]. The arguments are in the order the
    body reads its loads: the block of h, the bias, the variance, the mean, gamma, beta, the weights. -/
theorem pay_apply (x0 : Vec Ideal S10000x64 .f32) (b var mu gamma beta : Vec Ideal S1x64 .f32) (x6 : Vec Ideal S64x64 .f32)
    (p : Fin 10000) (q : Fin 64) :
    k2_pay1 (F := Ideal) x0 b var mu gamma beta x6 (ix2 p q)
      = ∑ k : Fin 64, act1 (x0 (ix2 p k)) (b (ix2 (0 : Fin 1) k)) (mu (ix2 (0 : Fin 1) k)) (var (ix2 (0 : Fin 1) k))
          (gamma (ix2 (0 : Fin 1) k)) (beta (ix2 (0 : Fin 1) k)) * (x6 (ix2 k q) : EReal) := by
  unfold k2_pay1
  refine (Ideal.matmul_constant_zero_apply D none _ _ (ix2 p q)).trans ?_
  rw [← Equiv.sum_comp (contrEquiv1 D 64 rfl rfl).symm]
  refine Finset.sum_congr rfl fun k _ => ?_
  rw [lhsIdx_eq, rhsIdx_eq]
  exact congrArg₂ (fun u v : EReal => u * v) (lhs_apply x0 b var mu gamma beta p k) rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The region's output as ONE function of the seven arrays it reads: entry (n, j) is the sum over k of the
    activation at (n, k) times w[k, j]. -/
def G (h : S50000x64.Idx → EReal) (b mu var gamma beta : S1x64.Idx → EReal) (w : S64x64.Idx → EReal) :
    S50000x64.Idx → EReal :=
  fun i => ∑ k : Fin 64, act1 (h (ix2 (i 0) k)) (b (ix2 (0 : Fin 1) k)) (mu (ix2 (0 : Fin 1) k)) (var (ix2 (0 : Fin 1) k))
    (gamma (ix2 (0 : Fin 1) k)) (beta (ix2 (0 : Fin 1) k)) * w (ix2 k (i 1))

/-- The sum G is, entry by entry. -/
theorem G_apply (h : S50000x64.Idx → EReal) (b mu var gamma beta : S1x64.Idx → EReal) (w : S64x64.Idx → EReal)
    (i : S50000x64.Idx) :
    G h b mu var gamma beta w i = ∑ k : Fin 64, act1 (h (ix2 (i 0) k)) (b (ix2 (0 : Fin 1) k)) (mu (ix2 (0 : Fin 1) k))
      (var (ix2 (0 : Fin 1) k)) (gamma (ix2 (0 : Fin 1) k)) (beta (ix2 (0 : Fin 1) k)) * w (ix2 k (i 1)) := rfl

/-- The printed index maps over the five grid points: the activation window and the output window sit at row block
    t, every other window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The activation window's block at point t is rows 10000 t … of its array: its entry (p, k) is the array's entry on
    the row of the output block's entry (p, q). -/
theorem read0 (c : Dev nD) (t : Fin cfg2.N) (p : Fin 10000) (q k : Fin 64) :
    iblk2 V c 0 t (ix2 p k) = V c main_v30 (ix2 ((((cfg2.win 7).blk t).view.emb (ix2 p q)) 0) k) := by
  obtain ⟨e0, e1, e2, e3, e4, e5, e6, e7, e8, e9, e10, e11, e12, e13, e14, e15⟩ := idx_facts t
  have h : ((cfg2.win 0).blk t).view.emb (ix2 p k) = ix2 ((((cfg2.win 7).blk t).view.emb (ix2 p q)) 0) k := by
    funext a; apply Fin.ext
    match a with
    | ⟨0, _⟩ => show win2_0.index t (0 : Fin 2) * 10000 + 1 * p.val = win2_7.index t (0 : Fin 2) * 10000 + 1 * p.val; omega
    | ⟨1, _⟩ => show win2_0.index t (1 : Fin 2) * 64 + 1 * k.val = k.val; omega
  show V c main_v30 (((cfg2.win 0).blk t).view.emb (ix2 p k)) = _
  exact congrArg _ h

/-- Window 1's block is its whole one-row array. -/
theorem read1 (c : Dev nD) (t : Fin cfg2.N) (k : Fin 64) :
    iblk2 V c 1 t (ix2 (0 : Fin 1) k) = V c main_v43 (ix2 (0 : Fin 1) k) := by
  obtain ⟨e0, e1, e2, e3, e4, e5, e6, e7, e8, e9, e10, e11, e12, e13, e14, e15⟩ := idx_facts t
  have h : ((cfg2.win 1).blk t).view.emb (ix2 (0 : Fin 1) k) = ix2 (0 : Fin 1) k := by
    funext a; apply Fin.ext
    match a with
    | ⟨0, _⟩ => show win2_1.index t (0 : Fin 2) * 1 + 1 * (0 : Fin 1).val = (0 : Fin 1).val; rw [e2]; rfl
    | ⟨1, _⟩ => show win2_1.index t (1 : Fin 2) * 64 + 1 * k.val = k.val; omega
  show V c main_v43 (((cfg2.win 1).blk t).view.emb (ix2 (0 : Fin 1) k)) = _
  exact congrArg _ h

/-- Window 2's block is its whole one-row array. -/
theorem read2 (c : Dev nD) (t : Fin cfg2.N) (k : Fin 64) :
    iblk2 V c 2 t (ix2 (0 : Fin 1) k) = V c main_v44 (ix2 (0 : Fin 1) k) := by
  obtain ⟨e0, e1, e2, e3, e4, e5, e6, e7, e8, e9, e10, e11, e12, e13, e14, e15⟩ := idx_facts t
  have h : ((cfg2.win 2).blk t).view.emb (ix2 (0 : Fin 1) k) = ix2 (0 : Fin 1) k := by
    funext a; apply Fin.ext
    match a with
    | ⟨0, _⟩ => show win2_2.index t (0 : Fin 2) * 1 + 1 * (0 : Fin 1).val = (0 : Fin 1).val; rw [e4]; rfl
    | ⟨1, _⟩ => show win2_2.index t (1 : Fin 2) * 64 + 1 * k.val = k.val; omega
  show V c main_v44 (((cfg2.win 2).blk t).view.emb (ix2 (0 : Fin 1) k)) = _
  exact congrArg _ h

/-- Window 3's block is its whole one-row array. -/
theorem read3 (c : Dev nD) (t : Fin cfg2.N) (k : Fin 64) :
    iblk2 V c 3 t (ix2 (0 : Fin 1) k) = V c main_v45 (ix2 (0 : Fin 1) k) := by
  obtain ⟨e0, e1, e2, e3, e4, e5, e6, e7, e8, e9, e10, e11, e12, e13, e14, e15⟩ := idx_facts t
  have h : ((cfg2.win 3).blk t).view.emb (ix2 (0 : Fin 1) k) = ix2 (0 : Fin 1) k := by
    funext a; apply Fin.ext
    match a with
    | ⟨0, _⟩ => show win2_3.index t (0 : Fin 2) * 1 + 1 * (0 : Fin 1).val = (0 : Fin 1).val; rw [e6]; rfl
    | ⟨1, _⟩ => show win2_3.index t (1 : Fin 2) * 64 + 1 * k.val = k.val; omega
  show V c main_v45 (((cfg2.win 3).blk t).view.emb (ix2 (0 : Fin 1) k)) = _
  exact congrArg _ h

/-- Window 4's block is its whole one-row array. -/
theorem read4 (c : Dev nD) (t : Fin cfg2.N) (k : Fin 64) :
    iblk2 V c 4 t (ix2 (0 : Fin 1) k) = V c main_v46 (ix2 (0 : Fin 1) k) := by
  obtain ⟨e0, e1, e2, e3, e4, e5, e6, e7, e8, e9, e10, e11, e12, e13, e14, e15⟩ := idx_facts t
  have h : ((cfg2.win 4).blk t).view.emb (ix2 (0 : Fin 1) k) = ix2 (0 : Fin 1) k := by
    funext a; apply Fin.ext
    match a with
    | ⟨0, _⟩ => show win2_4.index t (0 : Fin 2) * 1 + 1 * (0 : Fin 1).val = (0 : Fin 1).val; rw [e8]; rfl
    | ⟨1, _⟩ => show win2_4.index t (1 : Fin 2) * 64 + 1 * k.val = k.val; omega
  show V c main_v46 (((cfg2.win 4).blk t).view.emb (ix2 (0 : Fin 1) k)) = _
  exact congrArg _ h

/-- Window 5's block is its whole one-row array. -/
theorem read5 (c : Dev nD) (t : Fin cfg2.N) (k : Fin 64) :
    iblk2 V c 5 t (ix2 (0 : Fin 1) k) = V c main_v47 (ix2 (0 : Fin 1) k) := by
  obtain ⟨e0, e1, e2, e3, e4, e5, e6, e7, e8, e9, e10, e11, e12, e13, e14, e15⟩ := idx_facts t
  have h : ((cfg2.win 5).blk t).view.emb (ix2 (0 : Fin 1) k) = ix2 (0 : Fin 1) k := by
    funext a; apply Fin.ext
    match a with
    | ⟨0, _⟩ => show win2_5.index t (0 : Fin 2) * 1 + 1 * (0 : Fin 1).val = (0 : Fin 1).val; rw [e10]; rfl
    | ⟨1, _⟩ => show win2_5.index t (1 : Fin 2) * 64 + 1 * k.val = k.val; omega
  show V c main_v47 (((cfg2.win 5).blk t).view.emb (ix2 (0 : Fin 1) k)) = _
  exact congrArg _ h

/-- The weight window's block is its whole array: its entry (k, q) is the array's entry on the column of the output
    block's entry (p, q). -/
theorem read6 (c : Dev nD) (t : Fin cfg2.N) (p : Fin 10000) (q k : Fin 64) :
    iblk2 V c 6 t (ix2 k q) = V c main_arg7 (ix2 k ((((cfg2.win 7).blk t).view.emb (ix2 p q)) 1)) := by
  obtain ⟨e0, e1, e2, e3, e4, e5, e6, e7, e8, e9, e10, e11, e12, e13, e14, e15⟩ := idx_facts t
  have h : ((cfg2.win 6).blk t).view.emb (ix2 k q) = ix2 k ((((cfg2.win 7).blk t).view.emb (ix2 p q)) 1) := by
    funext a; apply Fin.ext
    match a with
    | ⟨0, _⟩ => show win2_6.index t (0 : Fin 2) * 64 + 1 * k.val = k.val; omega
    | ⟨1, _⟩ => show win2_6.index t (1 : Fin 2) * 64 + 1 * q.val = win2_7.index t (1 : Fin 2) * 64 + 1 * q.val; omega
  show V c main_arg7 (((cfg2.win 6).blk t).view.emb (ix2 k q)) = _
  exact congrArg _ h

/-- What point t writes back is block t of G of the seven arrays as the region finds them. -/
theorem flushed_eq (c : Dev nD) (t : Fin cfg2.N) :
    (dat2 V c).flushed 7 t = ((cfg2.win 7).blk t).view.read (Elt Ideal)
      (G (V c main_v30) (V c main_v43) (V c main_v44) (V c main_v45) (V c main_v46) (V c main_v47) (V c main_arg7)) := by
  show (cfg2.win 7).cut (grid2.coords t) ((dat2 V c).after 7 t) = _
  rw [after2_7]
  unfold out2_7
  rw [View.canon_unit_zero hz]
  simp only [View.ld_unit_zero (S := S10000x64) hz, View.ld_unit_zero (S := S1x64) hz, View.ld_unit_zero (S := S64x64) hz]
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (iblk2 V c 3 t) (iblk2 V c 2 t) (iblk2 V c 4 t) (iblk2 V c 5 t)
      (iblk2 V c 6 t) (ix2 p q)
    = G (V c main_v30) (V c main_v43) (V c main_v44) (V c main_v45) (V c main_v46) (V c main_v47) (V c main_arg7)
      (((cfg2.win 7).blk t).view.emb (ix2 p q))
  refine (pay_apply _ _ _ _ _ _ _ p q).trans ?_
  unfold G
  refine Finset.sum_congr rfl fun k _ => ?_
  exact congrArg₂ (fun u v : EReal => u * v)
    (congr (congr (congr (congr (congr (congrArg act1 (read0 V c t p q k)) (read1 V c t k)) (read2 V c t k)) (read3 V c t k))
      (read4 V c t k)) (read5 V c t k)) (read6 V c t p q k)

/-- An index of the array is in point t's block iff each coordinate is in the block's range on its axis. -/
theorem mem_blk (t : Fin cfg2.N) (i : S50000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v48).slice (win2_7.rect t)).set ↔ _
  rw [View.set_slice_whole, Rect.mem_set_unit]
  exact Iff.rfl

/-- The five row blocks cover the array: row r lies in the block of point r / 10000. -/
theorem cover (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  have hN : grid2.N = 5 := N_2
  have ht : (i 0).val / 10000 < cfg2.N := by show _ < grid2.N; rw [hN]; omega
  refine ⟨⟨(i 0).val / 10000, ht⟩, flush2_7 _, ?_⟩
  rw [mem_blk]
  obtain ⟨-, -, -, -, -, -, -, -, -, -, -, -, -, -, e14, e15⟩ := idx_facts ⟨(i 0).val / 10000, ht⟩
  intro a
  match a with
  | ⟨0, _⟩ =>
    show win2_7.index ⟨(i 0).val / 10000, ht⟩ (0 : Fin 2) * 10000 ≤ (i 0).val ∧ (i 0).val < win2_7.index ⟨(i 0).val / 10000, ht⟩ (0 : Fin 2) * 10000 + 10000
    rw [e14]; show (i 0).val / 10000 * 10000 ≤ (i 0).val ∧ (i 0).val < (i 0).val / 10000 * 10000 + 10000; omega
  | ⟨1, _⟩ =>
    show win2_7.index ⟨(i 0).val / 10000, ht⟩ (1 : Fin 2) * 64 ≤ (i 1).val ∧ (i 1).val < win2_7.index ⟨(i 0).val / 10000, ht⟩ (1 : Fin 2) * 64 + 64
    rw [e15]; omega

/-- After the region its output array is G of the seven arrays as the region finds them. -/
theorem arr_G (c : Dev nD) : (dat2 (F := Ideal) V c).arrAt 7 cfg2.N
    = G (V c main_v30) (V c main_v43) (V c main_v44) (V c main_v45) (V c main_v46) (V c main_v47) (V c main_arg7) :=
  (dat2 V c).arrAt_eq_of_cover 7 _ (fun t _ => flushed_eq V c t) cover

/-- The activation of node n in channel k, from the arrays as the region finds them. -/
def act (c : Dev nD) (n : Fin 50000) (k : Fin 64) : EReal :=
  act1 (V c main_v30 (ix2 n k)) (V c main_v43 (ix2 (0 : Fin 1) k)) (V c main_v44 (ix2 (0 : Fin 1) k))
    (V c main_v45 (ix2 (0 : Fin 1) k)) (V c main_v46 (ix2 (0 : Fin 1) k)) (V c main_v47 (ix2 (0 : Fin 1) k))

/-- The second weight matrix as the region finds it, as a function on its index set. -/
def wgt (c : Dev nD) : S64x64.Idx → EReal := V c main_arg7

/-- After the region, entry (n, j) of its output array is the sum over k of act[n, k] * W2[k, j], for all 50000 rows. -/
theorem arr (c : Dev nD) : (dat2 (F := Ideal) V c).arrAt 7 cfg2.N
    = fun i : S50000x64.Idx => ∑ k : Fin 64, act V c (i 0) k * wgt V c (ix2 k (i 1)) :=
  arr_G V c

end Cert.KernelIdeal.Region2

end
-- ==== Proof.KOut.lean ====
/-
  The kernel program's result as ONE function of its nine arguments.

  With `cl` the inverse square roots of the node degrees as a column, `s` and `d` the source and destination ids of
  the edges (self-loops included): the first region leaves the product of the node features with the first weight
  matrix; the convolution `spread cl s d` of it is the first layer before its bias. The second region sums each column
  of (layer + bias) and of its square over all 50000 rows; the host takes the column means and the one-pass variances
  from the two sums. The third region normalises every entry with them, scales and shifts it, clamps it below at 0 and
  multiplies by the second weight matrix. The convolution of that, plus the second bias, averaged over the nodes of
  each graph, is the result.
-/
import proofs.«153679_j86535001080497_2_alg».proof.Proof.KValue
import proofs.«153679_j86535001080497_2_alg».proof.Proof.Region0
import proofs.«153679_j86535001080497_2_alg».proof.Proof.Region1
import proofs.«153679_j86535001080497_2_alg».proof.Proof.Region2

set_option maxRecDepth 16384

noncomputable section

namespace Cert.KernelIdeal.KOut

open Idealize.ShloMosaic Idealize.ShloMosaic.TcCoe Idealize.ShloMosaic.StableHlo Idealize.ShloMosaic.ValueIdx
open Idealize.SL.Sem
open Cert.KernelIdeal Cert.KernelIdeal.Gen Cert.KernelIdeal.KVal

/-- The sum over all 50000 rows of (entry + the bias of its column), per column. -/
def colSum (cv : S50000x64.Idx → EReal) (b : S1x64.Idx → EReal) : S1x64.Idx → EReal :=
  fun i => ∑ n : Fin 50000, (cv (ix2 n (i 1)) + b (ix2 (0 : Fin 1) (i 1)))

/-- The same sum of the squares. -/
def colSumSq (cv : S50000x64.Idx → EReal) (b : S1x64.Idx → EReal) : S1x64.Idx → EReal :=
  fun i => ∑ n : Fin 50000, (cv (ix2 n (i 1)) + b (ix2 (0 : Fin 1) (i 1))) * (cv (ix2 n (i 1)) + b (ix2 (0 : Fin 1) (i 1)))

/-- The second layer's dense part: batch normalisation of (cv + bias) with its own column statistics, the clamp at 0,
    and the product with the second weight matrix. -/
def layer2 (cv : FVec Ideal S50000x64 .f32) (b1 gamma beta : FVec Ideal S64 .f32) (w2 : FVec Ideal S64x64 .f32) :
    FVec Ideal S50000x64 .f32 :=
  Region2.G cv (row b1) (row (meanOf (colSum cv (row b1)))) (row (varOf (colSum cv (row b1)) (colSumSq cv (row b1))))
    (row gamma) (row beta) w2

/-- The first layer before its bias. -/
def layer1 (x : FVec Ideal S50000x64 .f32) (ei : IVec S2x800000 32) (w1 : FVec Ideal S64x64 .f32) : FVec Ideal S50000x64 .f32 :=
  spread (col (ids 1 ei)) (ids 0 ei) (ids 1 ei) (Region0.G x w1)

/-- The kernel program's result. -/
def out (x : FVec Ideal S50000x64 .f32) (ei : IVec S2x800000 32) (batch : IVec S50000 32) (w1 : FVec Ideal S64x64 .f32)
    (b1 gamma beta : FVec Ideal S64 .f32) (w2 : FVec Ideal S64x64 .f32) (b2 : FVec Ideal S64 .f32) : FVec Ideal S64x64 .f32 :=
  pool batch (addBias (spread (col (ids 1 ei)) (ids 0 ei) (ids 1 ei) (layer2 (layer1 x ei w1) b1 gamma beta w2)) b2)

variable (m : (ℓ : Loc nD τ sig) → Buf (Elt Ideal) ℓ) (ρ : Dev nD → PrngReg) (c : Dev nD)

/-- The first region's array after the region. -/
theorem W4_v16 : W4 m ρ c (Proc.devRef .tc main_v16) = Region0.G (m ((c : Thread nD τ).loc main_arg0)) (m ((c : Thread nD τ).loc main_arg3)) := by
  rw [show W4 m ρ c (Proc.devRef .tc main_v16) = _ from W4_arr m ρ c 2, Region0.arr (V3 m ρ) c]
  rw [show V3 m ρ c main_arg0 = _ from W3_arg0 m ρ c, show V3 m ρ c main_arg3 = _ from W3_arg3 m ρ c]

/-- The first layer before its bias, as the second and third regions find it. -/
theorem W5_v30' : W5 m ρ c (Proc.devRef .tc main_v30) = layer1 (m ((c : Thread nD τ).loc main_arg0)) (m ((c : Thread nD τ).loc main_arg1)) (m ((c : Thread nD τ).loc main_arg3)) := by
  rw [W5_v30, W4_v16]; rfl

/-- The column sums the second region leaves. -/
theorem W6_v32_0 : W6 m ρ c (Proc.devRef .tc main_v32_0) =
    colSum (layer1 (m ((c : Thread nD τ).loc main_arg0)) (m ((c : Thread nD τ).loc main_arg1)) (m ((c : Thread nD τ).loc main_arg3))) (row (m ((c : Thread nD τ).loc main_arg4))) := by
  rw [show W6 m ρ c (Proc.devRef .tc main_v32_0) = _ from W6_arr m ρ c 2, Region1.arr_sum (V5 m ρ) c]
  show colSum (V5 m ρ c main_v30) (V5 m ρ c main_v31) = _
  rw [show V5 m ρ c main_v30 = _ from W5_v30' m ρ c, show V5 m ρ c main_v31 = _ from W5_v31 m ρ c]
theorem W6_v32_1 : W6 m ρ c (Proc.devRef .tc main_v32_1) =
    colSumSq (layer1 (m ((c : Thread nD τ).loc main_arg0)) (m ((c : Thread nD τ).loc main_arg1)) (m ((c : Thread nD τ).loc main_arg3))) (row (m ((c : Thread nD τ).loc main_arg4))) := by
  rw [show W6 m ρ c (Proc.devRef .tc main_v32_1) = _ from W6_arr m ρ c 3, Region1.arr_sumsq (V5 m ρ) c]
  show colSumSq (V5 m ρ c main_v30) (V5 m ρ c main_v31) = _
  rw [show V5 m ρ c main_v30 = _ from W5_v30' m ρ c, show V5 m ρ c main_v31 = _ from W5_v31 m ρ c]

/-- The third region's array after the region. -/
theorem W8_v48 : W8 m ρ c (Proc.devRef .tc main_v48) =
    layer2 (layer1 (m ((c : Thread nD τ).loc main_arg0)) (m ((c : Thread nD τ).loc main_arg1)) (m ((c : Thread nD τ).loc main_arg3))) (m ((c : Thread nD τ).loc main_arg4)) (m ((c : Thread nD τ).loc main_arg5)) (m ((c : Thread nD τ).loc main_arg6)) (m ((c : Thread nD τ).loc main_arg7)) := by
  rw [show W8 m ρ c (Proc.devRef .tc main_v48) = _ from W8_arr m ρ c 7, Region2.arr_G (V7 m ρ) c]
  rw [show V7 m ρ c main_v30 = _ from (W7_v30 m ρ c).trans (W5_v30' m ρ c),
    show V7 m ρ c main_v43 = _ from W7_v43 m ρ c, show V7 m ρ c main_v44 = _ from W7_v44 m ρ c,
    show V7 m ρ c main_v45 = _ from W7_v45 m ρ c, show V7 m ρ c main_v46 = _ from W7_v46 m ρ c,
    show V7 m ρ c main_v47 = _ from W7_v47 m ρ c, show V7 m ρ c main_arg7 = _ from W7_arg7 m ρ c,
    W6_v32_0, W6_v32_1]
  rfl

/-- The result buffer after the run. -/
theorem value : W9 m ρ c (Proc.devRef .tc main_v77) =
    out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W9_v77, W8_v48]; rfl

end Cert.KernelIdeal.KOut

end
-- ==== Proof.RefRun.lean ====
/- The reference's run, read back. @main calls the outlined variance, whose body itself makes a call, so @main is
   written here as ONE list of its 143 host operations (each outlined function's operations listed at its call site
   over that call's buffers), with the run of that list, and the result buffer's contents after it as a NAMED, STAGED
   function `out` of the nine argument arrays: the edge index vectors, the edge weights, one propagation, the dense
   layer, the bias, the batch normalisation with `relu`, the pooling — each stage the composition of the printed
   operations it stands for. The list is read in five consecutive windows, one per stage of `out`, from arbitrary
   contents: what a window leaves at a buffer that later windows read is a stage applied to what it found at the
   buffers it reads, and every other buffer it writes is not read again. -/
import proofs.«153679_j86535001080497_2_alg».proof.Proof.Gen.ReferenceIdeal
import Idealize.ShloMosaic.Lib.StableHlo.Run

-- the operation list and the proofs over it are terms 143 entries deep
set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The edges' source indices followed by the self-loop indices `0 … 49999` (%3): row 0 of the edge table, flattened, then the iota. -/
def src (ei : IVec S2x800000 32) : IVec S850000 32 :=
  concatenate S850000 0 [⟨S800000, (shapeCast S800000 (extractStridedSlice S1x800000 ![0, 0] ei slices_S2x800000_S1x800000_0_0) shapeCasts_S1x800000_S800000)⟩, ⟨S50000, (iotaInDim S50000 32 0)⟩] concatenates_S800000_S50000_S850000_d0

/-- The edges' destination indices followed by the self-loop indices (%6): row 1 of the edge table, flattened, then the iota. -/
def dst (ei : IVec S2x800000 32) : IVec S850000 32 :=
  concatenate S850000 0 [⟨S800000, (shapeCast S800000 (extractStridedSlice S1x800000 ![1, 0] ei slices_S2x800000_S1x800000_1_0) shapeCasts_S1x800000_S800000)⟩, ⟨S50000, (iotaInDim S50000 32 0)⟩] concatenates_S800000_S50000_S850000_d0

/-- The index normalisation (%15 … %20, and again %22 … %27, %31 … %36, %68 … %73): a negative index has 50000 added, and the vector becomes a column. -/
def norm32 (v : IVec S850000 32) : IVec S850000x1 32 :=
  (broadcastInDim S850000x1 ![0] bcast_S850000_S850000x1_0 : IVec S850000 32 → IVec S850000x1 32) ((select : IVec S850000 1 → IVec S850000 32 → IVec S850000 32 → IVec S850000 32) ((cmpi .slt : IVec S850000 32 → IVec S850000 32 → IVec S850000 1) v ((broadcastInDim S850000 ![] bcast_S_S850000 : IVec S_ 32 → IVec S850000 32) (constantI S_ 32 0#32))) ((addi : IVec S850000 32 → IVec S850000 32 → IVec S850000 32) v ((broadcastInDim S850000 ![] bcast_S_S850000 : IVec S_ 32 → IVec S850000 32) (constantI S_ 32 50000#32))) v)

/-- The degree (%10): ones scattered-added into zeros at the destinations. -/
def deg (ei : IVec S2x800000 32) : FVec F S50000 .f32 :=
  Host.scatterAdd scatter_S50000_S850000x1_S850000_n_0_0_1 ((broadcastInDim S50000 ![] bcast_S_S50000 : FVec F S_ .f32 → FVec F S50000 .f32) (constant S_ .f32 0x00000000#32)) ((broadcastInDim S850000x1 ![0] bcast_S850000_S850000x1_0 : IVec S850000 32 → IVec S850000x1 32) (dst ei)) ((broadcastInDim S850000 ![] bcast_S_S850000 : FVec F S_ .f32 → FVec F S850000 .f32) (constant S_ .f32 0x3F800000#32))

/-- The inverse square root of the degree (%14): where the degree is positive its `rsqrt`, elsewhere zero. -/
def dinv (ei : IVec S2x800000 32) : FVec F S50000 .f32 :=
  (select : IVec S50000 1 → FVec F S50000 .f32 → FVec F S50000 .f32 → FVec F S50000 .f32) ((cmpf .ogt : FVec F S50000 .f32 → FVec F S50000 .f32 → IVec S50000 1) (deg ei) ((broadcastInDim S50000 ![] bcast_S_S50000 : FVec F S_ .f32 → FVec F S50000 .f32) (constant S_ .f32 0x00000000#32))) ((Host.rsqrt : FVec F S50000 .f32 → FVec F S50000 .f32) (deg ei)) ((broadcastInDim S50000 ![] bcast_S_S50000 : FVec F S_ .f32 → FVec F S50000 .f32) ((id : FVec F S_ .f32 → FVec F S_ .f32) (constant S_ .f32 0x00000000#32)))

/-- The edge weights (%29): `dinv` gathered at the sources times `dinv` gathered at the destinations. -/
def enorm (ei : IVec S2x800000 32) : FVec F S850000 .f32 :=
  (mulf : FVec F S850000 .f32 → FVec F S850000 .f32 → FVec F S850000 .f32) (Host.gather gather_S50000_S850000x1_S850000_n_0_n_n_0_1_1 (dinv ei) ((norm32 (src ei)))) (Host.gather gather_S50000_S850000x1_S850000_n_0_n_n_0_1_1 (dinv ei) ((norm32 (dst ei))))

/-- One propagation over given sources `s`, destinations `d` and edge weights `en` (%37 … %43, and again %74 … %80): the rows of `h` gathered at the sources, each times its edge's weight, scattered-added into zeros at the destinations. -/
def propG (s d : IVec S850000 32) (en : FVec F S850000 .f32) (h : FVec F S50000x64 .f32) : FVec F S50000x64 .f32 :=
  Host.scatterAdd scatter_S50000x64_S850000x1_S850000x64_1_0_0_1 ((broadcastInDim S50000x64 ![] bcast_S_S50000x64 : FVec F S_ .f32 → FVec F S50000x64 .f32) (constant S_ .f32 0x00000000#32)) ((broadcastInDim S850000x1 ![0] bcast_S850000_S850000x1_0 : IVec S850000 32 → IVec S850000x1 32) d) ((mulf : FVec F S850000x64 .f32 → FVec F S850000x64 .f32 → FVec F S850000x64 .f32) (Host.gather gather_S50000x64_S850000x1_S850000x64_1_0_n_n_0_1_164 h (norm32 s)) ((broadcastInDim S850000x64 ![0, 1] bcast_S850000x1_S850000x64_0_1 : FVec F S850000x1 .f32 → FVec F S850000x64 .f32) ((broadcastInDim S850000x1 ![0] bcast_S850000_S850000x1_0 : FVec F S850000 .f32 → FVec F S850000x1 .f32) en)))

/-- The propagation of the edge table `ei` (%43 from %30, %80 from %67). -/
def prop (ei : IVec S2x800000 32) (h : FVec F S50000x64 .f32) : FVec F S50000x64 .f32 :=
  propG (src ei) (dst ei) (enorm ei) h

/-- The dense layer `h · w` (%30, %67). -/
def dense (h : FVec F S50000x64 .f32) (w : FVec F S64x64 .f32) : FVec F S50000x64 .f32 :=
  Host.dotGeneral dot_S50000x64_S64x64_S50000x64_1_0_0_1_n_n none h w

/-- The bias `b` added to every row (%44 … %46, %81 … %83). -/
def addBias (h : FVec F S50000x64 .f32) (b : FVec F S64 .f32) : FVec F S50000x64 .f32 :=
  (addf : FVec F S50000x64 .f32 → FVec F S50000x64 .f32 → FVec F S50000x64 .f32) h ((broadcastInDim S50000x64 ![0, 1] bcast_S1x64_S50000x64_0_1 : FVec F S1x64 .f32 → FVec F S50000x64 .f32) ((broadcastInDim S1x64 ![1] bcast_S64_S1x64_1 : FVec F S64 .f32 → FVec F S1x64 .f32) b))

/-- The column means (%49): the column sums over 50000. -/
def mean (hb : FVec F S50000x64 .f32) : FVec F S64 .f32 :=
  (Host.divf : FVec F S64 .f32 → FVec F S64 .f32 → FVec F S64 .f32) (Host.reduceAdd hb (constant S_ .f32 0x00000000#32) reducesTo_S50000x64_S64_d0 h_S_) ((broadcastInDim S64 ![] bcast_S_S64 : FVec F S_ .f32 → FVec F S64 .f32) (constant S_ .f32 0x47435000#32))

/-- The deviations from the column means, as the outlined variance computes them (its %5). -/
def center (hb : FVec F S50000x64 .f32) : FVec F S50000x64 .f32 :=
  (subf : FVec F S50000x64 .f32 → FVec F S50000x64 .f32 → FVec F S50000x64 .f32) hb ((broadcastInDim S50000x64 ![0, 1] bcast_S1x64_S50000x64_0_1 : FVec F S1x64 .f32 → FVec F S50000x64 .f32) ((Host.divf : FVec F S1x64 .f32 → FVec F S1x64 .f32 → FVec F S1x64 .f32) ((broadcastInDim S1x64 ![1] bcast_S64_S1x64_1 : FVec F S64 .f32 → FVec F S1x64 .f32) (Host.reduceAdd hb (constant S_ .f32 0x00000000#32) reducesTo_S50000x64_S64_d0 h_S_)) ((broadcastInDim S1x64 ![] bcast_S_S1x64 : FVec F S_ .f32 → FVec F S1x64 .f32) (constant S_ .f32 0x47435000#32))))

/-- The column variances as the outlined function computes them (%50): the column sums of the squared deviations over `50000 − 0`, kept where that divisor is positive. -/
def variance (hb : FVec F S50000x64 .f32) : FVec F S64 .f32 :=
  select (broadcastInDim S64 ![] bcast_S_S64 ((cmpf .ogt : FVec F S_ .f32 → FVec F S_ .f32 → IVec S_ 1) ((subf : FVec F S_ .f32 → FVec F S_ .f32 → FVec F S_ .f32) (constant S_ .f32 0x47435000#32) ((sitofp .f32 : IVec S_ 32 → FVec F S_ .f32) (constantI S_ 32 0#32))) (constant S_ .f32 0x00000000#32))) ((Host.divf : FVec F S64 .f32 → FVec F S64 .f32 → FVec F S64 .f32) (Host.reduceAdd ((mulf : FVec F S50000x64 .f32 → FVec F S50000x64 .f32 → FVec F S50000x64 .f32) (center hb) (center hb)) (constant S_ .f32 0x00000000#32) reducesTo_S50000x64_S64_d0 h_S_) ((broadcastInDim S64 ![] bcast_S_S64 : FVec F S_ .f32 → FVec F S64 .f32) ((subf : FVec F S_ .f32 → FVec F S_ .f32 → FVec F S_ .f32) (constant S_ .f32 0x47435000#32) ((sitofp .f32 : IVec S_ 32 → FVec F S_ .f32) (constantI S_ 32 0#32))))) ((broadcastInDim S64 ![] bcast_S_S64 : FVec F S_ .f32 → FVec F S64 .f32) ((id : FVec F S_ .f32 → FVec F S_ .f32) (constant S_ .f32 0x7FC00000#32)))

/-- Batch normalisation then `relu` (%47 … %66): `(hb − mean) · rsqrt (variance + ε) · gamma + beta`, then the maximum with zero. -/
def bnRelu (hb : FVec F S50000x64 .f32) (gamma beta : FVec F S64 .f32) : FVec F S50000x64 .f32 :=
  (maximumf : FVec F S50000x64 .f32 → FVec F S50000x64 .f32 → FVec F S50000x64 .f32) ((addf : FVec F S50000x64 .f32 → FVec F S50000x64 .f32 → FVec F S50000x64 .f32) ((mulf : FVec F S50000x64 .f32 → FVec F S50000x64 .f32 → FVec F S50000x64 .f32) ((mulf : FVec F S50000x64 .f32 → FVec F S50000x64 .f32 → FVec F S50000x64 .f32) ((subf : FVec F S50000x64 .f32 → FVec F S50000x64 .f32 → FVec F S50000x64 .f32) hb ((broadcastInDim S50000x64 ![0, 1] bcast_S1x64_S50000x64_0_1 : FVec F S1x64 .f32 → FVec F S50000x64 .f32) ((broadcastInDim S1x64 ![1] bcast_S64_S1x64_1 : FVec F S64 .f32 → FVec F S1x64 .f32) (mean hb)))) ((broadcastInDim S50000x64 ![0, 1] bcast_S1x64_S50000x64_0_1 : FVec F S1x64 .f32 → FVec F S50000x64 .f32) ((broadcastInDim S1x64 ![1] bcast_S64_S1x64_1 : FVec F S64 .f32 → FVec F S1x64 .f32) ((Host.rsqrt : FVec F S64 .f32 → FVec F S64 .f32) ((addf : FVec F S64 .f32 → FVec F S64 .f32 → FVec F S64 .f32) (variance hb) ((broadcastInDim S64 ![] bcast_S_S64 : FVec F S_ .f32 → FVec F S64 .f32) (constant S_ .f32 0x3727C5AC#32))))))) ((broadcastInDim S50000x64 ![0, 1] bcast_S1x64_S50000x64_0_1 : FVec F S1x64 .f32 → FVec F S50000x64 .f32) ((broadcastInDim S1x64 ![1] bcast_S64_S1x64_1 : FVec F S64 .f32 → FVec F S1x64 .f32) gamma))) ((broadcastInDim S50000x64 ![0, 1] bcast_S1x64_S50000x64_0_1 : FVec F S1x64 .f32 → FVec F S50000x64 .f32) ((broadcastInDim S1x64 ![1] bcast_S64_S1x64_1 : FVec F S64 .f32 → FVec F S1x64 .f32) beta))) ((broadcastInDim S50000x64 ![] bcast_S_S50000x64 : FVec F S_ .f32 → FVec F S50000x64 .f32) (constant S_ .f32 0x00000000#32))

/-- The mean pooling by graph (%84 … %95): the rows of `h` scattered-added by graph index, each graph's row divided by its node count or by one if it has none. -/
def pool (batch : IVec S50000 32) (h : FVec F S50000x64 .f32) : FVec F S64x64 .f32 :=
  (Host.divf : FVec F S64x64 .f32 → FVec F S64x64 .f32 → FVec F S64x64 .f32) (Host.scatterAdd scatter_S64x64_S50000x1_S50000x64_1_0_0_1 ((broadcastInDim S64x64 ![] bcast_S_S64x64 : FVec F S_ .f32 → FVec F S64x64 .f32) (constant S_ .f32 0x00000000#32)) ((broadcastInDim S50000x1 ![0] bcast_S50000_S50000x1_0 : IVec S50000 32 → IVec S50000x1 32) batch) h) ((broadcastInDim S64x64 ![0, 1] bcast_S64x1_S64x64_0_1 : FVec F S64x1 .f32 → FVec F S64x64 .f32) ((broadcastInDim S64x1 ![0] bcast_S64_S64x1_0 : FVec F S64 .f32 → FVec F S64x1 .f32) ((maximumf : FVec F S64 .f32 → FVec F S64 .f32 → FVec F S64 .f32) (Host.scatterAdd scatter_S64_S50000x1_S50000_n_0_0_1 ((broadcastInDim S64 ![] bcast_S_S64 : FVec F S_ .f32 → FVec F S64 .f32) (constant S_ .f32 0x00000000#32)) ((broadcastInDim S50000x1 ![0] bcast_S50000_S50000x1_0 : IVec S50000 32 → IVec S50000x1 32) batch) ((broadcastInDim S50000 ![] bcast_S_S50000 : FVec F S_ .f32 → FVec F S50000 .f32) (constant S_ .f32 0x3F800000#32))) ((broadcastInDim S64 ![] bcast_S_S64 : FVec F S_ .f32 → FVec F S64 .f32) (constant S_ .f32 0x3F800000#32)))))

/-- The reference's result as a function of its nine arguments: two graph-convolution layers with a batch normalisation and `relu` between them, then the pooling. -/
def out (x : FVec F S50000x64 .f32) (ei : IVec S2x800000 32) (batch : IVec S50000 32) (W1 : FVec F S64x64 .f32) (b1 gamma beta : FVec F S64 .f32) (W2 : FVec F S64x64 .f32) (b2 : FVec F S64 .f32) : FVec F S64x64 .f32 :=
  pool batch (addBias (prop ei (dense (bnRelu (addBias (prop ei (dense x W1)) b1) gamma beta) W2)) b2)

/-! ## @main as a list of operations -/

/-- @main's 143 operations, in order: its own 115 and, at the three calls, the select function's 3, the variance's 22
    (its own 19 and its select's 3) and `relu`'s 3, over the calls' buffers. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg3 main_v30 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x00000000#32),
    binary main_v46 main_cst_9 main_v47 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_10 (constant S_ .f32 0x47435000#32),
    unary main_cst_10 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    nullary main_c_11 (constantI S_ 32 0#32),
    nullary main_call1_cst (constant S_ .f32 0x00000000#32),
    binary main_v46 main_call1_cst main_call1_v0 (fun x v => Host.reduceAdd x v reducesTo_S50000x64_S64_d0 h_S_ : (⟨S50000x64, .f32⟩ : BufTy).Contents (Elt F) → (⟨S_, .f32⟩ : BufTy).Contents (Elt F) → (⟨S64, .f32⟩ : BufTy).Contents (Elt F)),
    unary main_call1_v0 main_call1_v1 (broadcastInDim S1x64 ![1] bcast_S64_S1x64_1 : (⟨S64, .f32⟩ : BufTy).Contents (Elt F) → (⟨S1x64, .f32⟩ : BufTy).Contents (Elt F)),
    nullary main_call1_cst_0 (constant S_ .f32 0x47435000#32),
    unary main_call1_cst_0 main_call1_v2 (broadcastInDim S1x64 ![] bcast_S_S1x64 : (⟨S_, .f32⟩ : BufTy).Contents (Elt F) → (⟨S1x64, .f32⟩ : BufTy).Contents (Elt F)),
    binary main_call1_v1 main_call1_v2 main_call1_v3 (Host.divf : (⟨S1x64, .f32⟩ : BufTy).Contents (Elt F) → (⟨S1x64, .f32⟩ : BufTy).Contents (Elt F) → (⟨S1x64, .f32⟩ : BufTy).Contents (Elt F)),
    unary main_call1_v3 main_call1_v4 (broadcastInDim S50000x64 ![0, 1] bcast_S1x64_S50000x64_0_1 : (⟨S1x64, .f32⟩ : BufTy).Contents (Elt F) → (⟨S50000x64, .f32⟩ : BufTy).Contents (Elt F)),
    binary main_v46 main_call1_v4 main_call1_v5 (subf : (⟨S50000x64, .f32⟩ : BufTy).Contents (Elt F) → (⟨S50000x64, .f32⟩ : BufTy).Contents (Elt F) → (⟨S50000x64, .f32⟩ : BufTy).Contents (Elt F)),
    binary main_call1_v5 main_call1_v5 main_call1_v6 (mulf : (⟨S50000x64, .f32⟩ : BufTy).Contents (Elt F) → (⟨S50000x64, .f32⟩ : BufTy).Contents (Elt F) → (⟨S50000x64, .f32⟩ : BufTy).Contents (Elt F)),
    unary main_c_11 main_call1_v7 (sitofp .f32 : (⟨S_, .i32⟩ : BufTy).Contents (Elt F) → (⟨S_, .f32⟩ : BufTy).Contents (Elt F)),
    nullary main_call1_cst_1 (constant S_ .f32 0x47435000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 (fun x v => Host.reduceAdd x v reducesTo_S50000x64_S64_d0 h_S_ : (⟨S50000x64, .f32⟩ : BufTy).Contents (Elt F) → (⟨S_, .f32⟩ : BufTy).Contents (Elt F) → (⟨S64, .f32⟩ : BufTy).Contents (Elt F)),
    unary main_call1_v8 main_call1_v10 (broadcastInDim S64 ![] bcast_S_S64 : (⟨S_, .f32⟩ : BufTy).Contents (Elt F) → (⟨S64, .f32⟩ : BufTy).Contents (Elt F)),
    binary main_call1_v9 main_call1_v10 main_call1_v11 (Host.divf : (⟨S64, .f32⟩ : BufTy).Contents (Elt F) → (⟨S64, .f32⟩ : BufTy).Contents (Elt F) → (⟨S64, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S64 ![] bcast_S_S64 : (⟨S_, .f32⟩ : BufTy).Contents (Elt F) → (⟨S64, .f32⟩ : BufTy).Contents (Elt F)),
    ternary main_call1_v12 main_call1_v11 main_call1_call0_v1 main_v50 (fun p a b => select (broadcastInDim S64 ![] bcast_S_S64 p) a b : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v49 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v46 main_v52 main_v53 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3727C5AC#32),
    unary main_cst_12 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v53 main_v58 main_v59 (mulf : (⟨S50000x64, .f32⟩ : BufTy).Contents (Elt F) → (⟨S50000x64, .f32⟩ : BufTy).Contents (Elt F) → (⟨S50000x64, .f32⟩ : BufTy).Contents (Elt F)),
    unary main_arg5 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v59 main_v61 main_v62 (mulf : (⟨S50000x64, .f32⟩ : BufTy).Contents (Elt F) → (⟨S50000x64, .f32⟩ : BufTy).Contents (Elt F) → (⟨S50000x64, .f32⟩ : BufTy).Contents (Elt F)),
    unary main_arg6 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)),
    nullary main_call2_cst (constant S_ .f32 0x00000000#32),
    unary main_call2_cst main_call2_v0 (broadcastInDim S50000x64 ![] bcast_S_S50000x64 : (⟨S_, .f32⟩ : BufTy).Contents (Elt F) → (⟨S50000x64, .f32⟩ : BufTy).Contents (Elt F)),
    binary main_v65 main_call2_v0 main_v66 (maximumf : (⟨S50000x64, .f32⟩ : BufTy).Contents (Elt F) → (⟨S50000x64, .f32⟩ : BufTy).Contents (Elt F) → (⟨S50000x64, .f32⟩ : BufTy).Contents (Elt F)),
    binary main_v66 main_arg7 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_13 (constantI S_ 32 0#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v75 (broadcastInDim S850000x1 ![0] bcast_S850000_S850000x1_0 : (⟨S850000, .f32⟩ : BufTy).Contents (Elt F) → (⟨S850000x1, .f32⟩ : BufTy).Contents (Elt F)),
    unary main_v75 main_v76 (broadcastInDim S850000x64 ![0, 1] bcast_S850000x1_S850000x64_0_1 : (⟨S850000x1, .f32⟩ : BufTy).Contents (Elt F) → (⟨S850000x64, .f32⟩ : BufTy).Contents (Elt F)),
    binary main_v74 main_v76 main_v77 (mulf : (⟨S850000x64, .f32⟩ : BufTy).Contents (Elt F) → (⟨S850000x64, .f32⟩ : BufTy).Contents (Elt F) → (⟨S850000x64, .f32⟩ : BufTy).Contents (Elt F)),
    nullary main_cst_15 (constant S_ .f32 0x00000000#32),
    unary main_cst_15 main_v78 (broadcastInDim S50000x64 ![] bcast_S_S50000x64 : (⟨S_, .f32⟩ : BufTy).Contents (Elt F) → (⟨S50000x64, .f32⟩ : BufTy).Contents (Elt F)),
    unary main_v6 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg8 main_v81 (broadcastInDim S1x64 ![1] bcast_S64_S1x64_1 : (⟨S64, .f32⟩ : BufTy).Contents (Elt F) → (⟨S1x64, .f32⟩ : BufTy).Contents (Elt F)),
    unary main_v81 main_v82 (broadcastInDim S50000x64 ![0, 1] bcast_S1x64_S50000x64_0_1 : (⟨S1x64, .f32⟩ : BufTy).Contents (Elt F) → (⟨S50000x64, .f32⟩ : BufTy).Contents (Elt F)),
    binary main_v80 main_v82 main_v83 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x00000000#32),
    unary main_cst_16 main_v84 (broadcastInDim S64x64 ![] bcast_S_S64x64 : (⟨S_, .f32⟩ : BufTy).Contents (Elt F) → (⟨S64x64, .f32⟩ : BufTy).Contents (Elt F)),
    unary main_arg2 main_v85 (broadcastInDim S50000x1 ![0] bcast_S50000_S50000x1_0 : (⟨S50000, .i32⟩ : BufTy).Contents (Elt F) → (⟨S50000x1, .i32⟩ : BufTy).Contents (Elt F)),
    ternary main_v84 main_v85 main_v83 main_v86 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    nullary main_cst_17 (constant S_ .f32 0x3F800000#32),
    unary main_cst_17 main_v87 (broadcastInDim S50000 ![] bcast_S_S50000 : (⟨S_, .f32⟩ : BufTy).Contents (Elt F) → (⟨S50000, .f32⟩ : BufTy).Contents (Elt F)),
    nullary main_cst_18 (constant S_ .f32 0x00000000#32),
    unary main_cst_18 main_v88 (broadcastInDim S64 ![] bcast_S_S64 : (⟨S_, .f32⟩ : BufTy).Contents (Elt F) → (⟨S64, .f32⟩ : BufTy).Contents (Elt F)),
    unary main_arg2 main_v89 (broadcastInDim S50000x1 ![0] bcast_S50000_S50000x1_0 : (⟨S50000, .i32⟩ : BufTy).Contents (Elt F) → (⟨S50000x1, .i32⟩ : BufTy).Contents (Elt F)),
    ternary main_v88 main_v89 main_v87 main_v90 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_19 (constant S_ .f32 0x3F800000#32),
    unary main_cst_19 main_v91 (broadcastInDim S64 ![] bcast_S_S64 : (⟨S_, .f32⟩ : BufTy).Contents (Elt F) → (⟨S64, .f32⟩ : BufTy).Contents (Elt F)),
    binary main_v90 main_v91 main_v92 (maximumf : (⟨S64, .f32⟩ : BufTy).Contents (Elt F) → (⟨S64, .f32⟩ : BufTy).Contents (Elt F) → (⟨S64, .f32⟩ : BufTy).Contents (Elt F)),
    unary main_v92 main_v93 (broadcastInDim S64x1 ![0] bcast_S64_S64x1_0 : (⟨S64, .f32⟩ : BufTy).Contents (Elt F) → (⟨S64x1, .f32⟩ : BufTy).Contents (Elt F)),
    unary main_v93 main_v94 (broadcastInDim S64x64 ![0, 1] bcast_S64x1_S64x64_0_1 : (⟨S64x1, .f32⟩ : BufTy).Contents (Elt F) → (⟨S64x64, .f32⟩ : BufTy).Contents (Elt F)),
    binary main_v86 main_v94 main_v95 (Host.divf : (⟨S64x64, .f32⟩ : BufTy).Contents (Elt F) → (⟨S64x64, .f32⟩ : BufTy).Contents (Elt F) → (⟨S64x64, .f32⟩ : BufTy).Contents (Elt F)) ]

/-- Window 1: the edge index vectors and the edge weights (through %29). -/
def w1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Window 2: the first layer up to its bias (%30 … %46). -/
def w2 : List (HloOp τ sig (Elt F)) :=
  [ binary main_arg0 main_arg3 main_v30 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]

/-- Window 3: the batch normalisation and `relu` (%47 … %66). -/
def w3 : List (HloOp τ sig (Elt F)) :=
  [ nullary main_cst_9 (constant S_ .f32 0x00000000#32),
    binary main_v46 main_cst_9 main_v47 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_10 (constant S_ .f32 0x47435000#32),
    unary main_cst_10 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    nullary main_c_11 (constantI S_ 32 0#32),
    nullary main_call1_cst (constant S_ .f32 0x00000000#32),
    binary main_v46 main_call1_cst main_call1_v0 (fun x v => Host.reduceAdd x v reducesTo_S50000x64_S64_d0 h_S_ : (⟨S50000x64, .f32⟩ : BufTy).Contents (Elt F) → (⟨S_, .f32⟩ : BufTy).Contents (Elt F) → (⟨S64, .f32⟩ : BufTy).Contents (Elt F)),
    unary main_call1_v0 main_call1_v1 (broadcastInDim S1x64 ![1] bcast_S64_S1x64_1 : (⟨S64, .f32⟩ : BufTy).Contents (Elt F) → (⟨S1x64, .f32⟩ : BufTy).Contents (Elt F)),
    nullary main_call1_cst_0 (constant S_ .f32 0x47435000#32),
    unary main_call1_cst_0 main_call1_v2 (broadcastInDim S1x64 ![] bcast_S_S1x64 : (⟨S_, .f32⟩ : BufTy).Contents (Elt F) → (⟨S1x64, .f32⟩ : BufTy).Contents (Elt F)),
    binary main_call1_v1 main_call1_v2 main_call1_v3 (Host.divf : (⟨S1x64, .f32⟩ : BufTy).Contents (Elt F) → (⟨S1x64, .f32⟩ : BufTy).Contents (Elt F) → (⟨S1x64, .f32⟩ : BufTy).Contents (Elt F)),
    unary main_call1_v3 main_call1_v4 (broadcastInDim S50000x64 ![0, 1] bcast_S1x64_S50000x64_0_1 : (⟨S1x64, .f32⟩ : BufTy).Contents (Elt F) → (⟨S50000x64, .f32⟩ : BufTy).Contents (Elt F)),
    binary main_v46 main_call1_v4 main_call1_v5 (subf : (⟨S50000x64, .f32⟩ : BufTy).Contents (Elt F) → (⟨S50000x64, .f32⟩ : BufTy).Contents (Elt F) → (⟨S50000x64, .f32⟩ : BufTy).Contents (Elt F)),
    binary main_call1_v5 main_call1_v5 main_call1_v6 (mulf : (⟨S50000x64, .f32⟩ : BufTy).Contents (Elt F) → (⟨S50000x64, .f32⟩ : BufTy).Contents (Elt F) → (⟨S50000x64, .f32⟩ : BufTy).Contents (Elt F)),
    unary main_c_11 main_call1_v7 (sitofp .f32 : (⟨S_, .i32⟩ : BufTy).Contents (Elt F) → (⟨S_, .f32⟩ : BufTy).Contents (Elt F)),
    nullary main_call1_cst_1 (constant S_ .f32 0x47435000#32),
    binary main_call1_cst_1 main_call1_v7 main_call1_v8 (subf : (⟨S_, .f32⟩ : BufTy).Contents (Elt F) → (⟨S_, .f32⟩ : BufTy).Contents (Elt F) → (⟨S_, .f32⟩ : BufTy).Contents (Elt F)),
    nullary main_call1_cst_2 (constant S_ .f32 0x00000000#32),
    binary main_call1_v6 main_call1_cst_2 main_call1_v9 (fun x v => Host.reduceAdd x v reducesTo_S50000x64_S64_d0 h_S_ : (⟨S50000x64, .f32⟩ : BufTy).Contents (Elt F) → (⟨S_, .f32⟩ : BufTy).Contents (Elt F) → (⟨S64, .f32⟩ : BufTy).Contents (Elt F)),
    unary main_call1_v8 main_call1_v10 (broadcastInDim S64 ![] bcast_S_S64 : (⟨S_, .f32⟩ : BufTy).Contents (Elt F) → (⟨S64, .f32⟩ : BufTy).Contents (Elt F)),
    binary main_call1_v9 main_call1_v10 main_call1_v11 (Host.divf : (⟨S64, .f32⟩ : BufTy).Contents (Elt F) → (⟨S64, .f32⟩ : BufTy).Contents (Elt F) → (⟨S64, .f32⟩ : BufTy).Contents (Elt F)),
    nullary main_call1_cst_3 (constant S_ .f32 0x00000000#32),
    binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    nullary main_call1_cst_4 (constant S_ .f32 0x7FC00000#32),
    unary main_call1_cst_4 main_call1_call0_v0 (id : (⟨S_, .f32⟩ : BufTy).Contents (Elt F) → (⟨S_, .f32⟩ : BufTy).Contents (Elt F)),
    unary main_call1_call0_v0 main_call1_call0_v1 (broadcastInDim S64 ![] bcast_S_S64 : (⟨S_, .f32⟩ : BufTy).Contents (Elt F) → (⟨S64, .f32⟩ : BufTy).Contents (Elt F)),
    ternary main_call1_v12 main_call1_v11 main_call1_call0_v1 main_v50 (fun p a b => select (broadcastInDim S64 ![] bcast_S_S64 p) a b : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v49 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v46 main_v52 main_v53 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3727C5AC#32),
    unary main_cst_12 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v53 main_v58 main_v59 (mulf : (⟨S50000x64, .f32⟩ : BufTy).Contents (Elt F) → (⟨S50000x64, .f32⟩ : BufTy).Contents (Elt F) → (⟨S50000x64, .f32⟩ : BufTy).Contents (Elt F)),
    unary main_arg5 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v59 main_v61 main_v62 (mulf : (⟨S50000x64, .f32⟩ : BufTy).Contents (Elt F) → (⟨S50000x64, .f32⟩ : BufTy).Contents (Elt F) → (⟨S50000x64, .f32⟩ : BufTy).Contents (Elt F)),
    unary main_arg6 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)),
    nullary main_call2_cst (constant S_ .f32 0x00000000#32),
    unary main_call2_cst main_call2_v0 (broadcastInDim S50000x64 ![] bcast_S_S50000x64 : (⟨S_, .f32⟩ : BufTy).Contents (Elt F) → (⟨S50000x64, .f32⟩ : BufTy).Contents (Elt F)),
    binary main_v65 main_call2_v0 main_v66 (maximumf : (⟨S50000x64, .f32⟩ : BufTy).Contents (Elt F) → (⟨S50000x64, .f32⟩ : BufTy).Contents (Elt F) → (⟨S50000x64, .f32⟩ : BufTy).Contents (Elt F)) ]

/-- Window 4: the second layer up to its bias (%67 … %83). -/
def w4 : List (HloOp τ sig (Elt F)) :=
  [ binary main_v66 main_arg7 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_13 (constantI S_ 32 0#32),
    unary main_c_13 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v67 main_v73 main_v74 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v29 main_v75 (broadcastInDim S850000x1 ![0] bcast_S850000_S850000x1_0 : (⟨S850000, .f32⟩ : BufTy).Contents (Elt F) → (⟨S850000x1, .f32⟩ : BufTy).Contents (Elt F)),
    unary main_v75 main_v76 (broadcastInDim S850000x64 ![0, 1] bcast_S850000x1_S850000x64_0_1 : (⟨S850000x1, .f32⟩ : BufTy).Contents (Elt F) → (⟨S850000x64, .f32⟩ : BufTy).Contents (Elt F)),
    binary main_v74 main_v76 main_v77 (mulf : (⟨S850000x64, .f32⟩ : BufTy).Contents (Elt F) → (⟨S850000x64, .f32⟩ : BufTy).Contents (Elt F) → (⟨S850000x64, .f32⟩ : BufTy).Contents (Elt F)),
    nullary main_cst_15 (constant S_ .f32 0x00000000#32),
    unary main_cst_15 main_v78 (broadcastInDim S50000x64 ![] bcast_S_S50000x64 : (⟨S_, .f32⟩ : BufTy).Contents (Elt F) → (⟨S50000x64, .f32⟩ : BufTy).Contents (Elt F)),
    unary main_v6 main_v79 (broadcastInDim S850000x1 ![0] bcast_S850000_S850000x1_0 : (⟨S850000, .i32⟩ : BufTy).Contents (Elt F) → (⟨S850000x1, .i32⟩ : BufTy).Contents (Elt F)),
    ternary main_v78 main_v79 main_v77 main_v80 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg8 main_v81 (broadcastInDim S1x64 ![1] bcast_S64_S1x64_1 : (⟨S64, .f32⟩ : BufTy).Contents (Elt F) → (⟨S1x64, .f32⟩ : BufTy).Contents (Elt F)),
    unary main_v81 main_v82 (broadcastInDim S50000x64 ![0, 1] bcast_S1x64_S50000x64_0_1 : (⟨S1x64, .f32⟩ : BufTy).Contents (Elt F) → (⟨S50000x64, .f32⟩ : BufTy).Contents (Elt F)),
    binary main_v80 main_v82 main_v83 (addf : (⟨S50000x64, .f32⟩ : BufTy).Contents (Elt F) → (⟨S50000x64, .f32⟩ : BufTy).Contents (Elt F) → (⟨S50000x64, .f32⟩ : BufTy).Contents (Elt F)) ]

/-- Window 5: the pooling (%84 … %95). -/
def w5 : List (HloOp τ sig (Elt F)) :=
  [ nullary main_cst_16 (constant S_ .f32 0x00000000#32),
    unary main_cst_16 main_v84 (broadcastInDim S64x64 ![] bcast_S_S64x64 : (⟨S_, .f32⟩ : BufTy).Contents (Elt F) → (⟨S64x64, .f32⟩ : BufTy).Contents (Elt F)),
    unary main_arg2 main_v85 (broadcastInDim S50000x1 ![0] bcast_S50000_S50000x1_0 : (⟨S50000, .i32⟩ : BufTy).Contents (Elt F) → (⟨S50000x1, .i32⟩ : BufTy).Contents (Elt F)),
    ternary main_v84 main_v85 main_v83 main_v86 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    nullary main_cst_17 (constant S_ .f32 0x3F800000#32),
    unary main_cst_17 main_v87 (broadcastInDim S50000 ![] bcast_S_S50000 : (⟨S_, .f32⟩ : BufTy).Contents (Elt F) → (⟨S50000, .f32⟩ : BufTy).Contents (Elt F)),
    nullary main_cst_18 (constant S_ .f32 0x00000000#32),
    unary main_cst_18 main_v88 (broadcastInDim S64 ![] bcast_S_S64 : (⟨S_, .f32⟩ : BufTy).Contents (Elt F) → (⟨S64, .f32⟩ : BufTy).Contents (Elt F)),
    unary main_arg2 main_v89 (broadcastInDim S50000x1 ![0] bcast_S50000_S50000x1_0 : (⟨S50000, .i32⟩ : BufTy).Contents (Elt F) → (⟨S50000x1, .i32⟩ : BufTy).Contents (Elt F)),
    ternary main_v88 main_v89 main_v87 main_v90 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_19 (constant S_ .f32 0x3F800000#32),
    unary main_cst_19 main_v91 (broadcastInDim S64 ![] bcast_S_S64 : (⟨S_, .f32⟩ : BufTy).Contents (Elt F) → (⟨S64, .f32⟩ : BufTy).Contents (Elt F)),
    binary main_v90 main_v91 main_v92 (maximumf : (⟨S64, .f32⟩ : BufTy).Contents (Elt F) → (⟨S64, .f32⟩ : BufTy).Contents (Elt F) → (⟨S64, .f32⟩ : BufTy).Contents (Elt F)),
    unary main_v92 main_v93 (broadcastInDim S64x1 ![0] bcast_S64_S64x1_0 : (⟨S64, .f32⟩ : BufTy).Contents (Elt F) → (⟨S64x1, .f32⟩ : BufTy).Contents (Elt F)),
    unary main_v93 main_v94 (broadcastInDim S64x64 ![0, 1] bcast_S64x1_S64x64_0_1 : (⟨S64x1, .f32⟩ : BufTy).Contents (Elt F) → (⟨S64x64, .f32⟩ : BufTy).Contents (Elt F)),
    binary main_v86 main_v94 main_v95 (Host.divf : (⟨S64x64, .f32⟩ : BufTy).Contents (Elt F) → (⟨S64x64, .f32⟩ : BufTy).Contents (Elt F) → (⟨S64x64, .f32⟩ : BufTy).Contents (Elt F)) ]

/-- The list is its five windows in order. -/
theorem ops_split : (ops : List (HloOp τ sig (Elt F))) = w1 ++ w2 ++ w3 ++ w4 ++ w5 := rfl

/-- The contents after two lists run in order: the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- 143 binds re-associated: the rewrite under the chain recurses once per statement
set_option maxRecDepth 16384 in
set_option maxHeartbeats 4000000 in
/-- @main is that straight line: the two halves of its text and the outlined functions unfolded at their calls, both
    sides are one chain of steps once sequencing is reassociated. -/
theorem main_eq (c : Dev nD) : main (F := F) c = seq ops := by
  simp only [main, main_part0, main_part1, fn_where.body, fn_var.body, fn_where_0.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-! ## The windows, from arbitrary contents -/

theorem w1_v3 (W : Valuation τ sig (Elt F)) :
    after w1 W (main_v3 : DevRef τ sig) = src (W (main_arg1 : DevRef τ sig)) := by
  simp only [w1]
  after_results_simp
  rfl

theorem w1_v6 (W : Valuation τ sig (Elt F)) :
    after w1 W (main_v6 : DevRef τ sig) = dst (W (main_arg1 : DevRef τ sig)) := by
  simp only [w1]
  after_results_simp
  rfl

theorem w1_v29 (W : Valuation τ sig (Elt F)) :
    after w1 W (main_v29 : DevRef τ sig) = enorm (W (main_arg1 : DevRef τ sig)) := by
  simp only [w1]
  after_results_simp
  rfl

theorem w2_v46 (W : Valuation τ sig (Elt F)) :
    after w2 W (main_v46 : DevRef τ sig) = addBias (propG (W (main_v3 : DevRef τ sig)) (W (main_v6 : DevRef τ sig)) (W (main_v29 : DevRef τ sig)) (dense (W (main_arg0 : DevRef τ sig)) (W (main_arg3 : DevRef τ sig)))) (W (main_arg4 : DevRef τ sig)) := by
  simp only [w2]
  after_results_simp
  rfl

theorem w3_v66 (W : Valuation τ sig (Elt F)) :
    after w3 W (main_v66 : DevRef τ sig) = bnRelu (W (main_v46 : DevRef τ sig)) (W (main_arg5 : DevRef τ sig)) (W (main_arg6 : DevRef τ sig)) := by
  simp only [w3]
  after_results_simp
  rfl

theorem w4_v83 (W : Valuation τ sig (Elt F)) :
    after w4 W (main_v83 : DevRef τ sig) = addBias (propG (W (main_v3 : DevRef τ sig)) (W (main_v6 : DevRef τ sig)) (W (main_v29 : DevRef τ sig)) (dense (W (main_v66 : DevRef τ sig)) (W (main_arg7 : DevRef τ sig)))) (W (main_arg8 : DevRef τ sig)) := by
  simp only [w4]
  after_results_simp
  rfl

theorem w5_v95 (W : Valuation τ sig (Elt F)) :
    after w5 W (main_v95 : DevRef τ sig) = pool (W (main_arg2 : DevRef τ sig)) (W (main_v83 : DevRef τ sig)) := by
  simp only [w5]
  after_results_simp
  rfl

theorem keep1_arg0 (W : Valuation τ sig (Elt F)) : after w1 W (main_arg0 : DevRef τ sig) = W (main_arg0 : DevRef τ sig) := by
  simp only [w1]
  after_results_simp

theorem keep1_arg1 (W : Valuation τ sig (Elt F)) : after w1 W (main_arg1 : DevRef τ sig) = W (main_arg1 : DevRef τ sig) := by
  simp only [w1]
  after_results_simp

theorem keep1_arg2 (W : Valuation τ sig (Elt F)) : after w1 W (main_arg2 : DevRef τ sig) = W (main_arg2 : DevRef τ sig) := by
  simp only [w1]
  after_results_simp

theorem keep1_arg3 (W : Valuation τ sig (Elt F)) : after w1 W (main_arg3 : DevRef τ sig) = W (main_arg3 : DevRef τ sig) := by
  simp only [w1]
  after_results_simp

theorem keep1_arg4 (W : Valuation τ sig (Elt F)) : after w1 W (main_arg4 : DevRef τ sig) = W (main_arg4 : DevRef τ sig) := by
  simp only [w1]
  after_results_simp

theorem keep1_arg5 (W : Valuation τ sig (Elt F)) : after w1 W (main_arg5 : DevRef τ sig) = W (main_arg5 : DevRef τ sig) := by
  simp only [w1]
  after_results_simp

theorem keep1_arg6 (W : Valuation τ sig (Elt F)) : after w1 W (main_arg6 : DevRef τ sig) = W (main_arg6 : DevRef τ sig) := by
  simp only [w1]
  after_results_simp

theorem keep1_arg7 (W : Valuation τ sig (Elt F)) : after w1 W (main_arg7 : DevRef τ sig) = W (main_arg7 : DevRef τ sig) := by
  simp only [w1]
  after_results_simp

theorem keep1_arg8 (W : Valuation τ sig (Elt F)) : after w1 W (main_arg8 : DevRef τ sig) = W (main_arg8 : DevRef τ sig) := by
  simp only [w1]
  after_results_simp

theorem keep2_arg0 (W : Valuation τ sig (Elt F)) : after w2 W (main_arg0 : DevRef τ sig) = W (main_arg0 : DevRef τ sig) := by
  simp only [w2]
  after_results_simp

theorem keep2_arg1 (W : Valuation τ sig (Elt F)) : after w2 W (main_arg1 : DevRef τ sig) = W (main_arg1 : DevRef τ sig) := by
  simp only [w2]
  after_results_simp

theorem keep2_arg2 (W : Valuation τ sig (Elt F)) : after w2 W (main_arg2 : DevRef τ sig) = W (main_arg2 : DevRef τ sig) := by
  simp only [w2]
  after_results_simp

theorem keep2_arg3 (W : Valuation τ sig (Elt F)) : after w2 W (main_arg3 : DevRef τ sig) = W (main_arg3 : DevRef τ sig) := by
  simp only [w2]
  after_results_simp

theorem keep2_arg4 (W : Valuation τ sig (Elt F)) : after w2 W (main_arg4 : DevRef τ sig) = W (main_arg4 : DevRef τ sig) := by
  simp only [w2]
  after_results_simp

theorem keep2_arg5 (W : Valuation τ sig (Elt F)) : after w2 W (main_arg5 : DevRef τ sig) = W (main_arg5 : DevRef τ sig) := by
  simp only [w2]
  after_results_simp

theorem keep2_arg6 (W : Valuation τ sig (Elt F)) : after w2 W (main_arg6 : DevRef τ sig) = W (main_arg6 : DevRef τ sig) := by
  simp only [w2]
  after_results_simp

theorem keep2_arg7 (W : Valuation τ sig (Elt F)) : after w2 W (main_arg7 : DevRef τ sig) = W (main_arg7 : DevRef τ sig) := by
  simp only [w2]
  after_results_simp

theorem keep2_arg8 (W : Valuation τ sig (Elt F)) : after w2 W (main_arg8 : DevRef τ sig) = W (main_arg8 : DevRef τ sig) := by
  simp only [w2]
  after_results_simp

theorem keep2_v3 (W : Valuation τ sig (Elt F)) : after w2 W (main_v3 : DevRef τ sig) = W (main_v3 : DevRef τ sig) := by
  simp only [w2]
  after_results_simp

theorem keep2_v6 (W : Valuation τ sig (Elt F)) : after w2 W (main_v6 : DevRef τ sig) = W (main_v6 : DevRef τ sig) := by
  simp only [w2]
  after_results_simp

theorem keep2_v29 (W : Valuation τ sig (Elt F)) : after w2 W (main_v29 : DevRef τ sig) = W (main_v29 : DevRef τ sig) := by
  simp only [w2]
  after_results_simp

theorem keep3_arg0 (W : Valuation τ sig (Elt F)) : after w3 W (main_arg0 : DevRef τ sig) = W (main_arg0 : DevRef τ sig) := by
  simp only [w3]
  after_results_simp

theorem keep3_arg1 (W : Valuation τ sig (Elt F)) : after w3 W (main_arg1 : DevRef τ sig) = W (main_arg1 : DevRef τ sig) := by
  simp only [w3]
  after_results_simp

theorem keep3_arg2 (W : Valuation τ sig (Elt F)) : after w3 W (main_arg2 : DevRef τ sig) = W (main_arg2 : DevRef τ sig) := by
  simp only [w3]
  after_results_simp

theorem keep3_arg3 (W : Valuation τ sig (Elt F)) : after w3 W (main_arg3 : DevRef τ sig) = W (main_arg3 : DevRef τ sig) := by
  simp only [w3]
  after_results_simp

theorem keep3_arg4 (W : Valuation τ sig (Elt F)) : after w3 W (main_arg4 : DevRef τ sig) = W (main_arg4 : DevRef τ sig) := by
  simp only [w3]
  after_results_simp

theorem keep3_arg5 (W : Valuation τ sig (Elt F)) : after w3 W (main_arg5 : DevRef τ sig) = W (main_arg5 : DevRef τ sig) := by
  simp only [w3]
  after_results_simp

theorem keep3_arg6 (W : Valuation τ sig (Elt F)) : after w3 W (main_arg6 : DevRef τ sig) = W (main_arg6 : DevRef τ sig) := by
  simp only [w3]
  after_results_simp

theorem keep3_arg7 (W : Valuation τ sig (Elt F)) : after w3 W (main_arg7 : DevRef τ sig) = W (main_arg7 : DevRef τ sig) := by
  simp only [w3]
  after_results_simp

theorem keep3_arg8 (W : Valuation τ sig (Elt F)) : after w3 W (main_arg8 : DevRef τ sig) = W (main_arg8 : DevRef τ sig) := by
  simp only [w3]
  after_results_simp

theorem keep3_v3 (W : Valuation τ sig (Elt F)) : after w3 W (main_v3 : DevRef τ sig) = W (main_v3 : DevRef τ sig) := by
  simp only [w3]
  after_results_simp

theorem keep3_v6 (W : Valuation τ sig (Elt F)) : after w3 W (main_v6 : DevRef τ sig) = W (main_v6 : DevRef τ sig) := by
  simp only [w3]
  after_results_simp

theorem keep3_v29 (W : Valuation τ sig (Elt F)) : after w3 W (main_v29 : DevRef τ sig) = W (main_v29 : DevRef τ sig) := by
  simp only [w3]
  after_results_simp

theorem keep4_arg0 (W : Valuation τ sig (Elt F)) : after w4 W (main_arg0 : DevRef τ sig) = W (main_arg0 : DevRef τ sig) := by
  simp only [w4]
  after_results_simp

theorem keep4_arg1 (W : Valuation τ sig (Elt F)) : after w4 W (main_arg1 : DevRef τ sig) = W (main_arg1 : DevRef τ sig) := by
  simp only [w4]
  after_results_simp

theorem keep4_arg2 (W : Valuation τ sig (Elt F)) : after w4 W (main_arg2 : DevRef τ sig) = W (main_arg2 : DevRef τ sig) := by
  simp only [w4]
  after_results_simp

theorem keep4_arg3 (W : Valuation τ sig (Elt F)) : after w4 W (main_arg3 : DevRef τ sig) = W (main_arg3 : DevRef τ sig) := by
  simp only [w4]
  after_results_simp

theorem keep4_arg4 (W : Valuation τ sig (Elt F)) : after w4 W (main_arg4 : DevRef τ sig) = W (main_arg4 : DevRef τ sig) := by
  simp only [w4]
  after_results_simp

theorem keep4_arg5 (W : Valuation τ sig (Elt F)) : after w4 W (main_arg5 : DevRef τ sig) = W (main_arg5 : DevRef τ sig) := by
  simp only [w4]
  after_results_simp

theorem keep4_arg6 (W : Valuation τ sig (Elt F)) : after w4 W (main_arg6 : DevRef τ sig) = W (main_arg6 : DevRef τ sig) := by
  simp only [w4]
  after_results_simp

theorem keep4_arg7 (W : Valuation τ sig (Elt F)) : after w4 W (main_arg7 : DevRef τ sig) = W (main_arg7 : DevRef τ sig) := by
  simp only [w4]
  after_results_simp

theorem keep4_arg8 (W : Valuation τ sig (Elt F)) : after w4 W (main_arg8 : DevRef τ sig) = W (main_arg8 : DevRef τ sig) := by
  simp only [w4]
  after_results_simp

theorem keep5_arg0 (W : Valuation τ sig (Elt F)) : after w5 W (main_arg0 : DevRef τ sig) = W (main_arg0 : DevRef τ sig) := by
  simp only [w5]
  after_results_simp

theorem keep5_arg1 (W : Valuation τ sig (Elt F)) : after w5 W (main_arg1 : DevRef τ sig) = W (main_arg1 : DevRef τ sig) := by
  simp only [w5]
  after_results_simp

theorem keep5_arg2 (W : Valuation τ sig (Elt F)) : after w5 W (main_arg2 : DevRef τ sig) = W (main_arg2 : DevRef τ sig) := by
  simp only [w5]
  after_results_simp

theorem keep5_arg3 (W : Valuation τ sig (Elt F)) : after w5 W (main_arg3 : DevRef τ sig) = W (main_arg3 : DevRef τ sig) := by
  simp only [w5]
  after_results_simp

theorem keep5_arg4 (W : Valuation τ sig (Elt F)) : after w5 W (main_arg4 : DevRef τ sig) = W (main_arg4 : DevRef τ sig) := by
  simp only [w5]
  after_results_simp

theorem keep5_arg5 (W : Valuation τ sig (Elt F)) : after w5 W (main_arg5 : DevRef τ sig) = W (main_arg5 : DevRef τ sig) := by
  simp only [w5]
  after_results_simp

theorem keep5_arg6 (W : Valuation τ sig (Elt F)) : after w5 W (main_arg6 : DevRef τ sig) = W (main_arg6 : DevRef τ sig) := by
  simp only [w5]
  after_results_simp

theorem keep5_arg7 (W : Valuation τ sig (Elt F)) : after w5 W (main_arg7 : DevRef τ sig) = W (main_arg7 : DevRef τ sig) := by
  simp only [w5]
  after_results_simp

theorem keep5_arg8 (W : Valuation τ sig (Elt F)) : after w5 W (main_arg8 : DevRef τ sig) = W (main_arg8 : DevRef τ sig) := by
  simp only [w5]
  after_results_simp

/-! ## The whole list -/

/-- The result buffer after the whole list is `out` of the argument buffers' contents: window by window from the
    last, each window's result a stage of what the earlier windows left. -/
theorem out_eq (V : Valuation τ sig (Elt F)) :
    after ops V (main_v95 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split]
  simp only [after_append]
  rw [w5_v95, w4_v83, keep4_arg2, w3_v66, keep3_v3, keep3_v6, keep3_v29, keep3_arg2, keep3_arg7, keep3_arg8,
    w2_v46, keep2_v3, keep2_v6, keep2_v29, keep2_arg2, keep2_arg5, keep2_arg6, keep2_arg7, keep2_arg8,
    w1_v3, w1_v6, w1_v29, keep1_arg0, keep1_arg2, keep1_arg3, keep1_arg4, keep1_arg5, keep1_arg6, keep1_arg7, keep1_arg8]
  rfl

theorem arg0_eq (V : Valuation τ sig (Elt F)) : after ops V (main_arg0 : DevRef τ sig) = V (main_arg0 : DevRef τ sig) := by
  rw [ops_split]
  simp only [after_append]
  rw [keep5_arg0, keep4_arg0, keep3_arg0, keep2_arg0, keep1_arg0]

theorem arg1_eq (V : Valuation τ sig (Elt F)) : after ops V (main_arg1 : DevRef τ sig) = V (main_arg1 : DevRef τ sig) := by
  rw [ops_split]
  simp only [after_append]
  rw [keep5_arg1, keep4_arg1, keep3_arg1, keep2_arg1, keep1_arg1]

theorem arg2_eq (V : Valuation τ sig (Elt F)) : after ops V (main_arg2 : DevRef τ sig) = V (main_arg2 : DevRef τ sig) := by
  rw [ops_split]
  simp only [after_append]
  rw [keep5_arg2, keep4_arg2, keep3_arg2, keep2_arg2, keep1_arg2]

theorem arg3_eq (V : Valuation τ sig (Elt F)) : after ops V (main_arg3 : DevRef τ sig) = V (main_arg3 : DevRef τ sig) := by
  rw [ops_split]
  simp only [after_append]
  rw [keep5_arg3, keep4_arg3, keep3_arg3, keep2_arg3, keep1_arg3]

theorem arg4_eq (V : Valuation τ sig (Elt F)) : after ops V (main_arg4 : DevRef τ sig) = V (main_arg4 : DevRef τ sig) := by
  rw [ops_split]
  simp only [after_append]
  rw [keep5_arg4, keep4_arg4, keep3_arg4, keep2_arg4, keep1_arg4]

theorem arg5_eq (V : Valuation τ sig (Elt F)) : after ops V (main_arg5 : DevRef τ sig) = V (main_arg5 : DevRef τ sig) := by
  rw [ops_split]
  simp only [after_append]
  rw [keep5_arg5, keep4_arg5, keep3_arg5, keep2_arg5, keep1_arg5]

theorem arg6_eq (V : Valuation τ sig (Elt F)) : after ops V (main_arg6 : DevRef τ sig) = V (main_arg6 : DevRef τ sig) := by
  rw [ops_split]
  simp only [after_append]
  rw [keep5_arg6, keep4_arg6, keep3_arg6, keep2_arg6, keep1_arg6]

theorem arg7_eq (V : Valuation τ sig (Elt F)) : after ops V (main_arg7 : DevRef τ sig) = V (main_arg7 : DevRef τ sig) := by
  rw [ops_split]
  simp only [after_append]
  rw [keep5_arg7, keep4_arg7, keep3_arg7, keep2_arg7, keep1_arg7]

theorem arg8_eq (V : Valuation τ sig (Elt F)) : after ops V (main_arg8 : DevRef τ sig) = V (main_arg8 : DevRef τ sig) := by
  rw [ops_split]
  simp only [after_append]
  rw [keep5_arg8, keep4_arg8, keep3_arg8, keep2_arg8, keep1_arg8]

/-- On every device, for any float values, from any memory with zero counters: every weakly fair execution of
    @main terminates with the result buffer at `out` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v95).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefRun

end
-- ==== Proof.Finite.lean ====
/-
  Finiteness. Under the precondition every float argument array holds real numbers (no infinity): each of the seven
  tests of the precondition says |x| < +inf at every index, and an extended real whose absolute value is below +inf
  is a real. Being real at every index is kept by the pointwise product, sum and difference, by every re-indexing
  (a broadcast, a gather), by an accumulating scatter (a real plus a finite sum of reals), and by the dense product
  of the first region (a finite sum of products of reals); so the first layer's pre-activation is real everywhere.
-/
import proofs.«153679_j86535001080497_2_alg».proof.Defs
import proofs.«153679_j86535001080497_2_alg».proof.Proof.Gen.Pre_finite_inputs
import proofs.«153679_j86535001080497_2_alg».proof.Proof.Region0
import proofs.«153679_j86535001080497_2_alg».proof.Proof.KValue
import Idealize.ShloMosaic.Lib.ReduceAll
import Idealize.ShloMosaic.Lib.ValueIdx
import Idealize.ShloMosaic.PureOps.Ideal.Laws

set_option maxRecDepth 16384

noncomputable section

open scoped BigOperators

namespace Cert.Finite

open Idealize.ShloMosaic Idealize.ShloMosaic.TcCoe
open Idealize.ShloMosaic.ValueIdx

/-- An array of extended reals every entry of which is a real number. -/
def IsReal {S : Shape} (f : S.Idx → EReal) : Prop := ∀ i, ∃ r : ℝ, f i = (r : EReal)

/-! ## Closure -/

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type} (s : Finset ι) {f : ι → EReal} (hf : ∀ j, ∃ r : ℝ, f j = (r : EReal)) :
    ∃ r : ℝ, ∑ j ∈ s, f j = (r : EReal) := by
  choose g hg using hf
  exact ⟨∑ j ∈ s, g j, by rw [coe_sum]; exact Finset.sum_congr rfl fun j _ => hg j⟩

/-- A real plus a finite sum of reals is a real. -/
theorem real_add_sum {ι : Type} (s : Finset ι) {a : EReal} {f : ι → EReal} (ha : ∃ r : ℝ, a = (r : EReal))
    (hf : ∀ j, ∃ r : ℝ, f j = (r : EReal)) : ∃ r : ℝ, a + ∑ j ∈ s, f j = (r : EReal) := by
  obtain ⟨x, rfl⟩ := ha
  obtain ⟨y, hy⟩ := real_sum s hf
  exact ⟨x + y, by rw [hy, EReal.coe_add]⟩

variable {S : Shape} {φ : FTy}

theorem IsReal.mulf {a b : FVec Ideal S φ} (ha : IsReal a) (hb : IsReal b) : IsReal (mulf a b) := fun i => by
  obtain ⟨x, hx⟩ := ha i; obtain ⟨y, hy⟩ := hb i
  exact ⟨x * y, by rw [mulf_apply, hx, hy, EReal.coe_mul]⟩

theorem IsReal.addf {a b : FVec Ideal S φ} (ha : IsReal a) (hb : IsReal b) : IsReal (addf a b) := fun i => by
  obtain ⟨x, hx⟩ := ha i; obtain ⟨y, hy⟩ := hb i
  exact ⟨x + y, by rw [addf_apply, hx, hy, EReal.coe_add]⟩

theorem IsReal.subf {a b : FVec Ideal S φ} (ha : IsReal a) (hb : IsReal b) : IsReal (subf a b) := fun i => by
  obtain ⟨x, hx⟩ := ha i; obtain ⟨y, hy⟩ := hb i
  exact ⟨x - y, by rw [subf_apply, hx, hy, EReal.coe_sub]⟩

/-- A broadcast reads its operand at an index. -/
theorem IsReal.broadcastInDim {T : Shape} {x : S.Idx → EReal} (hx : IsReal x) (dims : Fin S.rank → Fin T.rank)
    (h : S.BroadcastsInDim T dims) : IsReal (broadcastInDim T dims h x) := fun j => hx _

/-- A gather reads its operand at an index. -/
theorem IsReal.gather {si T : Shape} {w : Nat} {x : S.Idx → EReal} (hx : IsReal x) (d : GatherDims S si T) (idx : IVec si w) :
    IsReal (Host.gather d x idx) := fun j => hx _

/-- An accumulating scatter leaves, at each index, the operand's entry plus a finite sum of update entries. -/
theorem IsReal.scatterAdd {si U : Shape} {w : Nat} {x : FVec Ideal S φ} {upd : FVec Ideal U φ} (hx : IsReal x) (hu : IsReal upd)
    (d : ScatterDims S si U) (idx : IVec si w) : IsReal (Host.scatterAdd (F := Ideal) d x idx upd) := fun i => by
  show ∃ r : ℝ, Ideal.hostScatterAdd d x idx upd i = (r : EReal)
  unfold Ideal.hostScatterAdd
  exact real_add_sum _ (hx i) hu

/-- The zero constant is real. -/
theorem isReal_zero (T : Shape) : IsReal (constant (F := Ideal) T .f32 0x00000000#32) := fun i =>
  ⟨0, by rw [constant_apply, Ideal.ofBits_zero_f32]; rfl⟩

/-- The dense product of two real arrays is real. -/
theorem IsReal.G {a0 : Cert.KernelIdeal.S50000x64.Idx → EReal} {a1 : Cert.KernelIdeal.S64x64.Idx → EReal} (h0 : IsReal a0) (h1 : IsReal a1) :
    IsReal (Cert.KernelIdeal.Region0.G a0 a1) := fun i => by
  rw [Cert.KernelIdeal.Region0.G_apply]
  refine real_sum _ fun k => ?_
  obtain ⟨x, hx⟩ := h0 (ix2 (i 0) k); obtain ⟨y, hy⟩ := h1 (ix2 k (i 1))
  exact ⟨x * y, by rw [hx, hy, EReal.coe_mul]⟩

/-! ## The first layer -/

open Cert.KernelIdeal in
/-- The first layer's pre-activation — the dense product, the normalised graph convolution, the bias — is real
    everywhere when the features, the weights, the bias and the normalisation column are. -/
theorem real_layer1 (cl : FVec Ideal S50000x1 .f32) (s d : IVec S850000 32) (x : FVec Ideal S50000x64 .f32)
    (w : FVec Ideal S64x64 .f32) (b : FVec Ideal S64 .f32) (hcl : IsReal cl) (hx : IsReal x) (hw : IsReal w) (hb : IsReal b) :
    IsReal (KVal.addBias (KVal.spread cl s d (Region0.G x w)) b) := by
  unfold KVal.addBias KVal.spread
  exact ((((isReal_zero _).broadcastInDim _ _).scatterAdd ((((hx.G hw).mulf (hcl.broadcastInDim _ _)).gather _ _)) _ _).mulf
    (hcl.broadcastInDim _ _)).addf ((hb.broadcastInDim _ _).broadcastInDim _ _)

/-! ## From the precondition -/

/-- The scalar shape has one index. -/
instance : Subsingleton (⟨0, ![]⟩ : Shape).Idx := ⟨fun a b => funext fun d => d.elim0⟩

/-- The word of +inf denotes the top of the extended reals. -/
theorem ofBits_inf : Ideal.ofBits .f32 0x7F800000#32 = (⊤ : EReal) := by simp [Ideal.ofBits, Ideal.ieee]

/-- An extended real whose absolute value is below +inf is a real. -/
theorem real_of_abs_lt (x : EReal) (h : max x (-x) < ⊤) : ∃ r : ℝ, x = (r : EReal) := by
  induction x using EReal.rec with
  | bot => simp at h
  | coe r => exact ⟨r, rfl⟩
  | top => simp at h

/-- One test of the precondition: if "|x| < +inf" holds at every index of x (the conjunction over all indices is 1),
    x is real everywhere. -/
theorem real_of_all {axes : List (Fin S.rank)} (x : FVec Ideal S .f32) (dims : Fin (⟨0, ![]⟩ : Shape).rank → Fin S.rank)
    (hb : (⟨0, ![]⟩ : Shape).BroadcastsInDim S dims) (hr : S.ReducesTo axes ⟨0, ![]⟩) (hu : 0 < (⟨0, ![]⟩ : Shape).numel)
    (e : Host.reduce IntOp.andi (cmpf (F := Ideal) .olt (Host.absf x)
        (Idealize.ShloMosaic.broadcastInDim S dims hb (constant (F := Ideal) ⟨0, ![]⟩ .f32 0x7F800000#32)))
        (constantI ⟨0, ![]⟩ 1 1#1) hr hu ix0 = 1#1) : IsReal x := fun i => by
  have e1 := Host.reduce_andi_all _ _ hr hu ix0 e i
  have e2 : Ideal.cmp .olt (max (x i) (-(x i))) (Ideal.ofBits .f32 0x7F800000#32) = 1#1 := e1
  rw [ofBits_inf] at e2
  refine real_of_abs_lt (x i) ?_
  by_contra hn
  simp [Ideal.cmp, hn] at e2

open Cert.KernelIdeal in
/-- Under the precondition each of the seven float argument arrays is real everywhere. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (S := S50000x64) (m ((c.tc : Thread nD τ).loc main_arg0))
    ∧ IsReal (S := S64x64) (m ((c.tc : Thread nD τ).loc main_arg3))
    ∧ IsReal (S := S64) (m ((c.tc : Thread nD τ).loc main_arg4))
    ∧ IsReal (S := S64) (m ((c.tc : Thread nD τ).loc main_arg5))
    ∧ IsReal (S := S64) (m ((c.tc : Thread nD τ).loc main_arg6))
    ∧ IsReal (S := S64x64) (m ((c.tc : Thread nD τ).loc main_arg7))
    ∧ IsReal (S := S64) (m ((c.tc : Thread nD τ).loc main_arg8)) := by
  have h0 := congrFun (h c) ix0
  dsimp only [Cert.Pre_finite_inputs.fn, Cert.Pre_finite_inputs.fn_part1] at h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨r0, r3⟩ := IntOp.andi_eq_one.1 h0
  exact ⟨real_of_all _ _ _ _ _ r0, real_of_all _ _ _ _ _ r3, real_of_all _ _ _ _ _ r4, real_of_all _ _ _ _ _ r5,
    real_of_all _ _ _ _ _ r6, real_of_all _ _ _ _ _ r7, real_of_all _ _ _ _ _ r8⟩

end Cert.Finite

end
-- ==== Proof.StageEq.lean ====
/- The stages the two programs share are the same functions. The kernel program and the reference print the same
   host operations for the node ids, the degrees, the index normalisation, the bias and the pooling, each over its own
   copy of the shapes and of the dimension records; the copies hold the same literal data, so each pair of stages is
   equal, record by record. -/
import proofs.«153679_j86535001080497_2_alg».proof.Proof.RefRun
import proofs.«153679_j86535001080497_2_alg».proof.Proof.KValue

noncomputable section

namespace Cert.StageEq

open Idealize.ShloMosaic

/-! ## The two copies of each shape and of each dimension record -/

theorem shape_S50000x64 : KernelIdeal.S50000x64 = ReferenceIdeal.S50000x64 := rfl
theorem shape_S2x800000 : KernelIdeal.S2x800000 = ReferenceIdeal.S2x800000 := rfl
theorem shape_S50000 : KernelIdeal.S50000 = ReferenceIdeal.S50000 := rfl
theorem shape_S64x64 : KernelIdeal.S64x64 = ReferenceIdeal.S64x64 := rfl
theorem shape_S64 : KernelIdeal.S64 = ReferenceIdeal.S64 := rfl
theorem shape_S1x800000 : KernelIdeal.S1x800000 = ReferenceIdeal.S1x800000 := rfl
theorem shape_S800000 : KernelIdeal.S800000 = ReferenceIdeal.S800000 := rfl
theorem shape_S850000 : KernelIdeal.S850000 = ReferenceIdeal.S850000 := rfl
theorem shape_S_ : KernelIdeal.S_ = ReferenceIdeal.S_ := rfl
theorem shape_S850000x1 : KernelIdeal.S850000x1 = ReferenceIdeal.S850000x1 := rfl
theorem shape_S850000x64 : KernelIdeal.S850000x64 = ReferenceIdeal.S850000x64 := rfl
theorem shape_S1x64 : KernelIdeal.S1x64 = ReferenceIdeal.S1x64 := rfl
theorem shape_S50000x1 : KernelIdeal.S50000x1 = ReferenceIdeal.S50000x1 := rfl
theorem shape_S64x1 : KernelIdeal.S64x1 = ReferenceIdeal.S64x1 := rfl

theorem rec_scatter_S50000_S850000x1_S850000_n_0_0_1 : KernelIdeal.scatter_S50000_S850000x1_S850000_n_0_0_1 = ReferenceIdeal.scatter_S50000_S850000x1_S850000_n_0_0_1 := rfl
theorem rec_gather_S50000x64_S850000x1_S850000x64_1_0_n_n_0_1_164 : KernelIdeal.gather_S50000x64_S850000x1_S850000x64_1_0_n_n_0_1_164 = ReferenceIdeal.gather_S50000x64_S850000x1_S850000x64_1_0_n_n_0_1_164 := rfl
theorem rec_scatter_S50000x64_S850000x1_S850000x64_1_0_0_1 : KernelIdeal.scatter_S50000x64_S850000x1_S850000x64_1_0_0_1 = ReferenceIdeal.scatter_S50000x64_S850000x1_S850000x64_1_0_0_1 := rfl
theorem rec_scatter_S64x64_S50000x1_S50000x64_1_0_0_1 : KernelIdeal.scatter_S64x64_S50000x1_S50000x64_1_0_0_1 = ReferenceIdeal.scatter_S64x64_S50000x1_S50000x64_1_0_0_1 := rfl
theorem rec_scatter_S64_S50000x1_S50000_n_0_0_1 : KernelIdeal.scatter_S64_S50000x1_S50000_n_0_0_1 = ReferenceIdeal.scatter_S64_S50000x1_S50000_n_0_0_1 := rfl

/-! ## The stages -/

/-- The source ids: row 0 of the edge list followed by the self-loops. -/
theorem ids_src (ei : IVec ReferenceIdeal.S2x800000 32) : KernelIdeal.KVal.ids 0 ei = ReferenceIdeal.RefRun.src ei := rfl

/-- The destination ids: row 1 of the edge list followed by the self-loops. -/
theorem ids_dst (ei : IVec ReferenceIdeal.S2x800000 32) : KernelIdeal.KVal.ids 1 ei = ReferenceIdeal.RefRun.dst ei := rfl

/-- The index normalisation. -/
theorem wrap_eq (v : IVec ReferenceIdeal.S850000 32) : KernelIdeal.KVal.wrap v = ReferenceIdeal.RefRun.norm32 v := rfl

/-- The degrees. -/
theorem deg_eq (ei : IVec ReferenceIdeal.S2x800000 32) : KernelIdeal.KVal.deg (KernelIdeal.KVal.ids 1 ei) = ReferenceIdeal.RefRun.deg (F := Ideal) ei := by
  unfold KernelIdeal.KVal.deg ReferenceIdeal.RefRun.deg
  rw [ids_dst, rec_scatter_S50000_S850000x1_S850000_n_0_0_1]

/-- The inverse square roots of the degrees. -/
theorem dinv_eq (ei : IVec ReferenceIdeal.S2x800000 32) : KernelIdeal.KVal.dinv (KernelIdeal.KVal.ids 1 ei) = ReferenceIdeal.RefRun.dinv (F := Ideal) ei := by
  unfold KernelIdeal.KVal.dinv ReferenceIdeal.RefRun.dinv
  rw [deg_eq]

/-- The bias added to every row. -/
theorem addBias_eq (h : FVec Ideal ReferenceIdeal.S50000x64 .f32) (b : FVec Ideal ReferenceIdeal.S64 .f32) :
    KernelIdeal.KVal.addBias h b = ReferenceIdeal.RefRun.addBias (F := Ideal) h b := rfl

/-- The pooling. -/
theorem pool_eq (batch : IVec ReferenceIdeal.S50000 32) (h : FVec Ideal ReferenceIdeal.S50000x64 .f32) :
    KernelIdeal.KVal.pool batch h = ReferenceIdeal.RefRun.pool (F := Ideal) batch h := by
  unfold KernelIdeal.KVal.pool ReferenceIdeal.RefRun.pool
  rw [rec_scatter_S64x64_S50000x1_S50000x64_1_0_0_1, rec_scatter_S64_S50000x1_S50000_n_0_0_1]

/-- The scaling column as a full-width array (this broadcast's record is the kernel program's only). -/
def colB (cl : FVec Ideal KernelIdeal.S50000x1 .f32) : FVec Ideal KernelIdeal.S50000x64 .f32 :=
  broadcastInDim KernelIdeal.S50000x64 ![0, 1] KernelIdeal.Gen.bcast_S50000x1_S50000x64_0_1 cl

/-- The kernel's convolution over the reference's records. -/
theorem spread_eq (cl : FVec Ideal KernelIdeal.S50000x1 .f32) (s d : IVec ReferenceIdeal.S850000 32) (h : FVec Ideal ReferenceIdeal.S50000x64 .f32) :
    KernelIdeal.KVal.spread cl s d h
      = mulf (Host.scatterAdd (F := Ideal) ReferenceIdeal.scatter_S50000x64_S850000x1_S850000x64_1_0_0_1
          (broadcastInDim ReferenceIdeal.S50000x64 ![] ReferenceIdeal.Gen.bcast_S_S50000x64 (constant (F := Ideal) ReferenceIdeal.S_ .f32 0x00000000#32))
          (broadcastInDim ReferenceIdeal.S850000x1 ![0] ReferenceIdeal.Gen.bcast_S850000_S850000x1_0 d)
          (Host.gather ReferenceIdeal.gather_S50000x64_S850000x1_S850000x64_1_0_n_n_0_1_164 (mulf h (colB cl)) (ReferenceIdeal.RefRun.norm32 s)))
        (colB cl) := by
  unfold KernelIdeal.KVal.spread colB
  rw [wrap_eq, rec_scatter_S50000x64_S850000x1_S850000x64_1_0_0_1, rec_gather_S50000x64_S850000x1_S850000x64_1_0_n_n_0_1_164]

end Cert.StageEq

end
-- ==== Proof.Propagate.lean ====
import proofs.«153679_j86535001080497_2_alg».proof.ReferenceIdeal
import Idealize.ShloMosaic.PureOps.Ideal
import Idealize.ShloMosaic.PureOps.Ideal.Laws
import Idealize.ShloMosaic.Lib.ValueIdx

/-!
# The normalisation law of the graph convolution

Both programs propagate node features along the edges with the symmetric normalisation
`dinv[src] * dinv[dst]`. One multiplies each gathered row by both factors before the
scatter-add; the other scales the rows by `dinv` before the gather and the accumulated rows by
`dinv` after the scatter-add. Over the extended reals the two agree as soon as every `dinv n` is a
non-negative real: multiplication is associative and commutative everywhere, and a non-negative
real factor distributes over every finite sum, infinite terms included.
-/

noncomputable section

open scoped BigOperators

namespace Cert.Propagate

open Idealize.ShloMosaic Idealize.ShloMosaic.ValueIdx

/-! ## The three index computations -/

section Index
variable {α : Type} {N C E w : Nat}

/-- Dimension numbers of the gather of single elements of a flat array `[N]` at start indices `[E, 1]`. -/
abbrev gElt (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of the gather of whole rows of an array `[N, C]` at start indices `[E, 1]`. -/
abbrev gRow (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the scatter of whole rows `[E, C]` into an array `[N, C]` at indices `[E, 1]`. -/
abbrev sRow (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The place `[e, 0]` of the index array that edge `e` reads. -/
abbrev at0 (e : Nat) (he : e < E) : (⟨2, ![E, 1]⟩ : Shape).Idx := ix2 (⟨e, he⟩ : Fin E) (0 : Fin 1)

/-- The clamped node: a signed word read into `[0, N - 1]`. -/
abbrev clampNode (hN : 0 < N) (v : BitVec w) : Fin N := ⟨min v.toInt.toNat (N - 1), by omega⟩

/-- The element gather at edge `e`: the operand at the clamped start index. -/
theorem gElt_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gElt N E wf) x idx y = x (ix1 (clampNode hN (idx (at0 (y 0).val (y 0).isLt)))) := by
  unfold Host.gather
  congr 1
  funext a
  obtain rfl : a = 0 := Subsingleton.elim _ _
  refine Fin.ext ?_
  show (gElt N E wf).start y idx 0 + (gElt N E wf).batchCoord y 0 + (gElt N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gElt N E wf).startIndexMap from List.mem_singleton.mpr rfl)]
  have hsi : (gElt N E wf).siIdx y ⟨List.idxOf (0 : Fin 1) (gElt N E wf).startIndexMap,
      List.idxOf_lt_length_iff.2 (List.mem_singleton.mpr rfl)⟩ = at0 (y 0).val (y 0).isLt := by
    funext b; refine Fin.ext ?_
    match b with
    | ⟨0, _⟩ => rfl
    | ⟨1, _⟩ => rfl
  rw [hsi]
  rfl

/-- The row gather at `(e, k)`: the operand's row at the clamped start index, column `k`. -/
theorem gRow_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gRow N C E wf) x idx y
      = x (ix2 (clampNode hN (idx (at0 (y 0).val (idx2_lt0 y)))) (⟨(y 1).val, idx2_lt1 y⟩ : Fin C)) := by
  unfold Host.gather
  congr 1
  have key : ∀ a : Fin 2, ((gRow N C E wf).operandIdx y idx a).val
      = (ix2 (clampNode hN (idx (at0 (y 0).val (idx2_lt0 y)))) (⟨(y 1).val, idx2_lt1 y⟩ : Fin C) a).val := by
    intro a
    show (gRow N C E wf).start y idx a + (gRow N C E wf).batchCoord y a + (gRow N C E wf).offCoord y a = _
    rw [GatherDims.batchCoord_eq_zero _ _ _ List.not_mem_nil]
    revert a
    rw [Fin.forall_fin_two]
    constructor
    · rw [GatherDims.offCoord_eq_zero _ _ _ (fun h => ((GatherDims.mem_sKept _ _).mp h).1 (List.mem_singleton.mpr rfl))]
      simp only [Nat.add_zero]
      unfold GatherDims.start
      rw [dif_pos (show (0 : Fin 2) ∈ (gRow N C E wf).startIndexMap from List.mem_singleton.mpr rfl)]
      have hsi : (gRow N C E wf).siIdx y ⟨List.idxOf (0 : Fin 2) (gRow N C E wf).startIndexMap,
          List.idxOf_lt_length_iff.2 (List.mem_singleton.mpr rfl)⟩ = at0 (y 0).val (idx2_lt0 y) := by
        funext b; refine Fin.ext ?_
        match b with
        | ⟨0, _⟩ => rfl
        | ⟨1, _⟩ => rfl
      rw [hsi]
      rfl
    · have hs : (gRow N C E wf).start y idx 1 = 0 := by
        unfold GatherDims.start
        rw [dif_neg (show (1 : Fin 2) ∉ ([0] : List (Fin 2)) by decide)]
      have hk : (1 : Fin 2) ∈ (gRow N C E wf).sKept :=
        (GatherDims.mem_sKept _ _).mpr ⟨show (1 : Fin 2) ∉ ([0] : List (Fin 2)) by decide, List.not_mem_nil⟩
      have hi : List.idxOf (1 : Fin 2) ((List.finRange 2).filter (· ∉ ([0] : List (Fin 2)))) = 0 := by decide
      have hi' : List.idxOf (1 : Fin 2) (gRow N C E wf).sKept = 0 := hi
      rw [hs]
      unfold GatherDims.offCoord
      rw [dif_pos hk]
      simp only [hi', Nat.zero_add]
      rfl
  funext a
  exact Fin.ext (key a)

/-- Where a row update lands: if update `u` lands on element `i`, the index word of `u`'s edge, read signed,
    is `i`'s row. -/
theorem sRow_resultIdx (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (sRow N C E wf).resultIdx? u idx = some i) :
    (idx (at0 (u 0).val (idx2_lt0 u))).toInt = ((i 0).val : Int) := by
  unfold ScatterDims.resultIdx? at h
  split at h
  · rename_i hc
    have h0 := congrArg Fin.val (congrFun (Option.some.inj h) 0)
    have hc0 := (hc 0).1
    have hw : (sRow N C E wf).window u 0 = 0 := by
      unfold ScatterDims.window
      have hn : (0 : Fin 2) ∉ (List.finRange 2).filter (· ∉ ([0] : List (Fin 2))) := by decide
      rw [dif_neg (show (0 : Fin 2) ∉ (sRow N C E wf).sKept from hn)]
    have hst : (sRow N C E wf).start u idx 0 = (idx (at0 (u 0).val (idx2_lt0 u))).toInt := by
      unfold ScatterDims.start
      rw [dif_pos (show (0 : Fin 2) ∈ (sRow N C E wf).scatterDimsToOperandDims from List.mem_singleton.mpr rfl)]
      have hsi : (sRow N C E wf).siIdx u ⟨List.idxOf (0 : Fin 2) (sRow N C E wf).scatterDimsToOperandDims,
          List.idxOf_lt_length_iff.2 (List.mem_singleton.mpr rfl)⟩ = at0 (u 0).val (idx2_lt0 u) := by
        funext b; refine Fin.ext ?_
        match b with
        | ⟨0, _⟩ => rfl
        | ⟨1, _⟩ => rfl
      rw [hsi]
    rw [hw, hst] at hc0
    simp only [hw, hst] at h0
    omega
  · exact absurd h (by simp)

/-- A flat array read as a column `[A, 1]`. -/
theorem bcast_unit_apply {A : Nat} (hA : A ≠ 1)
    (b1 : (⟨1, ![A]⟩ : Shape).BroadcastsInDim ⟨2, ![A, 1]⟩ (![0] : Fin 1 → Fin 2))
    (v : (⟨1, ![A]⟩ : Shape).Idx → α) (p : (⟨2, ![A, 1]⟩ : Shape).Idx) :
    broadcastInDim ⟨2, ![A, 1]⟩ ![0] b1 v p = v (ix1 (⟨(p 0).val, idx2_lt0 p⟩ : Fin A)) := by
  unfold broadcastInDim
  congr 1
  funext a
  obtain rfl : a = 0 := Subsingleton.elim _ _
  rw [dif_neg (show ¬ ((⟨1, ![A]⟩ : Shape).size 0 = 1) from hA)]
  rfl

/-- A column `[A, 1]` stretched along the rows of `[A, B]`. -/
theorem bcast_col_apply {A B : Nat} (hA : A ≠ 1)
    (b2 : (⟨2, ![A, 1]⟩ : Shape).BroadcastsInDim ⟨2, ![A, B]⟩ (![0, 1] : Fin 2 → Fin 2))
    (v : (⟨2, ![A, 1]⟩ : Shape).Idx → α) (u : (⟨2, ![A, B]⟩ : Shape).Idx) :
    broadcastInDim ⟨2, ![A, B]⟩ ![0, 1] b2 v u = v (ix2 (⟨(u 0).val, idx2_lt0 u⟩ : Fin A) (0 : Fin 1)) := by
  unfold broadcastInDim
  congr 1
  funext a
  revert a
  rw [Fin.forall_fin_two]
  constructor
  · rw [dif_neg (show ¬ ((⟨2, ![A, 1]⟩ : Shape).size 0 = 1) from hA)]
    rfl
  · rw [dif_pos (show (⟨2, ![A, 1]⟩ : Shape).size 1 = 1 from rfl)]
    rfl

end Index

/-! ## A non-negative real factor distributes over a finite sum of extended reals -/

theorem sum_mul_nonneg_real {ι : Type} (t : Finset ι) (f : ι → EReal) (r : ℝ) (hr : 0 ≤ r) :
    (∑ u ∈ t, f u) * (r : EReal) = ∑ u ∈ t, f u * (r : EReal) := by
  classical
  induction t using Finset.induction_on with
  | empty => simp
  | insert a t ha ih =>
    rw [Finset.sum_insert ha, Finset.sum_insert ha,
      EReal.right_distrib_of_nonneg_of_ne_top (EReal.coe_nonneg.mpr hr) (EReal.coe_ne_top r), ih]

/-- Node ids of non-negative words are not wrapped. -/
theorem wrap_of_nonneg (v : BitVec 32) (hv : 0 ≤ v.toInt) :
    Scalar.select (IntOp.cmpi .slt v 0#32) (IntOp.addi v 50000#32) v = v := by
  have h0 : (0#32 : BitVec 32).toInt = 0 := by decide
  have : v.slt 0#32 = false := by
    rw [BitVec.slt, h0]; exact decide_eq_false (by omega)
  simp [Scalar.select, IntOp.cmpi, this]

/-! ## The two spellings of the propagation -/

section Main

open Cert.ReferenceIdeal
variable [Cert.ReferenceIdeal.Facts₀]
open Cert.ReferenceIdeal.Facts₀

/-- Node ids with the negative ones wrapped by `+50000`, as a column of start indices. -/
abbrev nrm (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Node ids as they are, as a column of scatter indices. -/
abbrev raw (v : IVec S850000 32) : IVec S850000x1 32 :=
  broadcastInDim S850000x1 ![0] bcast_S850000_S850000x1_0 v

/-- The zero array the scatter accumulates into. -/
abbrev zero2 : FVec Ideal S50000x64 .f32 :=
  broadcastInDim S50000x64 ![] bcast_S_S50000x64 (constant (F := Ideal) S_ .f32 0x00000000#32)

/-- `dinv` stretched along the rows of `[50000, 64]`, over any evidence for the two broadcasts. -/
abbrev col (r1 : S50000.BroadcastsInDim S50000x1 (![0] : Fin 1 → Fin S50000x1.rank))
    (r2 : S50000x1.BroadcastsInDim S50000x64 (![0, 1] : Fin 2 → Fin S50000x64.rank))
    (dinv : FVec Ideal S50000 .f32) : FVec Ideal S50000x64 .f32 :=
  broadcastInDim S50000x64 ![0, 1] r2 (broadcastInDim S50000x1 ![0] r1 dinv)

/-- Each gathered row times both normalisation factors, then accumulated at its destination. -/
abbrev reference (h : FVec Ideal S50000x64 .f32) (dinv : FVec Ideal S50000 .f32) (s d : IVec S850000 32) :
    FVec Ideal S50000x64 .f32 :=
  Host.scatterAdd scatter_S50000x64_S850000x1_S850000x64_1_0_0_1 zero2 (raw d)
    (mulf (Host.gather gather_S50000x64_S850000x1_S850000x64_1_0_n_n_0_1_164 h (nrm s))
      (broadcastInDim S850000x64 ![0, 1] bcast_S850000x1_S850000x64_0_1
        (broadcastInDim S850000x1 ![0] bcast_S850000_S850000x1_0
          (mulf (Host.gather gather_S50000_S850000x1_S850000_n_0_n_n_0_1_1 dinv (nrm s))
            (Host.gather gather_S50000_S850000x1_S850000_n_0_n_n_0_1_1 dinv (nrm d))))))

/-- Rows scaled by `dinv`, gathered, accumulated at their destinations, and scaled by `dinv` again. -/
abbrev kernel (r1 : S50000.BroadcastsInDim S50000x1 (![0] : Fin 1 → Fin S50000x1.rank))
    (r2 : S50000x1.BroadcastsInDim S50000x64 (![0, 1] : Fin 2 → Fin S50000x64.rank))
    (h : FVec Ideal S50000x64 .f32) (dinv : FVec Ideal S50000 .f32) (s d : IVec S850000 32) :
    FVec Ideal S50000x64 .f32 :=
  mulf (Host.scatterAdd scatter_S50000x64_S850000x1_S850000x64_1_0_0_1 zero2 (raw d)
      (Host.gather gather_S50000x64_S850000x1_S850000x64_1_0_n_n_0_1_164 (mulf h (col r1 r2 dinv)) (nrm s)))
    (col r1 r2 dinv)

theorem col_apply (r1 : S50000.BroadcastsInDim S50000x1 (![0] : Fin 1 → Fin S50000x1.rank))
    (r2 : S50000x1.BroadcastsInDim S50000x64 (![0, 1] : Fin 2 → Fin S50000x64.rank))
    (dinv : FVec Ideal S50000 .f32) (i : S50000x64.Idx) :
    col r1 r2 dinv i = dinv (ix1 (⟨(i 0).val, idx2_lt0 i⟩ : Fin 50000)) := by
  show broadcastInDim ⟨2, ![50000, 64]⟩ ![0, 1] r2 (broadcastInDim ⟨2, ![50000, 1]⟩ ![0] r1 dinv) i = _
  rw [bcast_col_apply (by decide) r2, bcast_unit_apply (by decide) r1]

/-- The wrapped id column at edge `e`. -/
theorem nrm_apply (v : IVec S850000 32) (e : Nat) (he : e < 850000) :
    nrm v (at0 e he) = Scalar.select (IntOp.cmpi .slt (v (ix1 ⟨e, he⟩)) 0#32)
      (IntOp.addi (v (ix1 ⟨e, he⟩)) 50000#32) (v (ix1 ⟨e, he⟩)) := by
  exact (bcast_unit_apply (A := 850000) (by decide) bcast_S850000_S850000x1_0 _ (at0 e he)).trans rfl

theorem raw_apply (v : IVec S850000 32) (e : Nat) (he : e < 850000) :
    raw v (at0 e he) = v (ix1 ⟨e, he⟩) := by
  exact (bcast_unit_apply (A := 850000) (by decide) bcast_S850000_S850000x1_0 v (at0 e he)).trans rfl

/-- The accumulating scatter read at an index: the operand there plus the updates that land there. -/
theorem scatterAdd_apply {s si su : Shape} {w : Nat} (D : ScatterDims s si su) (x : FVec Ideal s .f32)
    (idx : IVec si w) (upd : FVec Ideal su .f32) (i : s.Idx) :
    Host.scatterAdd D x idx upd i
      = x i + ∑ j ∈ Finset.univ.filter (fun j => D.resultIdx? j idx = some i), upd j := rfl

/-- One edge's contribution, the two ways: at an edge whose raw destination is the row `i 0`, where `dinv` is the
    real `r`. -/
theorem term_eq (r1 : S50000.BroadcastsInDim S50000x1 (![0] : Fin 1 → Fin S50000x1.rank))
    (r2 : S50000x1.BroadcastsInDim S50000x64 (![0, 1] : Fin 2 → Fin S50000x64.rank))
    (h : FVec Ideal S50000x64 .f32) (dinv : FVec Ideal S50000 .f32) (s d : IVec S850000 32)
    (i : S50000x64.Idx) (r : ℝ) (hr : dinv (ix1 (⟨(i 0).val, idx2_lt0 i⟩ : Fin 50000)) = (r : EReal))
    (u : S850000x64.Idx) (hdst : (d (ix1 (⟨(u 0).val, idx2_lt0 u⟩ : Fin 850000))).toInt = ((i 0).val : Int)) :
    mulf (Host.gather gather_S50000x64_S850000x1_S850000x64_1_0_n_n_0_1_164 h (nrm s))
      (broadcastInDim S850000x64 ![0, 1] bcast_S850000x1_S850000x64_0_1
        (broadcastInDim S850000x1 ![0] bcast_S850000_S850000x1_0
          (mulf (Host.gather gather_S50000_S850000x1_S850000_n_0_n_n_0_1_1 dinv (nrm s))
            (Host.gather gather_S50000_S850000x1_S850000_n_0_n_n_0_1_1 dinv (nrm d))))) u
      = Host.gather gather_S50000x64_S850000x1_S850000x64_1_0_n_n_0_1_164 (mulf h (col r1 r2 dinv)) (nrm s) u
          * (r : EReal) := by
  have hN : 0 < 50000 := by decide
  have e1 : ∀ x : FVec Ideal S50000x64 .f32,
      Host.gather gather_S50000x64_S850000x1_S850000x64_1_0_n_n_0_1_164 x (nrm s) u
        = x (ix2 (clampNode hN (nrm s (at0 (u 0).val (idx2_lt0 u)))) (⟨(u 1).val, idx2_lt1 u⟩ : Fin 64)) :=
    fun x => gRow_apply hN gather_S50000x64_S850000x1_S850000x64_1_0_n_n_0_1_164_wf x (nrm s) u
  have e2 : ∀ v : IVec S850000 32,
      Host.gather gather_S50000_S850000x1_S850000_n_0_n_n_0_1_1 dinv (nrm v) (ix1 (⟨(u 0).val, idx2_lt0 u⟩ : Fin 850000))
        = dinv (ix1 (clampNode hN (nrm v (at0 (u 0).val (idx2_lt0 u))))) :=
    fun v => gElt_apply hN gather_S50000_S850000x1_S850000_n_0_n_n_0_1_1_wf dinv (nrm v) _
  have e3 : broadcastInDim S850000x64 ![0, 1] bcast_S850000x1_S850000x64_0_1
        (broadcastInDim S850000x1 ![0] bcast_S850000_S850000x1_0
          (mulf (Host.gather gather_S50000_S850000x1_S850000_n_0_n_n_0_1_1 dinv (nrm s))
            (Host.gather gather_S50000_S850000x1_S850000_n_0_n_n_0_1_1 dinv (nrm d)))) u
      = Host.gather gather_S50000_S850000x1_S850000_n_0_n_n_0_1_1 dinv (nrm s) (ix1 (⟨(u 0).val, idx2_lt0 u⟩ : Fin 850000))
        * Host.gather gather_S50000_S850000x1_S850000_n_0_n_n_0_1_1 dinv (nrm d) (ix1 (⟨(u 0).val, idx2_lt0 u⟩ : Fin 850000)) :=
    (bcast_col_apply (A := 850000) (B := 64) (by decide) bcast_S850000x1_S850000x64_0_1 _ u).trans
      (bcast_unit_apply (A := 850000) (by decide) bcast_S850000_S850000x1_0 _ _)
  have e4 : nrm d (at0 (u 0).val (idx2_lt0 u)) = d (ix1 (⟨(u 0).val, idx2_lt0 u⟩ : Fin 850000)) := by
    rw [nrm_apply d]
    exact wrap_of_nonneg _ (by rw [hdst]; exact Int.natCast_nonneg _)
  have e5 : clampNode hN (d (ix1 (⟨(u 0).val, idx2_lt0 u⟩ : Fin 850000))) = (⟨(i 0).val, idx2_lt0 i⟩ : Fin 50000) := by
    refine Fin.ext ?_
    show min (d (ix1 (⟨(u 0).val, idx2_lt0 u⟩ : Fin 850000))).toInt.toNat (50000 - 1) = (i 0).val
    have := idx2_lt0 i
    omega
  show Host.gather gather_S50000x64_S850000x1_S850000x64_1_0_n_n_0_1_164 h (nrm s) u * _ = _
  rw [e3, e1, e1, e2, e2, e4, e5, hr]
  show _ = h _ * col r1 r2 dinv _ * _
  rw [col_apply, mul_assoc]

theorem prop_eq (r1 : S50000.BroadcastsInDim S50000x1 (![0] : Fin 1 → Fin S50000x1.rank))
    (r2 : S50000x1.BroadcastsInDim S50000x64 (![0, 1] : Fin 2 → Fin S50000x64.rank))
    (h : FVec Ideal S50000x64 .f32) (dinv : FVec Ideal S50000 .f32) (s d : IVec S850000 32)
    (hd : ∀ n, ∃ r : ℝ, 0 ≤ r ∧ dinv n = (r : EReal)) :
    reference h dinv s d = kernel r1 r2 h dinv s d := by
  funext i
  obtain ⟨r, hr0, hr⟩ := hd (ix1 (⟨(i 0).val, idx2_lt0 i⟩ : Fin 50000))
  unfold reference kernel
  rw [mulf_apply, scatterAdd_apply, scatterAdd_apply]
  have hz : zero2 i = 0 := Ideal.ofBits_zero_f32
  rw [hz, zero_add, zero_add, col_apply, hr, sum_mul_nonneg_real _ _ r hr0]
  refine Finset.sum_congr rfl fun u hu => ?_
  have hu' : scatter_S50000x64_S850000x1_S850000x64_1_0_0_1.resultIdx? u (raw d) = some i :=
    (Finset.mem_filter.mp hu).2
  have hdst : (d (ix1 (⟨(u 0).val, idx2_lt0 u⟩ : Fin 850000))).toInt = ((i 0).val : Int) :=
    (congrArg BitVec.toInt (raw_apply d (u 0).val (idx2_lt0 u))).symm.trans
      (sRow_resultIdx scatter_S50000x64_S850000x1_S850000x64_1_0_0_1_wf (raw d) u i hu')
  exact term_eq r1 r2 h dinv s d i r hr u hdst

/-! ## The normalisation factors are non-negative reals -/

/-- The literal one. -/
theorem one_f32 : Ideal.ofBits .f32 0x3F800000#32 = 1 := by
  simp [Ideal.ofBits, Ideal.ieee, -EReal.coe_mul]; norm_num

/-- A sum of ones is the number of terms. -/
theorem sum_ones {ι : Type} (t : Finset ι) : ∑ _j ∈ t, (1 : EReal) = ((t.card : ℝ) : EReal) := by
  classical
  induction t using Finset.induction_on with
  | empty => simp
  | insert a t ha ih =>
    rw [Finset.sum_insert ha, Finset.card_insert_of_notMem ha, ih]
    push_cast
    rw [add_comm]

/-- The reciprocal square root read at an index. -/
theorem rsqrt_apply {s : Shape} (x : FVec Ideal s .f32) (i : s.Idx) : Host.rsqrt x i = Ideal.rsqrt (x i) := rfl

/-- The zero vector over the nodes. -/
abbrev zeros1 : FVec Ideal S50000 .f32 :=
  broadcastInDim S50000 ![] bcast_S_S50000 (constant (F := Ideal) S_ .f32 0x00000000#32)

/-- The degree of each node: one accumulated per edge at its raw destination. -/
abbrev deg (d : IVec S850000 32) : FVec Ideal S50000 .f32 :=
  Host.scatterAdd scatter_S50000_S850000x1_S850000_n_0_0_1 zeros1 (raw d)
    (broadcastInDim S850000 ![] bcast_S_S850000 (constant (F := Ideal) S_ .f32 0x3F800000#32))

/-- The normalisation factor: the reciprocal square root of the degree where it is positive, else zero. -/
abbrev dinvTerm (d : IVec S850000 32) : FVec Ideal S50000 .f32 :=
  select (cmpf .ogt (deg d) zeros1) (Host.rsqrt (deg d)) zeros1

/-- A degree is a natural number. -/
theorem deg_eq (d : IVec S850000 32) (n : S50000.Idx) : ∃ k : ℕ, deg d n = ((k : ℝ) : EReal) := by
  refine ⟨(Finset.univ.filter fun j =>
    scatter_S50000_S850000x1_S850000_n_0_0_1.resultIdx? j (raw d) = some n).card, ?_⟩
  unfold deg
  rw [scatterAdd_apply]
  have h0 : zeros1 n = 0 := Ideal.ofBits_zero_f32
  rw [h0, zero_add, ← sum_ones]
  exact Finset.sum_congr rfl fun j _ => one_f32

theorem dinv_nonneg_real (d : IVec S850000 32) : ∀ n, ∃ r : ℝ, 0 ≤ r ∧ dinvTerm d n = (r : EReal) := by
  intro n
  obtain ⟨k, hk⟩ := deg_eq d n
  have h0 : zeros1 n = 0 := Ideal.ofBits_zero_f32
  unfold dinvTerm
  rw [select_apply, cmpf_apply, rsqrt_apply, Ideal.cmpf_def, hk, h0]
  rcases Nat.eq_zero_or_pos k with rfl | hpos
  · refine ⟨0, le_rfl, ?_⟩
    simp [Scalar.select, Ideal.cmp]
  · refine ⟨(Real.sqrt k)⁻¹, inv_nonneg.mpr (Real.sqrt_nonneg _), ?_⟩
    have hk0 : (0 : ℝ) < k := by exact_mod_cast hpos
    have hlt : (0 : EReal) < ((k : ℝ) : EReal) := by exact_mod_cast hk0
    have hc : Ideal.cmp .ogt (((k : ℝ) : EReal)) 0 = 1#1 := by
      show BitVec.ofBool (decide ((0 : EReal) < ((k : ℝ) : EReal))) = 1#1
      rw [decide_eq_true hlt]; rfl
    rw [hc, select_one, Ideal.rsqrt_coe, if_neg (not_lt.mpr hk0.le), if_neg hk0.ne']

end Main

end Cert.Propagate

end
-- ==== Proof.Variance.lean ====
/-
  The variance of finitely many REAL numbers, computed in one pass and in two.

  For real numbers f₁ … f_N (N > 0) with mean μ = (∑ f) / N, the mean of the squared deviations (∑ (f - μ)²) / N equals
  the mean of the squares minus the square of the mean, (∑ f²) / N - μ², and is not negative, so that clamping the
  one-pass form at 0 changes nothing. Both sides are stated here on the extended reals, as the two programs compute
  them (a quotient by the real N is the product with 1/N): the identity needs every f to be a real number — with an
  infinite entry the two sides differ — and that is where the finiteness of the inputs is used.
-/
import Idealize.ShloMosaic.PureOps.Ideal

noncomputable section

namespace Cert.BatchStats

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of a real by a nonzero real, on the extended reals. -/
theorem div_real {y : ℝ} (h : y ≠ 0) (x : ℝ) : Ideal.div (x : EReal) (y : EReal) = ((x / y : ℝ) : EReal) := by
  rw [Ideal.div_coe h, ← EReal.coe_mul]; congr 1; field_simp

/-- Over the reals: the two-pass variance is the one-pass variance. -/
theorem var_real {ι : Type} [Fintype ι] (N : ℝ) (hN : N ≠ 0) (hcard : (Fintype.card ι : ℝ) = N) (f : ι → ℝ) :
    (∑ i, (f i - (∑ j, f j) / N) * (f i - (∑ j, f j) / N)) / N
      = (∑ i, f i * f i) / N - ((∑ j, f j) / N) * ((∑ j, f j) / N) := by
  have h : ∀ i, (f i - (∑ j, f j) / N) * (f i - (∑ j, f j) / N)
      = f i * f i - 2 * ((∑ j, f j) / N) * f i + ((∑ j, f j) / N) * ((∑ j, f j) / N) := fun i => by ring
  simp_rw [h]
  rw [Finset.sum_add_distrib, Finset.sum_sub_distrib, ← Finset.mul_sum, Finset.sum_const, Finset.card_univ, nsmul_eq_mul, hcard]
  field_simp
  ring

/-- Over the reals: a mean of squares is not negative. -/
theorem var_nonneg {ι : Type} [Fintype ι] (N : ℝ) (hN : 0 < N) (g : ι → ℝ) : 0 ≤ (∑ i, g i * g i) / N :=
  div_nonneg (Finset.sum_nonneg fun i _ => mul_self_nonneg (g i)) hN.le

/-- On the extended reals, for real entries: the one-pass variance clamped at 0 is the two-pass variance. `cN` is the
    number of entries as the programs spell it. -/
theorem var_bridge {ι : Type} [Fintype ι] (N : ℝ) (hN : 0 < N) (hcard : (Fintype.card ι : ℝ) = N) (f : ι → ℝ)
    (cN : EReal) (hcN : cN = ((N : ℝ) : EReal)) :
    max (Ideal.div (∑ i, (f i : EReal) * (f i : EReal)) cN
          - Ideal.div (∑ i, (f i : EReal)) cN * Ideal.div (∑ i, (f i : EReal)) cN) 0
      = Ideal.div (∑ i, ((f i : EReal) - Ideal.div (∑ j, (f j : EReal)) cN) * ((f i : EReal) - Ideal.div (∑ j, (f j : EReal)) cN)) cN := by
  subst hcN
  have hN' : N ≠ 0 := ne_of_gt hN
  have hS : (∑ i, (f i : EReal)) = ((∑ i, f i : ℝ) : EReal) := (coe_sum _ _).symm
  have hQ : (∑ i, (f i : EReal) * (f i : EReal)) = ((∑ i, f i * f i : ℝ) : EReal) := by
    rw [coe_sum]; exact Finset.sum_congr rfl fun i _ => (EReal.coe_mul _ _).symm
  rw [hS, hQ, div_real hN', div_real hN']
  have hD : (∑ i, ((f i : EReal) - (((∑ j, f j) / N : ℝ) : EReal)) * ((f i : EReal) - (((∑ j, f j) / N : ℝ) : EReal)))
      = ((∑ i, (f i - (∑ j, f j) / N) * (f i - (∑ j, f j) / N) : ℝ) : EReal) := by
    rw [coe_sum]; exact Finset.sum_congr rfl fun i _ => by rw [← EReal.coe_sub, ← EReal.coe_mul]
  rw [hD, div_real hN', ← EReal.coe_mul, ← EReal.coe_sub, var_real N hN' hcard f]
  rw [← var_real N hN' hcard f]
  exact max_eq_left (by exact_mod_cast var_nonneg N hN fun i => f i - (∑ j, f j) / N)

end Cert.BatchStats

end
-- ==== Proof.NormBridge.lean ====
/-
  THE BATCH-NORM STAGE AND THE HOST MATRIX PRODUCT, REFERENCE AGAINST KERNEL (pure mathematics about the
  values of operations at the ideal instance, where floats are extended reals and every operation is exact).

  (1) The host's [50000,64] × [64,64] product is, entry by entry, the sum over k of l[n, k] * r[k, j] (`dense_eq`).
  (2) The reference normalises hb = conv + bias by its column mean μ = (∑ hb) / 50000 and its two-pass column variance
      (∑ (hb − μ)²) / (50000 − 0), kept because that divisor is positive; the kernel program uses the same mean, from the
      column sums its second region accumulates, and the one-pass variance max((∑ hb²) / 50000 − μ², 0). For REAL
      entries of hb the two variances are equal, so entry (n, k) of the reference's
      max(((hb − μ) · rsqrt(σ² + ε)) · γ + β, 0) is the kernel program's activation of the same entry (`bn_eq`).
  (3) Hence the reference's second dense layer over those activations is the third region's output (`dense2_eq`).
-/
import proofs.«153679_j86535001080497_2_alg».proof.ReferenceIdeal
import proofs.«153679_j86535001080497_2_alg».proof.Proof.Gen.ReferenceIdeal
import proofs.«153679_j86535001080497_2_alg».proof.Proof.RefRun
import proofs.«153679_j86535001080497_2_alg».proof.Proof.KValue
import proofs.«153679_j86535001080497_2_alg».proof.Proof.Region0
import proofs.«153679_j86535001080497_2_alg».proof.Proof.Region2
import proofs.«153679_j86535001080497_2_alg».proof.Proof.Variance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.NormBridge

open Idealize.ShloMosaic Idealize.ShloMosaic.ValueIdx
open Cert.ReferenceIdeal
open Cert.KernelIdeal (KVal.row KVal.unrow KVal.meanOf KVal.varOf KVal.addBias)

/-! ## The host's matrix product read at an index -/

/-- The product's dimension numbers: the left operand's axis 1 against the right operand's axis 0. -/
abbrev DR := dot_S50000x64_S64x64_S50000x64_1_0_0_1_n_n

/-- The left operand's index at output index (p, q) and contraction position k is (p, k). -/
theorem lhsIdx_eq (p : Fin 50000) (q : Fin 64) (k : Fin 64) :
    DR.lhsIdx (ix2 p q) ((contrEquiv1 DR 64 rfl rfl).symm k) = ix2 p k := by
  funext ax; apply Fin.ext
  match ax with
  | ⟨0, _⟩ => simp [DotDims.lhsIdx, DR, dot_S50000x64_S64x64_S50000x64_1_0_0_1_n_n]; rfl
  | ⟨1, _⟩ => exact (DR.lhsIdx_val_of_single (cl := 1) rfl (ix2 p q) _).trans (contrEquiv1_symm_val DR 64 rfl rfl k)

/-- The right operand's index at output index (p, q) and contraction position k is (k, q). -/
theorem rhsIdx_eq (p : Fin 50000) (q : Fin 64) (k : Fin 64) :
    DR.rhsIdx (ix2 p q) ((contrEquiv1 DR 64 rfl rfl).symm k) = ix2 k q := by
  funext ax; apply Fin.ext
  match ax with
  | ⟨0, _⟩ => exact (DR.rhsIdx_val_of_single (cr := 0) rfl (ix2 p q) _).trans (contrEquiv1_symm_val DR 64 rfl rfl k)
  | ⟨1, _⟩ => simp [DotDims.rhsIdx, DR, dot_S50000x64_S64x64_S50000x64_1_0_0_1_n_n]; rfl

/-- The host's [50000,64] × [64,64] product is, entry by entry, the sum over k of l[n, k] * r[k, j]: the same function of
    its operands as the first region's output is of the arrays it reads. -/
theorem dense_eq (l : FVec Ideal S50000x64 .f32) (r : FVec Ideal S64x64 .f32) :
    Host.dotGeneral (F := Ideal) dot_S50000x64_S64x64_S50000x64_1_0_0_1_n_n none l r = Cert.KernelIdeal.Region0.G l r := by
  funext i
  obtain ⟨p, q, rfl⟩ : ∃ (p : Fin 50000) (q : Fin 64), i = ix2 p q := ⟨i 0, i 1, eq_ix2 i⟩
  refine (Ideal.dotGeneral_apply DR none .single l r (ix2 p q)).trans ?_
  rw [← Equiv.sum_comp (contrEquiv1 DR 64 rfl rfl).symm]
  show _ = ∑ k : Fin 64, l (ix2 p k) * r (ix2 k q)
  refine Finset.sum_congr rfl fun k _ => ?_
  rw [lhsIdx_eq, rhsIdx_eq]

/-! ## Layout operations of the two programs read at an index -/

section Layout
variable {α : Type}

/-- A [1,64] row broadcast over 50000 rows reads, at (n, k), the row at k. -/
theorem bcast_row_apply (v : S1x64.Idx → α) (h : S1x64.BroadcastsInDim S50000x64 ![0, 1]) (n : Fin 50000) (k : Fin 64) :
    broadcastInDim S50000x64 ![0, 1] h v (ix2 n k) = v (ix2 (0 : Fin 1) k) := by
  refine broadcastInDim_apply _ h v (ix2 n k) (ix2 (0 : Fin 1) k) fun a => ?_
  match a with
  | ⟨0, _⟩ => rfl
  | ⟨1, _⟩ => rfl

/-- A vector of 64 numbers broadcast to a [1,64] row reads, at (u, k), the vector at k. -/
theorem bcast_vec_apply (v : S64.Idx → α) (h : S64.BroadcastsInDim S1x64 ![1]) (u : Fin 1) (k : Fin 64) :
    broadcastInDim S1x64 ![1] h v (ix2 u k) = v (ix1 k) := by
  refine broadcastInDim_apply _ h v (ix2 u k) (ix1 k) fun a => ?_
  match a with
  | ⟨0, _⟩ => rfl

/-- A scalar broadcast to any shape reads the scalar everywhere. -/
theorem bcast_scalar_apply {t : Shape} (x : S_.Idx → α) (h : S_.BroadcastsInDim t ![]) (j : t.Idx) :
    broadcastInDim t ![] h x j = x ix0 :=
  broadcastInDim_apply _ h x j ix0 fun a => a.elim0

end Layout

/-! ## The reference's statistics read at an index -/

/-- 50000.0 as both programs spell it: the real number 50000. -/
theorem cN_eq : Ideal.ofBits .f32 0x47435000#32 = ((50000 : ℝ) : EReal) := by
  simp [Ideal.ofBits, Ideal.ieee, -EReal.coe_mul]; norm_num

/-- The host's quotient, entry by entry. -/
theorem hdivf_apply {s : Shape} (x y : FVec Ideal s .f32) (i : s.Idx) : Host.divf (F := Ideal) x y i = Ideal.div (x i) (y i) := rfl

/-- The host's reciprocal square root, entry by entry. -/
theorem hrsqrt_apply {s : Shape} (x : FVec Ideal s .f32) (i : s.Idx) : Host.rsqrt (F := Ideal) x i = Ideal.rsqrt (x i) := rfl

/-- The host's sum over the rows, from zero, at column k: the plain sum of the column. -/
theorem colsum_apply (x : FVec Ideal S50000x64 .f32) (h' : S50000x64.ReducesTo [0] S64) (hu : 0 < S_.numel) (k : Fin 64) :
    Host.reduceAdd (F := Ideal) x (constant (F := Ideal) S_ .f32 0x00000000#32) h' hu (ix1 k) = ∑ n : Fin 50000, x (ix2 n k) := by
  have hR : S50000x64.Reduces [0] S64 := by decide
  show Ideal.hostReduceAdd h' x (Ideal.ofBits .f32 0x00000000#32) (ix1 k) = _
  rw [Ideal.hostReduceAdd_single h' hR, Ideal.ofBits_zero_f32, zero_add]
  refine Finset.sum_congr rfl fun n _ => congrArg x ?_
  funext a
  match a with
  | ⟨0, _⟩ => rfl
  | ⟨1, _⟩ => rfl

/-- The reference's column mean: the column sum over 50000. -/
theorem mean_apply (hb : FVec Ideal S50000x64 .f32) (k : Fin 64) :
    RefRun.mean (F := Ideal) hb (ix1 k) = Ideal.div (∑ n : Fin 50000, hb (ix2 n k)) (Ideal.ofBits .f32 0x47435000#32) := by
  unfold RefRun.mean
  rw [hdivf_apply, colsum_apply, bcast_scalar_apply]
  rfl

/-- The deviations from the column means as the variance computes them. -/
theorem center_apply (hb : FVec Ideal S50000x64 .f32) (n : Fin 50000) (k : Fin 64) :
    RefRun.center (F := Ideal) hb (ix2 n k)
      = hb (ix2 n k) - Ideal.div (∑ m : Fin 50000, hb (ix2 m k)) (Ideal.ofBits .f32 0x47435000#32) := by
  unfold RefRun.center
  rw [subf_apply, bcast_row_apply, hdivf_apply, bcast_vec_apply, colsum_apply, bcast_scalar_apply]
  rfl

/-- The variance's divisor as the reference spells it, 50000.0 minus the float of the integer 0, is 50000.0. -/
theorem den_apply (i : S_.Idx) :
    (subf (constant (F := Ideal) S_ .f32 0x47435000#32) (sitofp (F := Ideal) .f32 (constantI S_ 32 0#32)) : FVec Ideal S_ .f32) i
      = Ideal.ofBits .f32 0x47435000#32 := by
  show Ideal.ofBits .f32 0x47435000#32 - (((0#32 : BitVec 32).toInt : ℝ) : EReal) = _
  have h0 : ((0#32 : BitVec 32).toInt) = 0 := by decide
  rw [h0]
  simp

/-- 50000 is above zero, so the reference's guard on its divisor holds. -/
theorem guard_eq : FloatOps.cmpf (F := Ideal) .ogt (Ideal.ofBits .f32 0x47435000#32 : Ideal .f32) (Ideal.ofBits .f32 0x00000000#32 : Ideal .f32) = 1#1 := by
  show BitVec.ofBool (decide ((Ideal.ofBits .f32 0x00000000#32 : EReal) < Ideal.ofBits .f32 0x47435000#32)) = 1#1
  rw [cN_eq, Ideal.ofBits_zero_f32]
  have : (0 : EReal) < ((50000 : ℝ) : EReal) := by exact_mod_cast (by norm_num : (0 : ℝ) < 50000)
  rw [decide_eq_true this]
  rfl

/-- The reference's column variance: the column sum of the squared deviations over 50000 (its guard holds). -/
theorem variance_apply (hb : FVec Ideal S50000x64 .f32) (k : Fin 64) :
    RefRun.variance (F := Ideal) hb (ix1 k)
      = Ideal.div (∑ n : Fin 50000,
            (hb (ix2 n k) - Ideal.div (∑ m : Fin 50000, hb (ix2 m k)) (Ideal.ofBits .f32 0x47435000#32))
            * (hb (ix2 n k) - Ideal.div (∑ m : Fin 50000, hb (ix2 m k)) (Ideal.ofBits .f32 0x47435000#32)))
          (Ideal.ofBits .f32 0x47435000#32) := by
  unfold RefRun.variance
  simp only [select_apply, bcast_scalar_apply, cmpf_apply, hdivf_apply, colsum_apply, den_apply, mulf_apply, center_apply]
  rw [bcast_scalar_apply (t := S64) _ _ (ix1 k), bcast_scalar_apply (t := S64) _ _ (ix1 k), bcast_scalar_apply (t := S64) _ _ (ix1 k),
    cmpf_apply, den_apply, constant_apply, guard_eq, select_one]

/-- The reference's normalised, scaled, shifted and rectified entry (n, k). -/
theorem bnRelu_apply (hb : FVec Ideal S50000x64 .f32) (gamma beta : FVec Ideal S64 .f32) (n : Fin 50000) (k : Fin 64) :
    RefRun.bnRelu (F := Ideal) hb gamma beta (ix2 n k)
      = max ((((hb (ix2 n k) - RefRun.mean (F := Ideal) hb (ix1 k))
            * Ideal.rsqrt (RefRun.variance (F := Ideal) hb (ix1 k) + Ideal.ofBits .f32 0x3727C5AC#32))
          * gamma (ix1 k)) + beta (ix1 k)) 0 := by
  unfold RefRun.bnRelu
  rw [maximumf_apply, addf_apply, mulf_apply, mulf_apply, subf_apply]
  rw [bcast_row_apply _ _ n k, bcast_row_apply _ _ n k, bcast_row_apply _ _ n k, bcast_row_apply _ _ n k,
    bcast_vec_apply _ _ 0 k, bcast_vec_apply _ _ 0 k, bcast_vec_apply _ _ 0 k, bcast_vec_apply _ _ 0 k,
    hrsqrt_apply, addf_apply, bcast_scalar_apply (t := S64) _ _ (ix1 k), bcast_scalar_apply (t := S50000x64) _ _ (ix2 n k),
    constant_apply, constant_apply, Ideal.ofBits_zero_f32]

/-- The bias added to every row, at (n, k). -/
theorem addBias_apply (cv : FVec Ideal S50000x64 .f32) (b1 : FVec Ideal S64 .f32) (n : Fin 50000) (k : Fin 64) :
    RefRun.addBias (F := Ideal) cv b1 (ix2 n k) = cv (ix2 n k) + b1 (ix1 k) := by
  unfold RefRun.addBias
  rw [addf_apply, bcast_row_apply _ _ n k, bcast_vec_apply _ _ 0 k]

/-- The kernel program's bias stage is the reference's. -/
theorem addBias_eq (cv : FVec Ideal S50000x64 .f32) (b1 : FVec Ideal S64 .f32) :
    Cert.KernelIdeal.KVal.addBias cv b1 = RefRun.addBias (F := Ideal) cv b1 := rfl

/-! ## The kernel program's statistics read at an index -/

/-- A vector of 64 numbers as a row reads, at (u, k), the vector at k. -/
theorem row_apply (v : FVec Ideal S64 .f32) (u : Fin 1) (k : Fin 64) : Cert.KernelIdeal.KVal.row v (ix2 u k) = v (ix1 k) := by
  unfold Cert.KernelIdeal.KVal.row
  exact shapeCast_a_1a_apply v _ u k

/-- A row as a vector reads, at k, the row at (0, k). -/
theorem unrow_apply (v : FVec Ideal S1x64 .f32) (k : Fin 64) : Cert.KernelIdeal.KVal.unrow v (ix1 k) = v (ix2 (0 : Fin 1) k) := by
  unfold Cert.KernelIdeal.KVal.unrow
  exact shapeCast_1a_a_apply v _ k

/-- The kernel program's column mean: the column sum over 50000. -/
theorem meanOf_apply (S : FVec Ideal S1x64 .f32) (k : Fin 64) :
    Cert.KernelIdeal.KVal.meanOf S (ix1 k) = Ideal.div (S (ix2 (0 : Fin 1) k)) (Ideal.ofBits .f32 0x47435000#32) := by
  unfold Cert.KernelIdeal.KVal.meanOf
  rw [hdivf_apply, unrow_apply, bcast_scalar_apply (t := S64) _ _ (ix1 k)]
  rfl

/-- The kernel program's column variance: the mean of the squares minus the square of the mean, not below 0. -/
theorem varOf_apply (S Q : FVec Ideal S1x64 .f32) (k : Fin 64) :
    Cert.KernelIdeal.KVal.varOf S Q (ix1 k)
      = max (Ideal.div (Q (ix2 (0 : Fin 1) k)) (Ideal.ofBits .f32 0x47435000#32)
          - Ideal.div (S (ix2 (0 : Fin 1) k)) (Ideal.ofBits .f32 0x47435000#32) * Ideal.div (S (ix2 (0 : Fin 1) k)) (Ideal.ofBits .f32 0x47435000#32)) 0 := by
  unfold Cert.KernelIdeal.KVal.varOf
  rw [maximumf_apply, subf_apply, mulf_apply, hdivf_apply, unrow_apply, meanOf_apply,
    bcast_scalar_apply (t := S64) _ _ (ix1 k), bcast_scalar_apply (t := S64) _ _ (ix1 k), constant_apply, constant_apply, Ideal.ofBits_zero_f32]

/-! ## The batch-norm stage: reference against kernel -/

/-- Entry (n, k) of the reference's normalised and rectified activations is the kernel program's activation of the
    conv entry (n, k) with the bias, the one-pass statistics, the scale and the shift of column k — for REAL entries of
    (conv + bias): both are max(((h − μ) · rsqrt(σ² + ε)) · γ + β, 0) with the same mean μ, and the two-pass variance of
    real numbers is the one-pass variance clamped at 0. -/
theorem bn_eq (cv : FVec Ideal S50000x64 .f32) (b1 gamma beta : FVec Ideal S64 .f32)
    (hreal : ∀ i, ∃ r : ℝ, RefRun.addBias (F := Ideal) cv b1 i = (r : EReal))
    (S Q : FVec Ideal S1x64 .f32)
    (hS : ∀ k : Fin 64, S (ix2 (0 : Fin 1) k)
      = ∑ n : Fin 50000, (cv (ix2 n k) + Cert.KernelIdeal.KVal.row b1 (ix2 (0 : Fin 1) k)))
    (hQ : ∀ k : Fin 64, Q (ix2 (0 : Fin 1) k)
      = ∑ n : Fin 50000, (cv (ix2 n k) + Cert.KernelIdeal.KVal.row b1 (ix2 (0 : Fin 1) k))
          * (cv (ix2 n k) + Cert.KernelIdeal.KVal.row b1 (ix2 (0 : Fin 1) k)))
    (n : Fin 50000) (k : Fin 64) :
    RefRun.bnRelu (F := Ideal) (RefRun.addBias (F := Ideal) cv b1) gamma beta (ix2 n k)
      = Cert.KernelIdeal.Region2.act1 (cv (ix2 n k)) (Cert.KernelIdeal.KVal.row b1 (ix2 (0 : Fin 1) k))
          (Cert.KernelIdeal.KVal.row (Cert.KernelIdeal.KVal.meanOf S) (ix2 (0 : Fin 1) k))
          (Cert.KernelIdeal.KVal.row (Cert.KernelIdeal.KVal.varOf S Q) (ix2 (0 : Fin 1) k))
          (Cert.KernelIdeal.KVal.row gamma (ix2 (0 : Fin 1) k)) (Cert.KernelIdeal.KVal.row beta (ix2 (0 : Fin 1) k)) := by
  choose f hf using fun m : Fin 50000 => hreal (ix2 m k)
  have hcv : ∀ m : Fin 50000, cv (ix2 m k) + b1 (ix1 k) = (f m : EReal) := fun m => (addBias_apply cv b1 m k).symm.trans (hf m)
  have hSk : S (ix2 (0 : Fin 1) k) = ∑ m : Fin 50000, (f m : EReal) := by
    rw [hS k]; exact Finset.sum_congr rfl fun m _ => by rw [row_apply, hcv]
  have hQk : Q (ix2 (0 : Fin 1) k) = ∑ m : Fin 50000, (f m : EReal) * (f m : EReal) := by
    rw [hQ k]; exact Finset.sum_congr rfl fun m _ => by rw [row_apply, hcv]
  rw [bnRelu_apply, mean_apply, variance_apply]
  unfold Cert.KernelIdeal.Region2.act1
  rw [row_apply, row_apply, row_apply, row_apply, row_apply, meanOf_apply, varOf_apply, hSk, hQk, hcv n]
  simp only [hf]
  rw [Cert.BatchStats.var_bridge 50000 (by norm_num) (by simp) f (Ideal.ofBits .f32 0x47435000#32) cN_eq]

/-! ## The second matrix product: reference against kernel -/

/-- The reference's second dense layer over its normalised activations is the third region's output as a function of
    the conv array, the bias row, the one-pass statistics, the scale, the shift and the second weight matrix. -/
theorem dense2_eq (cv : FVec Ideal S50000x64 .f32) (b1 gamma beta : FVec Ideal S64 .f32)
    (hreal : ∀ i, ∃ r : ℝ, RefRun.addBias (F := Ideal) cv b1 i = (r : EReal))
    (S Q : FVec Ideal S1x64 .f32)
    (hS : ∀ k : Fin 64, S (ix2 (0 : Fin 1) k)
      = ∑ n : Fin 50000, (cv (ix2 n k) + Cert.KernelIdeal.KVal.row b1 (ix2 (0 : Fin 1) k)))
    (hQ : ∀ k : Fin 64, Q (ix2 (0 : Fin 1) k)
      = ∑ n : Fin 50000, (cv (ix2 n k) + Cert.KernelIdeal.KVal.row b1 (ix2 (0 : Fin 1) k))
          * (cv (ix2 n k) + Cert.KernelIdeal.KVal.row b1 (ix2 (0 : Fin 1) k)))
    (w2 : FVec Ideal S64x64 .f32) :
    Host.dotGeneral (F := Ideal) dot_S50000x64_S64x64_S50000x64_1_0_0_1_n_n none
        (RefRun.bnRelu (F := Ideal) (RefRun.addBias (F := Ideal) cv b1) gamma beta) w2
      = Cert.KernelIdeal.Region2.G cv (Cert.KernelIdeal.KVal.row b1) (Cert.KernelIdeal.KVal.row (Cert.KernelIdeal.KVal.meanOf S))
          (Cert.KernelIdeal.KVal.row (Cert.KernelIdeal.KVal.varOf S Q)) (Cert.KernelIdeal.KVal.row gamma)
          (Cert.KernelIdeal.KVal.row beta) w2 := by
  rw [dense_eq]
  funext i
  obtain ⟨p, q, rfl⟩ : ∃ (p : Fin 50000) (q : Fin 64), i = ix2 p q := ⟨i 0, i 1, eq_ix2 i⟩
  rw [Cert.KernelIdeal.Region0.G_apply, Cert.KernelIdeal.Region2.G_apply]
  refine Finset.sum_congr rfl fun k _ => ?_
  show RefRun.bnRelu (F := Ideal) (RefRun.addBias (F := Ideal) cv b1) gamma beta (ix2 p k) * w2 (ix2 k q) = _
  rw [bn_eq cv b1 gamma beta hreal S Q hS hQ p k]

/-- The same statements over the reference's named stages. -/
theorem dense_eq' (l : FVec Ideal S50000x64 .f32) (r : FVec Ideal S64x64 .f32) :
    RefRun.dense (F := Ideal) l r = Cert.KernelIdeal.Region0.G l r := dense_eq l r

theorem dense2_eq' (cv : FVec Ideal S50000x64 .f32) (b1 gamma beta : FVec Ideal S64 .f32)
    (hreal : ∀ i, ∃ r : ℝ, RefRun.addBias (F := Ideal) cv b1 i = (r : EReal))
    (S Q : FVec Ideal S1x64 .f32)
    (hS : ∀ k : Fin 64, S (ix2 (0 : Fin 1) k)
      = ∑ n : Fin 50000, (cv (ix2 n k) + Cert.KernelIdeal.KVal.row b1 (ix2 (0 : Fin 1) k)))
    (hQ : ∀ k : Fin 64, Q (ix2 (0 : Fin 1) k)
      = ∑ n : Fin 50000, (cv (ix2 n k) + Cert.KernelIdeal.KVal.row b1 (ix2 (0 : Fin 1) k))
          * (cv (ix2 n k) + Cert.KernelIdeal.KVal.row b1 (ix2 (0 : Fin 1) k)))
    (w2 : FVec Ideal S64x64 .f32) :
    RefRun.dense (F := Ideal) (RefRun.bnRelu (F := Ideal) (RefRun.addBias (F := Ideal) cv b1) gamma beta) w2
      = Cert.KernelIdeal.Region2.G cv (Cert.KernelIdeal.KVal.row b1) (Cert.KernelIdeal.KVal.row (Cert.KernelIdeal.KVal.meanOf S))
          (Cert.KernelIdeal.KVal.row (Cert.KernelIdeal.KVal.varOf S Q)) (Cert.KernelIdeal.KVal.row gamma)
          (Cert.KernelIdeal.KVal.row beta) w2 :=
  dense2_eq cv b1 gamma beta hreal S Q hS hQ w2

end Cert.NormBridge
end
-- ==== Proof.Bridge.lean ====
/-
  The reference's function of the arguments is the kernel program's.

  Three facts join them. The graph convolution: the reference's "message times both normalisers, then summed at the
  destination" is the kernel program's "rows scaled, gathered, summed, rows scaled again", because each normaliser is a
  non-negative real. The dense products: a whole matrix product is the block-wise one, entry by entry. The batch
  normalisation: for the first layer's entries — real numbers, because the inputs are — the two-pass variance is the
  clamped one-pass variance, and the two programs then apply the same arithmetic entry by entry. Everything else
  (the node ids, the degrees, the bias, the pooling) is the same operations in both programs.
-/
import proofs.«153679_j86535001080497_2_alg».proof.Proof.KOut
import proofs.«153679_j86535001080497_2_alg».proof.Proof.RefRun
import proofs.«153679_j86535001080497_2_alg».proof.Proof.StageEq
import proofs.«153679_j86535001080497_2_alg».proof.Proof.Propagate
import proofs.«153679_j86535001080497_2_alg».proof.Proof.Finite
import proofs.«153679_j86535001080497_2_alg».proof.Proof.NormBridge

noncomputable section

namespace Cert.Bridge

open Idealize.ShloMosaic

/-- The reference's convolution is the kernel program's, on every array `h`. -/
theorem prop_spread (ei : IVec Cert.ReferenceIdeal.S2x800000 32) (h : FVec Ideal Cert.ReferenceIdeal.S50000x64 .f32) :
    Cert.ReferenceIdeal.RefRun.prop (F := Ideal) ei h
      = Cert.KernelIdeal.KVal.spread (Cert.KernelIdeal.KVal.col (Cert.KernelIdeal.KVal.ids 1 ei)) (Cert.KernelIdeal.KVal.ids 0 ei)
          (Cert.KernelIdeal.KVal.ids 1 ei) h :=
  Cert.Propagate.prop_eq Cert.KernelIdeal.Gen.bcast_S50000_S50000x1_0 Cert.KernelIdeal.Gen.bcast_S50000x1_S50000x64_0_1 h
    (Cert.Propagate.dinvTerm (Cert.ReferenceIdeal.RefRun.dst ei)) (Cert.ReferenceIdeal.RefRun.src ei) (Cert.ReferenceIdeal.RefRun.dst ei)
    (Cert.Propagate.dinv_nonneg_real (Cert.ReferenceIdeal.RefRun.dst ei))

/-- The normaliser column holds real numbers. -/
theorem col_real (ei : IVec Cert.ReferenceIdeal.S2x800000 32) :
    Cert.Finite.IsReal (S := Cert.KernelIdeal.S50000x1) (Cert.KernelIdeal.KVal.col (Cert.KernelIdeal.KVal.ids 1 ei)) := by
  have hd : Cert.Finite.IsReal (S := Cert.KernelIdeal.S50000) (Cert.KernelIdeal.KVal.dinv (Cert.KernelIdeal.KVal.ids 1 ei)) := fun n => by
    obtain ⟨r, -, hr⟩ := Cert.Propagate.dinv_nonneg_real (Cert.ReferenceIdeal.RefRun.dst ei) n
    exact ⟨r, hr⟩
  exact hd.broadcastInDim _ _

/-- The second layer's dense part: the reference's batch normalisation, clamp and whole matrix product of the first
    layer is the kernel program's, when the first layer's inputs are real numbers. -/
theorem layer2_eq (x : FVec Ideal Cert.ReferenceIdeal.S50000x64 .f32) (ei : IVec Cert.ReferenceIdeal.S2x800000 32)
    (w1 : FVec Ideal Cert.ReferenceIdeal.S64x64 .f32) (b1 gamma beta : FVec Ideal Cert.ReferenceIdeal.S64 .f32)
    (w2 : FVec Ideal Cert.ReferenceIdeal.S64x64 .f32)
    (hx : Cert.Finite.IsReal (S := Cert.KernelIdeal.S50000x64) x) (hw1 : Cert.Finite.IsReal (S := Cert.KernelIdeal.S64x64) w1)
    (hb1 : Cert.Finite.IsReal (S := Cert.KernelIdeal.S64) b1) :
    Cert.ReferenceIdeal.RefRun.dense (F := Ideal)
        (Cert.ReferenceIdeal.RefRun.bnRelu (F := Ideal)
          (Cert.ReferenceIdeal.RefRun.addBias (F := Ideal) (Cert.KernelIdeal.KOut.layer1 x ei w1) b1) gamma beta) w2
      = Cert.KernelIdeal.KOut.layer2 (Cert.KernelIdeal.KOut.layer1 x ei w1) b1 gamma beta w2 :=
  Cert.NormBridge.dense2_eq' (Cert.KernelIdeal.KOut.layer1 x ei w1) b1 gamma beta
    (Cert.Finite.real_layer1 _ _ _ x w1 b1 (col_real ei) hx hw1 hb1)
    (Cert.KernelIdeal.KOut.colSum (Cert.KernelIdeal.KOut.layer1 x ei w1) (Cert.KernelIdeal.KVal.row b1))
    (Cert.KernelIdeal.KOut.colSumSq (Cert.KernelIdeal.KOut.layer1 x ei w1) (Cert.KernelIdeal.KVal.row b1))
    (fun _ => rfl) (fun _ => rfl) w2

/-- The two programs compute one function of the arguments, when the node features, the first weight matrix and the
    first bias hold real numbers. -/
theorem out_eq (x : FVec Ideal Cert.KernelIdeal.S50000x64 .f32) (ei : IVec Cert.KernelIdeal.S2x800000 32) (batch : IVec Cert.KernelIdeal.S50000 32)
    (w1 : FVec Ideal Cert.KernelIdeal.S64x64 .f32) (b1 gamma beta : FVec Ideal Cert.KernelIdeal.S64 .f32) (w2 : FVec Ideal Cert.KernelIdeal.S64x64 .f32)
    (b2 : FVec Ideal Cert.KernelIdeal.S64 .f32)
    (hx : ∀ i, ∃ r : ℝ, x i = (r : EReal)) (hw1 : ∀ i, ∃ r : ℝ, w1 i = (r : EReal)) (hb1 : ∀ i, ∃ r : ℝ, b1 i = (r : EReal)) :
    Cert.ReferenceIdeal.RefRun.out (F := Ideal) x ei batch w1 b1 gamma beta w2 b2 = Cert.KernelIdeal.KOut.out x ei batch w1 b1 gamma beta w2 b2 := by
  unfold Cert.ReferenceIdeal.RefRun.out Cert.KernelIdeal.KOut.out
  rw [prop_spread, prop_spread, Cert.NormBridge.dense_eq' x w1]
  rw [show Cert.KernelIdeal.KVal.spread (Cert.KernelIdeal.KVal.col (Cert.KernelIdeal.KVal.ids 1 ei)) (Cert.KernelIdeal.KVal.ids 0 ei)
        (Cert.KernelIdeal.KVal.ids 1 ei) (Cert.KernelIdeal.Region0.G x w1) = Cert.KernelIdeal.KOut.layer1 x ei w1 from rfl]
  rw [layer2_eq x ei w1 b1 gamma beta w2 hx hw1 hb1, ← Cert.StageEq.addBias_eq, ← Cert.StageEq.pool_eq]

end Cert.Bridge

end
-- ==== Proof.lean ====
/-
  Two programs for one graph network are equal on the extended reals: a kernel program and its reference.

  The network: node features x [50000, 64]; edges (with a self-loop added at every node); a graph convolution
  h ↦ D^(-1/2) (A + I) D^(-1/2) h applied after each of two dense layers, D the diagonal of the in-degrees; batch
  normalisation with the batch's own statistics and a clamp at 0 between them; the mean over the nodes of each of 64
  graphs at the end. The reference multiplies every edge's message by the product of the two normalisers before it
  sums the messages at their destinations; the kernel program scales the rows before the gather and after the sum.
  The reference takes the two-pass variance; the kernel program sums the entries and their squares in one pass over
  five row blocks and clamps the difference at 0. The reference's two matrix products are whole; the kernel program's
  are taken block by block. At the ideal instance all of these agree: the normalisers are non-negative reals, so they
  move across a sum of extended reals; the first layer's entries are real numbers when the inputs are, so the two
  variances agree; sums regroup freely.

  The three frames: the two kernel programs' by the generated frame certificates, the reference's from its run.
  The idealised kernel program is the kernel program's own text read at the ideal instance (no rewrite was applied).
-/
import proofs.«153679_j86535001080497_2_alg».proof.Defs
import proofs.«153679_j86535001080497_2_alg».proof.Proof.Gen.Kernel
import proofs.«153679_j86535001080497_2_alg».proof.Proof.Gen.Kernel.Frame
import proofs.«153679_j86535001080497_2_alg».proof.Proof.Gen.KernelIdeal
import proofs.«153679_j86535001080497_2_alg».proof.Proof.Gen.KernelIdeal.Frame
import proofs.«153679_j86535001080497_2_alg».proof.Proof.Gen.ReferenceIdeal
import proofs.«153679_j86535001080497_2_alg».proof.Proof.Gen.Pre_finite_inputs
import proofs.«153679_j86535001080497_2_alg».proof.Proof.KRun
import proofs.«153679_j86535001080497_2_alg».proof.Proof.KOut
import proofs.«153679_j86535001080497_2_alg».proof.Proof.RefRun
import proofs.«153679_j86535001080497_2_alg».proof.Proof.Finite
import proofs.«153679_j86535001080497_2_alg».proof.Proof.Bridge
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end, from memories that agree on the arguments, with the kernel program's function of the arguments
    in their result arrays. -/
theorem algebraic : Cert.algebraic_KernelIdeal_ReferenceIdeal := by
  intro m ρ m' ρ' hpre hagree
  refine ⟨fun c => Cert.KernelIdeal.KOut.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KOut.value m ρ c), (h c).2⟩) (Cert.KernelIdeal.KRun.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8⟩ := hagree c
    rw [h0, h1, h2, h3, h4, h5, h6, h7, h8]
    obtain ⟨r0, r3, r4, -, -, -, -⟩ := Cert.Finite.real_of_pre m hpre c
    exact Cert.Bridge.out_eq _ _ _ _ _ _ _ _ _ r0 r3 r4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
